-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x128 : Shape := ⟨3, ![512, 128, 128]⟩
abbrev S512 : Shape := ⟨1, ![512]⟩
abbrev S_ : Shape := ⟨0, ![]⟩

class Facts : Prop where
  bcast_S_S512x128x128 : S_.BroadcastsInDim S512x128x128 (![] : Fin 0 → Fin S512x128x128.rank)
  reducesTo_S512x128x128_S_d0_1_2 : S512x128x128.ReducesTo [0, 1, 2] S_
  h_S_ : 0 < S_.numel

variable [Facts]

def fn {F : FTy → Type} [FloatOps F] (main_arg0 : FVec F S512x128x128 .f32) (main_arg1 : FVec F S512x128x128 .f32) (main_arg2 : FVec F S512x128x128 .f32) (main_arg3 : IVec S512 32) : IVec S_ 1 :=
  let main_v0 : FVec F S512x128x128 .f32 := Host.absf main_arg0
  let main_cst : FVec F S_ .f32 := constant S_ .f32 0x7F800000#32
  let main_v1 : FVec F S512x128x128 .f32 := broadcastInDim S512x128x128 ![] bcast_S_S512x128x128 main_cst
  let main_v2 : IVec S512x128x128 1 := cmpf .olt main_v0 main_v1
  let main_c : IVec S_ 1 := constantI S_ 1 1#1
  let main_v3 : IVec S_ 1 := (fun x v => Host.reduce IntOp.andi x v reducesTo_S512x128x128_S_d0_1_2 h_S_) main_v2 main_c
  let main_v4 : FVec F S512x128x128 .f32 := Host.absf main_arg1
  let main_cst_0 : FVec F S_ .f32 := constant S_ .f32 0x7F800000#32
  let main_v5 : FVec F S512x128x128 .f32 := broadcastInDim S512x128x128 ![] bcast_S_S512x128x128 main_cst_0
  let main_v6 : IVec S512x128x128 1 := cmpf .olt main_v4 main_v5
  let main_c_1 : IVec S_ 1 := constantI S_ 1 1#1
  let main_v7 : IVec S_ 1 := (fun x v => Host.reduce IntOp.andi x v reducesTo_S512x128x128_S_d0_1_2 h_S_) main_v6 main_c_1
  let main_v8 : IVec S_ 1 := andi main_v3 main_v7
  let main_v9 : FVec F S512x128x128 .f32 := Host.absf main_arg2
  let main_cst_2 : FVec F S_ .f32 := constant S_ .f32 0x7F800000#32
  let main_v10 : FVec F S512x128x128 .f32 := broadcastInDim S512x128x128 ![] bcast_S_S512x128x128 main_cst_2
  let main_v11 : IVec S512x128x128 1 := cmpf .olt main_v9 main_v10
  let main_c_3 : IVec S_ 1 := constantI S_ 1 1#1
  let main_v12 : IVec S_ 1 := (fun x v => Host.reduce IntOp.andi x v reducesTo_S512x128x128_S_d0_1_2 h_S_) main_v11 main_c_3
  let main_v13 : IVec S_ 1 := andi main_v8 main_v12
  main_v13
-- ==== Kernel.lean ====
abbrev S512x128x128 : Shape := ⟨3, ![512, 128, 128]⟩
abbrev S512 : Shape := ⟨1, ![512]⟩
abbrev S512x16384 : Shape := ⟨2, ![512, 16384]⟩
abbrev S512x1 : Shape := ⟨2, ![512, 1]⟩
abbrev S1x512 : Shape := ⟨2, ![1, 512]⟩
abbrev S16x128 : Shape := ⟨2, ![16, 128]⟩
abbrev S256x1024 : Shape := ⟨2, ![256, 1024]⟩
abbrev S512x1024 : Shape := ⟨2, ![512, 1024]⟩
abbrev S256x1 : Shape := ⟨2, ![256, 1]⟩
abbrev S8x128 : Shape := ⟨2, ![8, 128]⟩
abbrev S256x512 : Shape := ⟨2, ![256, 512]⟩
abbrev S256 : Shape := ⟨1, ![256]⟩
abbrev S1 : Shape := ⟨1, ![1]⟩
abbrev S1x1 : Shape := ⟨2, ![1, 1]⟩
abbrev S_ : Shape := ⟨0, ![]⟩

abbrev nBuf : Space → Nat
  | .hbm => 17
  | .vmem => 19
  | .smem => 0
  | _ => 0

abbrev bufTy : (tb : Table) → Fin (tcTables nBuf tb) → BufTy
  | .hbm, ⟨0, _⟩ => ⟨S512x128x128, .f32⟩
  | .hbm, ⟨1, _⟩ => ⟨S512x128x128, .f32⟩
  | .hbm, ⟨2, _⟩ => ⟨S512x128x128, .f32⟩
  | .hbm, ⟨3, _⟩ => ⟨S512, .i32⟩
  | .hbm, ⟨4, _⟩ => ⟨S512x16384, .f32⟩
  | .hbm, ⟨5, _⟩ => ⟨S512x16384, .f32⟩
  | .hbm, ⟨6, _⟩ => ⟨S512x16384, .f32⟩
  | .hbm, ⟨7, _⟩ => ⟨S512x1, .i32⟩
  | .hbm, ⟨8, _⟩ => ⟨S1x512, .i32⟩
  | .hbm, ⟨9, _⟩ => ⟨S16x128, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S256x1024, .f32⟩
  | .local _ .vmem, ⟨5, _⟩ => ⟨S256x1024, .f32⟩
  | .local _ .vmem, ⟨6, _⟩ => ⟨S512x1024, .f32⟩
  | .local _ .vmem, ⟨7, _⟩ => ⟨S512x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .f32⟩
  | .local _ .vmem, ⟨11, _⟩ => ⟨S512x1024, .f32⟩
  | .local _ .vmem, ⟨12, _⟩ => ⟨S256x1, .i32⟩
  | .local _ .vmem, ⟨13, _⟩ => ⟨S256x1, .i32⟩
  | .local _ .vmem, ⟨14, _⟩ => ⟨S1x512, .i32⟩
  | .local _ .vmem, ⟨15, _⟩ => ⟨S8x128, .f32⟩
  | .local _ .vmem, ⟨16, _⟩ => ⟨S8x128, .f32⟩
  | .local _ .vmem, ⟨17, _⟩ => ⟨S256x512, .f32⟩
  | .local _ .vmem, ⟨18, _⟩ => ⟨S512x1, .f32⟩
  | _, _ => ⟨S512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v69 : BitVec 1 := Scalar.cmpi .eq arg1 c15_i32
  let v70 : BitVec 32 := Scalar.extui v69
  let c0_i32_47 : BitVec 32 := 0#32
  let v71 : BitVec 1 := Scalar.cmpi .ne v70 c0_i32_47
  v71

def k0_mult1 (i : grid0.Coords) : BitVec 32 :=
  let arg0 : BitVec 32 := BitVec.ofNat 32 (i 0).val
  let c256_i32 : BitVec 32 := 256#32
  let v72 : BitVec 32 := Scalar.muli arg0 c256_i32
  v72
def k0_off1 (i : grid0.Coords) : Fin 2 → Nat :=
  let arg0 : BitVec 32 := BitVec.ofNat 32 (i 0).val
  let c256_i32 : BitVec 32 := 256#32
  let v72 : BitVec 32 := Scalar.muli arg0 c256_i32
  let v73 : BitVec 32 := v72
  let v74 : Index := Scalar.indexCast v73
  let c0_48 : Index := 0#32
  ![v74.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x512 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S512x128x128_S512x16384 : S512x128x128.ShapeCasts S512x16384
  shapeCasts_S512_S512x1 : S512.ShapeCasts S512x1
  shapeCasts_S512_S1x512 : S512.ShapeCasts S1x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  h_S256x1 : 0 < S256x1.numel
  transposes_S512x1_p1_0_S1x512 : S512x1.Transposes [1, 0] S1x512
  shapeCasts_S256x1_S256x1 : S256x1.ShapeCasts S256x1
  broadcasts_S256x1_S256x512 : S256x1.Broadcasts S256x512
  shapeCasts_S1x512_S1x512 : S1x512.ShapeCasts S1x512
  broadcasts_S1x512_S256x512 : S1x512.Broadcasts S256x512
  inb_S256x1_S256x1_0_0 : ∀ a, (![0, 0] : Fin 2 → Nat) a + S256x1.size a ≤ S256x1.size a
  inb_S1x512_S1x512_0_0 : ∀ a, (![0, 0] : Fin 2 → Nat) a + S1x512.size a ≤ S1x512.size a
  h_S1x512 : 0 < S1x512.numel
  iota_S256x512_d0_w32 : S256x512.Iotas .tc 32 [0]
  iota_S256x512_d1_w32 : S256x512.Iotas .tc 32 [1]
  reduces_S256x512_S256 : S256x512.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  dot_S256x1024_S512x1024_S256x512_1_1_0_0_n_n_wf : DotDims.WF S256x1024 S512x1024 S256x512 [1] [1] [0] [0] [] []
  hrank0 : 0 < grid0.rank
  k0_mult1_dvd : ∀ i : grid0.Coords, ∀ (k0_h2 : k0_cond2 i = 1#1), 256 ∣ (k0_mult1 i).toNat
  k0_off1_inb : ∀ i : grid0.Coords, ∀ (k0_h2 : k0_cond2 i = 1#1), ∀ a, (k0_off1 i) a + S256x1.size a ≤ S512x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x16384.size a
  hwx0_0 : ∀ i : grid0.Coords, EltTy.bits .f32 = 32 ∨ (Rect.block (s := S512x16384) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x16384.size a
  hwx0_1 : ∀ i : grid0.Coords, EltTy.bits .f32 = 32 ∨ (Rect.block (s := S512x16384) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S512x16384.size a
  hwx0_2 : ∀ i : grid0.Coords, EltTy.bits .f32 = 32 ∨ (Rect.block (s := S512x16384) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x16384.size a
  hwx0_3 : ∀ i : grid0.Coords, EltTy.bits .f32 = 32 ∨ (Rect.block (s := S512x16384) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S512x16384.size a
  hwx0_4 : ∀ i : grid0.Coords, EltTy.bits .f32 = 32 ∨ (Rect.block (s := S512x16384) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x16384.size a
  hwx0_5 : ∀ i : grid0.Coords, EltTy.bits .f32 = 32 ∨ (Rect.block (s := S512x16384) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S512x1.size a
  hwx0_6 : ∀ i : grid0.Coords, EltTy.bits .i32 = 32 ∨ (Rect.block (s := S512x1) S256x1.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .i32 = 32 ∨ (Rect.block (s := S1x512) S1x512.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S16x128.size a
  hwx0_8 : ∀ i : grid0.Coords, EltTy.bits .f32 = 32 ∨ (Rect.block (s := S16x128) S8x128.size (cc0_transform_8 i) (hinb0_8 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S512x128x128 : Shape := ⟨3, ![512, 128, 128]⟩
abbrev S512 : Shape := ⟨1, ![512]⟩
abbrev S512x16384 : Shape := ⟨2, ![512, 16384]⟩
abbrev S_ : Shape := ⟨0, ![]⟩
abbrev S512x512 : Shape := ⟨2, ![512, 512]⟩
abbrev S512x1 : Shape := ⟨2, ![512, 1]⟩
abbrev S1x512 : Shape := ⟨2, ![1, 512]⟩

abbrev nBuf : Space → Nat
  | .hbm => 88
  | .vmem => 0
  | .smem => 0
  | _ => 0

abbrev bufTy : (tb : Table) → Fin (tcTables nBuf tb) → BufTy
  | .hbm, ⟨0, _⟩ => ⟨S512x128x128, .f32⟩
  | .hbm, ⟨1, _⟩ => ⟨S512x128x128, .f32⟩
  | .hbm, ⟨2, _⟩ => ⟨S512x128x128, .f32⟩
  | .hbm, ⟨3, _⟩ => ⟨S512, .i32⟩
  | .hbm, ⟨4, _⟩ => ⟨S512x16384, .f32⟩
  | .hbm, ⟨5, _⟩ => ⟨S512x16384, .f32⟩
  | .hbm, ⟨6, _⟩ => ⟨S_, .f32⟩
  | .hbm, ⟨7, _⟩ => ⟨S512, .f32⟩
  | .hbm, ⟨8, _⟩ => ⟨S512x512, .f32⟩
  | .hbm, ⟨9, _⟩ => ⟨S512x1, .f32⟩
  | .hbm, ⟨10, _⟩ => ⟨S1x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x16384, .f32⟩
  | .hbm, ⟨22, _⟩ => ⟨S512x16384, .f32⟩
  | .hbm, ⟨23, _⟩ => ⟨S_, .f32⟩
  | .hbm, ⟨24, _⟩ => ⟨S512, .f32⟩
  | .hbm, ⟨25, _⟩ => ⟨S512x512, .f32⟩
  | .hbm, ⟨26, _⟩ => ⟨S512x1, .f32⟩
  | .hbm, ⟨27, _⟩ => ⟨S1x512, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x16384, .f32⟩
  | .hbm, ⟨40, _⟩ => ⟨S512x16384, .f32⟩
  | .hbm, ⟨41, _⟩ => ⟨S_, .f32⟩
  | .hbm, ⟨42, _⟩ => ⟨S512, .f32⟩
  | .hbm, ⟨43, _⟩ => ⟨S512x512, .f32⟩
  | .hbm, ⟨44, _⟩ => ⟨S512x1, .f32⟩
  | .hbm, ⟨45, _⟩ => ⟨S1x512, .f32⟩
  | .hbm, ⟨46, _⟩ => ⟨S512x512, .f32⟩
  | .hbm, ⟨47, _⟩ => ⟨S512x512, .f32⟩
  | .hbm, ⟨48, _⟩ => ⟨S512x512, .f32⟩
  | .hbm, ⟨49, _⟩ => ⟨S_, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S512x1, .i32⟩
  | .hbm, ⟨58, _⟩ => ⟨S1x512, .i32⟩
  | .hbm, ⟨59, _⟩ => ⟨S512x512, .i32⟩
  | .hbm, ⟨60, _⟩ => ⟨S512x512, .i32⟩
  | .hbm, ⟨61, _⟩ => ⟨S512x512, .i1⟩
  | .hbm, ⟨62, _⟩ => ⟨S_, .f32⟩
  | .hbm, ⟨63, _⟩ => ⟨S512x512, .f32⟩
  | .hbm, ⟨64, _⟩ => ⟨S512x512, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S_, .i1⟩
  | .hbm, ⟨70, _⟩ => ⟨S512x512, .i1⟩
  | .hbm, ⟨71, _⟩ => ⟨S512x512, .i32⟩
  | .hbm, ⟨72, _⟩ => ⟨S_, .i32⟩
  | .hbm, ⟨73, _⟩ => ⟨S512x512, .i32⟩
  | .hbm, ⟨74, _⟩ => ⟨S512x512, .i32⟩
  | .hbm, ⟨75, _⟩ => ⟨S512x512, .i32⟩
  | .hbm, ⟨76, _⟩ => ⟨S512x512, .i1⟩
  | .hbm, ⟨77, _⟩ => ⟨S_, .i1⟩
  | .hbm, ⟨78, _⟩ => ⟨S512x512, .i1⟩
  | .hbm, ⟨79, _⟩ => ⟨S512x512, .i1⟩
  | .hbm, ⟨80, _⟩ => ⟨S_, .f32⟩
  | .hbm, ⟨81, _⟩ => ⟨S_, .f32⟩
  | .hbm, ⟨82, _⟩ => ⟨S512x512, .f32⟩
  | .hbm, ⟨83, _⟩ => ⟨S512x512, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c : Ref sig .tc := ⟨.hbm, 69, rfl⟩
abbrev main_v54 : Ref sig .tc := ⟨.hbm, 70, rfl⟩
abbrev main_call1_v0 : Ref sig .tc := ⟨.hbm, 71, rfl⟩
abbrev main_call1_c : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_c_0 : Ref sig .tc := ⟨.hbm, 77, rfl⟩
abbrev main_call1_v5 : Ref sig .tc := ⟨.hbm, 78, rfl⟩
abbrev main_v55 : Ref sig .tc := ⟨.hbm, 79, rfl⟩
abbrev main_cst_10 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  shapeCasts_S512x128x128_S512x16384 : S512x128x128.ShapeCasts S512x16384
  reducesTo_S512x16384_S512_d1 : S512x16384.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S_d0_1 : S512x512.ReducesTo [0, 1] S_
  dot_S512x16384_S512x16384_S512x512_1_1_0_0_n_n_wf : DotDims.WF S512x16384 S512x16384 S512x512 [1] [1] [0] [0] [] []

variable [Facts₀]

def dot_S512x16384_S512x16384_S512x512_1_1_0_0_n_n : DotDims S512x16384 S512x16384 S512x512 where
  lhsContracting := [1]
  rhsContracting := [1]
  lhsNonContracting := [0]
  rhsNonContracting := [0]
  lhsBatch := []
  rhsBatch := []
  wf := dot_S512x16384_S512x16384_S512x512_1_1_0_0_n_n_wf

class Facts : Prop extends Facts₀ where

variable [Facts]
-- ==== Proof.Bits.Conditions.lean ====
import proofs.«162256_j40226663694515_2_alg».proof.Proof.Gen.Kernel.Launch
import proofs.«162256_j40226663694515_2_alg».proof.Proof.Gen.Kernel.Skeleton
import proofs.«162256_j40226663694515_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test: the grid's second coordinate is 0 (the accumulators are reset there). -/
abbrev cond0 (i : grid0.Coords) : Prop := (Scalar.cmpi .ne (Scalar.extui (Scalar.cmpi .eq (BitVec.ofNat 32 (i 1).val) 0#32)) 0#32) = 1#1
/-- The second conditional's test: the grid's second coordinate is 15 (the last feature block: the loss is formed there). -/
abbrev cond1 (i : grid0.Coords) : Prop := k0_cond2 i = 1#1

variable (m : (ℓ : Loc nD τ sig) → Buf (Elt F) ℓ) (ρ : Dev nD → PrngReg)

/-! ## @main around the region

The five reshapes before the call flatten each field to 512 rows of 16384 features and lay the labels out as a column and
as a row; the seven operations after it add the two cores' partial sums and divide by the number of pairs. -/

/-- Core `c`'s buffer contents when the region is entered: after the five reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshapes, the region, then the closing operations: it reduces to the region continued by the latter. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: a point that does
    not fetch it has the block index of the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: a point that does
    not fetch it has the block index of the point before. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: a point that does
    not fetch it has the block index of the point before. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: a point that does
    not fetch it has the block index of the point before. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: a point that does
    not fetch it has the block index of the point before. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: a point that does
    not fetch it has the block index of the point before. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: a point that does
    not fetch it has the block index of the point before. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: a point that does
    not fetch it has the block index of the point before. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The two conditionals, decided over the grid

The grid is 2 × 16, its points in row-major order: point `t` is row half `t / 16` at feature block `t % 16`. -/

/-- The accumulators are reset at the first feature block of each half. -/
theorem hcond0 : ∀ t : Fin cfg0.N, cond0 (grid0.coords t) ↔ t.val % 16 = 0 :=
  (by decide +kernel : ∀ t : Fin grid0.N, cond0 (grid0.coords t) ↔ t.val % 16 = 0)
/-- The loss is formed at the last feature block of each half. -/
theorem hcond1 : ∀ t : Fin cfg0.N, cond1 (grid0.coords t) ↔ t.val % 16 = 15 :=
  (by decide +kernel : ∀ t : Fin grid0.N, cond1 (grid0.coords t) ↔ t.val % 16 = 15)

/-! ## Where the output window is idle -/

/-- Where the loss is not formed nothing is stored into the output's buffer: the window is idle there, -/
theorem idle8 : ∀ t : Fin cfg0.N, ¬cond1 (grid0.coords t) → cfg0.idle 8 (grid0.coords t) = true := by decide +kernel
/-- and its block is not written back there; -/
theorem noFlush8 : ∀ t : Fin cfg0.N, ¬cond1 (grid0.coords t) → (cfg0.win 8).flush t = false := by decide +kernel
/-- where it is formed the window is live. -/
theorem live8 : ∀ t : Fin cfg0.N, cond1 (grid0.coords t) → cfg0.idle 8 (grid0.coords t) = false := by decide +kernel

/-! ## The memrefs the body is called with -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x128 .f32 := win0_8.stage (cfg0.slots t 8)
abbrev hs8 (t : Fin cfg0.N) : (ms8 t).IsWhole := hstage0_8 ((cfg0.slots t 8).cast nbuf0_8)
/-- One staging buffer of the output window, through which its contents are stated (the choice does not matter). -/
abbrev VO8 : View sig .tc .vmem S8x128 .f32 := (Memref.whole cc0_stg8_0 : Memref sig .tc .vmem S8x128 .f32).view
/-- The Gram accumulator (256 rows of this half against all 512 rows) and the sum-of-squares accumulator (512 rows): scratch
    buffers the kernel carries from one feature block to the next. -/
abbrev scM0 : Memref sig .tc .vmem S256x512 .f32 := Memref.whole cc0_scratch0
abbrev scM1 : Memref sig .tc .vmem S512x1 .f32 := Memref.whole cc0_scratch1
abbrev VS0 : View sig .tc .vmem S256x512 .f32 := scM0.view
abbrev VS1 : View sig .tc .vmem S512x1 .f32 := scM1.view

/-- What the launch hands the region beside the windows: the two accumulators at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Body

end
-- ==== Proof.Bits.PointFirst.lean ====
/-
  The body at the FIRST feature block of a row half (the first conditional taken, the second not): whatever the two
  accumulators held, they are set to zero and then take this block's three Gram products and three sums of squares;
  nothing is stored into the output's buffer, which is handed back as it was found. The run is the symbolic
  executor's over the body's skeleton; what it leaves in each accumulator is the list of pieces it stores, found by
  the run itself.
-/
import proofs.«162256_j40226663694515_2_alg».proof.Proof.Bits.Conditions

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output's buffer (none), the Gram accumulator and the sum-of-squares accumulator
    at a first feature block, with the run that leaves them there. -/
noncomputable def kernelRun_A (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) :
    Σ' (L8 : List (View.Piece (Elt F) S8x128 .f32)) (LS0 : List (View.Piece (Elt F) S256x512 .f32)), { LS1 : List (View.Piece (Elt F) S512x1 .f32) //
      ∀ (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    iexists _; iexact HS1

end Cert.Kernel.Body

end
-- ==== Proof.Bits.PointMiddle.lean ====
/-
  The body at a MIDDLE feature block of a row half (neither conditional taken): the two accumulators, at what the
  block before left, take this block's three Gram products and three sums of squares; nothing is stored into the
  output's buffer, which is handed back as it was found. The run is the symbolic executor's over the body's skeleton;
  what it leaves in each accumulator is the list of pieces it stores, found by the run itself.
-/
import proofs.«162256_j40226663694515_2_alg».proof.Proof.Bits.Conditions

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output's buffer (none), the Gram accumulator and the sum-of-squares accumulator
    at a middle feature block, with the run that leaves them there. -/
noncomputable def kernelRun_B (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) :
    Σ' (L8 : List (View.Piece (Elt F) S8x128 .f32)) (LS0 : List (View.Piece (Elt F) S256x512 .f32)), { LS1 : List (View.Piece (Elt F) S512x1 .f32) //
      ∀ (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    iexists _; iexact HS1

end Cert.Kernel.Body

end
-- ==== Proof.Bits.PointLast.lean ====
/-
  The body at the LAST feature block of a row half (the first conditional not taken, the second taken): the two
  accumulators, at what the block before left, take this block's three Gram products and three sums of squares, and
  the half's loss — the masked sum over its 256 rows of the pair terms formed from the finished accumulators and the
  labels — is stored, repeated over the whole 8 × 128 block, into the output's buffer, whatever that held. The run is
  the symbolic executor's over the body's skeleton; the pieces it stores are found by the run itself.
-/
import proofs.«162256_j40226663694515_2_alg».proof.Proof.Bits.Conditions

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output's buffer, the Gram accumulator and the sum-of-squares accumulator at a last
    feature block, with the run that leaves them there. -/
noncomputable def kernelRun_C (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) :
    Σ' (L8 : List (View.Piece (Elt F) S8x128 .f32)) (LS0 : List (View.Piece (Elt F) S256x512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; iexact HS0
    iexists _; iexact HS1

end Cert.Kernel.Body

end
-- ==== Proof.Bits.Accumulation.lean ====
/-
  What the kernel's region leaves, point by point, and the body obligation.

  The grid's 32 points are two row halves of 16 feature blocks. At each point the body adds, for each of the three
  fields, the product of this half's 256 rows with all 512 rows over the block's 1024 features to the Gram accumulator,
  and the 512 rows' sums of squares over those features to the sum-of-squares accumulator; at a half's first block it
  zeroes both first, and at its last block it forms the half's loss from them and stores it. Here: what each of the three
  kinds of point leaves in the two accumulators and in the output's buffer, as the pieces its run stores read back
  (`sout_…`, `out_…`); the accumulation over the points by recursion (`outsAt`); the region's invariant — the two
  accumulators at what the point before left (`PhiS`); the proof data, in which each field's array, read by two input
  windows, is held by the one at the left half share and by the other at the right half share; and the body
  obligation, by cases on the kind of point.
-/
import proofs.«162256_j40226663694515_2_alg».proof.Proof.Bits.PointFirst
import proofs.«162256_j40226663694515_2_alg».proof.Proof.Bits.PointMiddle
import proofs.«162256_j40226663694515_2_alg».proof.Proof.Bits.PointLast
import Idealize.ShloMosaic.Lib.Ring

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The output's buffer after a point of kind A: the pieces stored there read back (none: a placeholder nothing consults, the window being idle and not written back there). -/
def out_A_8 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) : Vec F S8x128 .f32 :=
  VO8.read (Elt F) (VO8.writes (Elt F) VO8.junk (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)
/-- The pieces stored into the Gram accumulator at a point of kind A cover it. -/
theorem scover_A_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (y : S256x512.Idx) :
    ∃ pc ∈ (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1 S256x512.size (by sl_kernel_rfl) y
/-- The Gram accumulator after a point of kind A. -/
def sout_A_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) : Vec F S256x512 .f32 :=
  VS0.read (Elt F) (VS0.writes (Elt F) VS0.junk (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)
/-- The pieces stored into the sum-of-squares accumulator at a point of kind A cover it. -/
theorem scover_A_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (y : S512x1.Idx) :
    ∃ pc ∈ (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S512x1.size (by sl_kernel_rfl) y
/-- The sum-of-squares accumulator after a point of kind A. -/
def sout_A_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) : Vec F S512x1 .f32 :=
  VS1.read (Elt F) (VS1.writes (Elt F) VS1.junk (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

/-- The output's buffer after a point of kind B: the pieces stored there read back (none: a placeholder nothing consults, the window being idle and not written back there). -/
def out_B_8 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S8x128 .f32 :=
  VO8.read (Elt F) (VO8.writes (Elt F) VO8.junk (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1)
/-- The pieces stored into the Gram accumulator at a point of kind B cover it. -/
theorem scover_B_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) (y : S256x512.Idx) :
    ∃ pc ∈ (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 S256x512.size (by sl_kernel_rfl) y
/-- The Gram accumulator after a point of kind B. -/
def sout_B_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S256x512 .f32 :=
  VS0.read (Elt F) (VS0.writes (Elt F) VS0.junk (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
/-- The pieces stored into the sum-of-squares accumulator at a point of kind B cover it. -/
theorem scover_B_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) (y : S512x1.Idx) :
    ∃ pc ∈ (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 S512x1.size (by sl_kernel_rfl) y
/-- The sum-of-squares accumulator after a point of kind B. -/
def sout_B_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S512x1 .f32 :=
  VS1.read (Elt F) (VS1.writes (Elt F) VS1.junk (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1)

/-- The output's buffer after a point of kind C: the pieces stored there read back. -/
def out_C_8 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S8x128 .f32 :=
  VO8.read (Elt F) (VO8.writes (Elt F) VO8.junk (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1)
/-- The pieces stored into the Gram accumulator at a point of kind C cover it. -/
theorem scover_C_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) (y : S256x512.Idx) :
    ∃ pc ∈ (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 S256x512.size (by sl_kernel_rfl) y
/-- The Gram accumulator after a point of kind C. -/
def sout_C_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S256x512 .f32 :=
  VS0.read (Elt F) (VS0.writes (Elt F) VS0.junk (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
/-- The pieces stored into the sum-of-squares accumulator at a point of kind C cover it. -/
theorem scover_C_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) (y : S512x1.Idx) :
    ∃ pc ∈ (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 S512x1.size (by sl_kernel_rfl) y
/-- The sum-of-squares accumulator after a point of kind C. -/
def sout_C_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S512x1 .f32 :=
  VS1.read (Elt F) (VS1.writes (Elt F) VS1.junk (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1)
/-- The one store into the output's buffer at a last feature block covers it. -/
theorem cover_C_8 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) (y : S8x128.Idx) :
    ∃ pc ∈ (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1 S8x128.size (by sl_kernel_rfl) y

/-! ## The accumulation -/

/-- What the output's buffer, the Gram accumulator and the sum-of-squares accumulator hold after the body at position `n`:
    the kind of point the closed forms select there, run at the point's memrefs and input blocks, over what the point
    before left in the two accumulators. -/
def outsAt (c : Dev nD) : (n : ℕ) → n < cfg0.N → Vec F S8x128 .f32 × Vec F S256x512 .f32 × Vec F S512x1 .f32
  | 0, hn => (out_A_8 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout_A_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout_A_1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 16 = 0 then
      if h1 : (n + 1) % 16 = 15 then
        False.elim (by omega)
      else
        (out_A_8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout_A_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout_A_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 16 = 15 then
        (out_C_8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2, sout_C_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2, sout_C_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2)
      else
        (out_B_8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2, sout_B_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2, sout_B_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2)

/-- At a first feature block: that kind's contents. -/
theorem outsAt_A (c : Dev nD) (t : Fin cfg0.N) (h0 : t.val % 16 = 0) (h1 : ¬t.val % 16 = 15) :
    outsAt m c t.val t.isLt = (out_A_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t), sout_A_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t), sout_A_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- At a middle feature block: that kind's contents, over what the point before left. -/
theorem outsAt_B (c : Dev nD) (t : Fin cfg0.N) (h0 : ¬t.val % 16 = 0) (h1 : ¬t.val % 16 = 15) :
    outsAt m c t.val t.isLt = (out_B_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2, sout_B_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2, sout_B_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last feature block: that kind's contents, over what the point before left. -/
theorem outsAt_C (c : Dev nD) (t : Fin cfg0.N) (h0 : ¬t.val % 16 = 0) (h1 : t.val % 16 = 15) :
    outsAt m c t.val t.isLt = (out_C_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2, sout_C_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2, sout_C_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the two accumulators hold anything; afterwards each holds what the point before left in it. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The proof data -/

/-- The arrays as the region finds them; after the body each input's buffer at its block and the output's at the
    accumulation's first component; the invariant above; nothing owed. Each field's flattened array is read by two input
    windows (this half's 256 rows, and all 512 rows): the first holds it at the left half share, the second at the right. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem live0 : ∀ t : Fin cfg0.N, cfg0.idle 0 (grid0.coords t) = false := by decide +kernel
theorem before1 (c : Dev nD) (t : Fin cfg0.N) (d) : (dats m 0 c).before 1 t d = iblk m c 1 t :=
  before1_of m (dats m 0 c) (A_eq m c 1) (after1 m c) t d
theorem live1 : ∀ t : Fin cfg0.N, cfg0.idle 1 (grid0.coords t) = false := by decide +kernel
theorem before2 (c : Dev nD) (t : Fin cfg0.N) (d) : (dats m 0 c).before 2 t d = iblk m c 2 t :=
  before2_of m (dats m 0 c) (A_eq m c 2) (after2 m c) t d
theorem live2 : ∀ t : Fin cfg0.N, cfg0.idle 2 (grid0.coords t) = false := by decide +kernel
theorem before3 (c : Dev nD) (t : Fin cfg0.N) (d) : (dats m 0 c).before 3 t d = iblk m c 3 t :=
  before3_of m (dats m 0 c) (A_eq m c 3) (after3 m c) t d
theorem live3 : ∀ t : Fin cfg0.N, cfg0.idle 3 (grid0.coords t) = false := by decide +kernel
theorem before4 (c : Dev nD) (t : Fin cfg0.N) (d) : (dats m 0 c).before 4 t d = iblk m c 4 t :=
  before4_of m (dats m 0 c) (A_eq m c 4) (after4 m c) t d
theorem live4 : ∀ t : Fin cfg0.N, cfg0.idle 4 (grid0.coords t) = false := by decide +kernel
theorem before5 (c : Dev nD) (t : Fin cfg0.N) (d) : (dats m 0 c).before 5 t d = iblk m c 5 t :=
  before5_of m (dats m 0 c) (A_eq m c 5) (after5 m c) t d
theorem live5 : ∀ t : Fin cfg0.N, cfg0.idle 5 (grid0.coords t) = false := by decide +kernel
theorem before6 (c : Dev nD) (t : Fin cfg0.N) (d) : (dats m 0 c).before 6 t d = iblk m c 6 t :=
  before6_of m (dats m 0 c) (A_eq m c 6) (after6 m c) t d
theorem live6 : ∀ t : Fin cfg0.N, cfg0.idle 6 (grid0.coords t) = false := by decide +kernel
theorem before7 (c : Dev nD) (t : Fin cfg0.N) (d) : (dats m 0 c).before 7 t d = iblk m c 7 t :=
  before7_of m (dats m 0 c) (A_eq m c 7) (after7 m c) t d
theorem live7 : ∀ t : Fin cfg0.N, cfg0.idle 7 (grid0.coords t) = false := by decide +kernel

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point: the inputs' buffers hold their blocks; the closed forms say which kind of point it is; that
    kind's run applies, the invariant handing it the two accumulators at what the point before left (at anything before
    the first point) and taking them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [Dat.leavesExact_idle (dats m 0 c) 8 t (idle8 t (fun h => h1 ((hcond1 t).mp h))) (noFlush8 t (fun h => h1 ((hcond1 t).mp h)))]
      rw [outsAt_A m c t h0 h1]
      unfold sout_A_0 sout_A_1; (try dsimp only)
      by_cases hz : t.val = 0
      · rw [PhiS_castSucc m c t, PhiS_zero m c _ _ hz, PhiA_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_A c (grid0.coords t) _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_A_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover_A_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_A c (grid0.coords t) _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_A_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover_A_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

  · by_cases h1 : t.val % 16 = 15
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t ((hcond1 t).mpr h1)], after8]
      rw [outsAt_C m c t h0 h1]
      unfold out_C_8 sout_C_0 sout_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_C c (grid0.coords t) _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        iintro ⟨H0, H1, H2, H3, H4, H5, H6, H7, ⟨%e8, H8⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_C_0 c _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover_C_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover_C_8 c _ _ _ _ _ _ _ _ _ _ _ _ _ _ _ _ _ _ _ _ _ _ _ _ _ _ _ _ _ _ _ _ _ _ _)

    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [Dat.leavesExact_idle (dats m 0 c) 8 t (idle8 t (fun h => h1 ((hcond1 t).mp h))) (noFlush8 t (fun h => h1 ((hcond1 t).mp h)))]
      rw [outsAt_B m c t h0 h1]
      unfold sout_B_0 sout_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_B c (grid0.coords t) _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_B_0 c _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover_B_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

end Cert.Kernel.Body

end
-- ==== Proof.LibArrBufs.lean ====
/-
  The distinct buffers behind a pipeline's windowed arrays, listed, and one buffer dealt between two readers.

  When a kernel is handed ONE array through several input windows (an operand read once by row blocks and once
  whole, say), the windows' array references are not pairwise distinct, and what the launch hands the pipeline is
  one points-to per DISTINCT buffer: `Pipeline.arrBufs`, a separating conjunction over the image of the windows'
  array references. For a program whose windows are listed this is the chain of the listed buffers' points-tos at
  the full share (`arrBufs_eq_of_list`), and a buffer read by two windows is split into its left and right half
  shares at the same contents (`pointsTo_halves`), one half for each window: together they make the proof data's
  `arrays` at the region's entry when input windows share an array.
-/
import Idealize.ShloMosaic.Lib.Pipeline.Kit

noncomputable section

namespace SharedArrays

open Idealize.ShloMosaic Idealize.ShloMosaic.Pipeline Idealize.ShloMosaic.TcCoe
open Idealize.SL
open Idealize.SL.BI (sProp bigSep bigSepL bigSep_eq_bigSepL_of_eq)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {gr : Nat} {W : Nat} (win : Fin W → WinSpec sig gr) (c : Dev nD)

/-- The distinct buffers behind the windows' arrays, listed without repetition: `arrBufs` is the chain of their
    points-tos, each whole at the full share at the contents `V` gives it. -/
theorem arrBufs_eq_of_list (V : (b : Ref sig .tc) → Buf Val ((c.tc : Thread nD τ).loc b)) (l : List (Ref sig .tc))
    (h : Finset.univ.image (arrRef win) = l.toFinset) (hl : l.Nodup) :
    (arrBufs (Ix := Ix) (Name := Name) (U := U) (Lvl := Lvl) win c V : sProp 𝕄)
      = bigSepL l fun b => ((c.tc : Thread nD τ).loc b) ↦{fullShare} V b := by
  unfold arrBufs; exact bigSep_eq_bigSepL_of_eq l h hl _

/-- A buffer held whole at the full share is held twice at the two half shares, the contents the same: what two
    input windows reading one array each take of it. -/
theorem pointsTo_halves (ℓ : Loc nD τ sig) (f : Buf Val ℓ) :
    (ℓ ↦{fullShare} f : sProp 𝕄) ⊢ iprop((ℓ ↦{fullShare.left} f) ∗ ℓ ↦{fullShare.right} f) :=
  (pointsTo_share (PosShare.mem_left_op_right fullShare)).1

/-- The two halves make the whole again. -/
theorem pointsTo_halves_join (ℓ : Loc nD τ sig) (f : Buf Val ℓ) :
    iprop((ℓ ↦{fullShare.left} f) ∗ ℓ ↦{fullShare.right} f) ⊢ (ℓ ↦{fullShare} f : sProp 𝕄) :=
  (pointsTo_share (PosShare.mem_left_op_right fullShare)).2

end SharedArrays

end
-- ==== Proof.LibTailUnscoped.lean ====
/-
  The host operations after a kernel's region, run over ALL of a core's unscoped buffers.

  The library's rule for the lines after a region (`Pipeline.tail_seqs`) regroups the unscoped buffers as the
  windows' arrays and the rest, which takes the arrays pairwise distinct. When input windows share an array the
  certificate regroups them itself — the shares of a shared array joined at the region's exit and dealt again after
  the lines — and what it needs of the lines is only this: holding the region boundary and every unscoped buffer at
  a valuation `W`, the lines run to every unscoped buffer at `StableHlo.after` of them from `W`. It is
  `Pipeline.wp_seqs_then` at the set of all unscoped references (`Pipeline.ucRefs`), stated in the shape of
  `θ_run_region_pf_tail`'s `htail`.
-/
import Idealize.ShloMosaic.Lib.Pipeline.FrameSuffix

noncomputable section

namespace SharedArrays

open Idealize.ShloMosaic Idealize.ShloMosaic.Pipeline Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type}
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

set_option backward.isDefEq.respectTransparency.types false in
/-- The lines `opss` after the region, each touching TensorCore references only and allocating nothing: from the region
    boundary and every unscoped buffer at `W` they run to every unscoped buffer at their `StableHlo.after` from `W`. -/
theorem tail_over_unscoped (c : Dev nD) (W : Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅) (Q' : PUnit → sProp 𝕄) :
    iprop((iprop(unscopedBufs c (fun b => StableHlo.after opss.flatten W b)) -∗ Q' ⟨⟩)
        ∗ boundary (c.tc : Thread nD τ) ∗ unscopedBufs c (fun b => W b))
      ⊢ wp frame (wpE 𝔻 𝕍 (c.tc : Thread nD τ) none) Set.univ (chain (opss.map StableHlo.seq)) Q' := by
  rw [unscopedBufs_held (Ix := Ix) (Name := Name) (U := U) (Lvl := Lvl) c W,
    unscopedBufs_held (Ix := Ix) (Name := Name) (U := U) (Lvl := Lvl) c (StableHlo.after opss.flatten W)]
  rw [← List.append_nil (opss.map StableHlo.seq)]
  iintro ⟨Hk, Hb⟩
  iapply (wp_seqs_then pcs defs₀ 𝒱₀ c (ucRefs τ sig) [] opss (fun ops ho op h => sub_ucRefs op (hsub ops ho op h)) hfresh W) $$ Hb
  iintro Hb
  rw [chain_nil, wp_pure]
  imodintro
  iapply Hk
  icases Hb with ⟨-, H⟩
  iexact H

end SharedArrays

end
-- ==== Proof.Bits.Launch.lean ====
/-
  The launch of the kernel's region when input windows SHARE arrays, and the frame.

  Each field's flattened array is handed to the kernel twice — once by blocks of this half's 256 rows, once by blocks
  of all 512 rows — so the nine windows stand on six distinct buffers. At the region's entry each of the three shared
  buffers, held whole, is dealt to its two windows as the left and the right half share at the same contents; an input
  array is never written, so at the exit both halves still hold the entry contents and make the whole again, and the
  closing host operations run over all unscoped buffers.
-/
import proofs.«162256_j40226663694515_2_alg».proof.Proof.Bits.Accumulation
import proofs.«162256_j40226663694515_2_alg».proof.Proof.LibArrBufs
import proofs.«162256_j40226663694515_2_alg».proof.Proof.LibTailUnscoped

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, listed -/

/-- The six distinct buffers behind the nine windows' arrays: the three flattened fields, the labels as a column and as a
    row, and the result. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v0) ↦{fullShare} Vv main_v0) ∗ (((c : Thread nD τ).loc main_v1) ↦{fullShare} Vv main_v1) ∗ (((c : Thread nD τ).loc main_v2) ↦{fullShare} Vv main_v2)
          ∗ (((c : Thread nD τ).loc main_v3) ↦{fullShare} Vv main_v3) ∗ (((c : Thread nD τ).loc main_v4) ↦{fullShare} Vv main_v4) ∗ (((c : Thread nD τ).loc main_v5) ↦{fullShare} Vv main_v5)) :=
  SharedArrays.arrBufs_eq_of_list spec0 c Vv [main_v0, main_v1, main_v2, main_v3, main_v4, main_v5] (by decide) (by decide)

/-- The proof data's arrays, window by window: each field's buffer twice, at the left and at the right half share. -/
theorem arrays_listed (c : Dev nD) (Fw : (w : Fin cfg0.W) → Buf (Elt F) ((cfg0.win w).arr.view.loc (c : Thread nD τ))) :
    (dats m 0 c).arrays Fw
      = iprop((((c : Thread nD τ).loc main_v0) ↦{fullShare.left} Fw 0) ∗ (((c : Thread nD τ).loc main_v0) ↦{fullShare.right} Fw 1)
          ∗ (((c : Thread nD τ).loc main_v1) ↦{fullShare.left} Fw 2) ∗ (((c : Thread nD τ).loc main_v1) ↦{fullShare.right} Fw 3)
          ∗ (((c : Thread nD τ).loc main_v2) ↦{fullShare.left} Fw 4) ∗ (((c : Thread nD τ).loc main_v2) ↦{fullShare.right} Fw 5)
          ∗ (((c : Thread nD τ).loc main_v3) ↦{fullShare} Fw 6) ∗ (((c : Thread nD τ).loc main_v4) ↦{fullShare} Fw 7) ∗ (((c : Thread nD τ).loc main_v5) ↦{fullShare} Fw 8)) := by
  unfold Dat.arrays
  rw [show (bigSep Finset.univ fun w : Fin cfg0.W => ((cfg0.win w).arr.view.loc (c : Thread nD τ) ↦[(cfg0.win w).arr.view.set]{(dats m 0 c).share w} Fw w : sProp 𝕄))
        = bigSep Finset.univ fun w : Fin cfg0.W => (((c : Thread nD τ).loc (Pipeline.arrRef spec0 w)) ↦{(dats m 0 c).share w} Fw w : sProp 𝕄) from
      bigSep_congr fun w _ => by rw [(arr_whole0 w).set_eq_univ]]
  rw [bigSep_W0]
  rfl

/-- THE ENTRY: the six buffers whole at the region-entry contents make the proof data's arrays there — each field's buffer
    dealt to its two windows by halves. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays_listed]
  iintro ⟨H0, H1, H2, H3, H4, H5⟩
  ihave H0 := (SharedArrays.pointsTo_halves _ _) $$ H0
  ihave H1 := (SharedArrays.pointsTo_halves _ _) $$ H1
  ihave H2 := (SharedArrays.pointsTo_halves _ _) $$ H2
  icases H0 with ⟨H0l, H0r⟩
  icases H1 with ⟨H1l, H1r⟩
  icases H2 with ⟨H2l, H2r⟩
  isplitl [H0l]; · iexact H0l
  isplitl [H0r]; · iexact H0r
  isplitl [H1l]; · iexact H1l
  isplitl [H1r]; · iexact H1r
  isplitl [H2l]; · iexact H2l
  isplitl [H2r]; · iexact H2r
  isplitl [H3]; · iexact H3
  isplitl [H4]; · iexact H4
  iexact H5

/-! ## The exit and the closing operations -/

/-- The core's buffer contents when the region is left: the entry contents, with the result's array at what the two
    write-backs left in it. -/
abbrev Wx (c : Dev nD) : Valuation τ sig (Elt F) :=
  StableHlo.after [StableHlo.nullary main_v5 ((dats m 0 c).arrAt 8 cfg0.N)] (V0 m c)
/-- The contents after the seven closing operations. -/
abbrev Wf (c : Dev nD) : Valuation τ sig (Elt F) := StableHlo.after (List.flatten [hostOps1]) (Wx m c)
/-- The same read at a TensorCore reference. -/
abbrev Vf (c : Dev nD) (b : Ref sig .tc) : Buf (Elt F) ((c : Thread nD τ).loc b) := Wf m c (Proc.devRef .tc b)

/-- At the exit the result's array holds what the write-backs left, -/
theorem Wx_v5 (c : Dev nD) : Wx m c (Proc.devRef .tc main_v5) = (dats m 0 c).arrAt 8 cfg0.N := by
  show StableHlo.after [StableHlo.nullary main_v5 ((dats m 0 c).arrAt 8 cfg0.N)] (V0 m c) (Proc.devRef .tc main_v5) = _
  after_results

/-- and every other buffer what it held at the entry. -/
theorem Wx_of_ne (c : Dev nD) (b : Ref sig .tc) (hb : b ≠ main_v5) : Wx m c (Proc.devRef .tc b) = V m c b :=
  StableHlo.after_of_forall_not_mem _ _ fun op hop => by
    simp only [List.mem_cons, List.mem_nil_iff, or_false] at hop
    subst hop
    rw [StableHlo.nullary_writes, Finset.mem_singleton]
    exact StableHlo.devRef_ne_of_ne hb

/-- The closing operations write only their own results. -/
theorem tail_keeps (b : Ref sig .tc) (hb : b ≠ main_v6 ∧ b ≠ main_v7 ∧ b ≠ main_v8 ∧ b ≠ main_v9 ∧ b ≠ main_v10 ∧ b ≠ main_cst ∧ b ≠ main_v11) :
    ∀ op ∈ (hostOps1 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer they do not write ends at its exit contents. -/
theorem Vf_of_keep (c : Dev nD) (b : Ref sig .tc) (hb : b ≠ main_v6 ∧ b ≠ main_v7 ∧ b ≠ main_v8 ∧ b ≠ main_v9 ∧ b ≠ main_v10 ∧ b ≠ main_cst ∧ b ≠ main_v11) : Vf m c b = Wx m c (Proc.devRef .tc b) :=
  StableHlo.after_of_forall_not_mem _ _ fun op hop => by
    rw [show List.flatten [hostOps1 (F := F)] = hostOps1 from by simp only [List.flatten_cons, List.flatten_nil, List.append_nil]] at hop
    exact tail_keeps b hb op hop

/-- THE EXIT: the proof data's arrays after the last point are the six buffers whole at the exit contents — an input array
    is never written, so a field's two half shares hold the same entry contents and make the whole again. -/
theorem exit_join (c : Dev nD) :
    (dats m 0 c).arrays ((dats m 0 c).arrAt · cfg0.N)
      ⊢ (Pipeline.arrBufs (Ix := Unit) (Name := ℕ) (U := UR sig nD τ) (Lvl := ℕ) spec0 c (fun b => Wx m c (Proc.devRef .tc b)) : sProp 𝕄) := by
  rw [arrays_listed, arrBufs0_eq]
  rw [(dats m 0 c).arrAt_in 0 rfl _, (dats m 0 c).arrAt_in 1 rfl _, (dats m 0 c).arrAt_in 2 rfl _, (dats m 0 c).arrAt_in 3 rfl _,
    (dats m 0 c).arrAt_in 4 rfl _, (dats m 0 c).arrAt_in 5 rfl _, (dats m 0 c).arrAt_in 6 rfl _, (dats m 0 c).arrAt_in 7 rfl _]
  rw [Wx_of_ne m c main_v0 (by decide), Wx_of_ne m c main_v1 (by decide), Wx_of_ne m c main_v2 (by decide), Wx_of_ne m c main_v3 (by decide),
    Wx_of_ne m c main_v4 (by decide), Wx_v5]
  iintro ⟨H0l, H0r, H1l, H1r, H2l, H2r, H3, H4, H5⟩
  isplitl [H0l H0r]
  · iapply (SharedArrays.pointsTo_halves_join _ _); isplitl [H0l]; · iexact H0l
    iexact H0r
  isplitl [H1l H1r]
  · iapply (SharedArrays.pointsTo_halves_join _ _); isplitl [H1l]; · iexact H1l
    iexact H1r
  isplitl [H2l H2r]
  · iapply (SharedArrays.pointsTo_halves_join _ _); isplitl [H2l]; · iexact H2l
    iexact H2r
  isplitl [H3]; · iexact H3
  isplitl [H4]; · iexact H4
  iexact H5

/-- AFTER THE CLOSING OPERATIONS, which write none of the six buffers, they are dealt to the windows again. -/
theorem tail_split (c : Dev nD) :
    (Pipeline.arrBufs (Ix := Unit) (Name := ℕ) (U := UR sig nD τ) (Lvl := ℕ) spec0 c (Vf m c) : sProp 𝕄)
      ⊢ (dats m 0 c).arrays ((dats m 0 c).arrAt · cfg0.N) := by
  rw [arrays_listed, arrBufs0_eq]
  rw [(dats m 0 c).arrAt_in 0 rfl _, (dats m 0 c).arrAt_in 1 rfl _, (dats m 0 c).arrAt_in 2 rfl _, (dats m 0 c).arrAt_in 3 rfl _,
    (dats m 0 c).arrAt_in 4 rfl _, (dats m 0 c).arrAt_in 5 rfl _, (dats m 0 c).arrAt_in 6 rfl _, (dats m 0 c).arrAt_in 7 rfl _]
  rw [Vf_of_keep m c main_v0 (by decide), Vf_of_keep m c main_v1 (by decide), Vf_of_keep m c main_v2 (by decide), Vf_of_keep m c main_v3 (by decide),
    Vf_of_keep m c main_v4 (by decide), Vf_of_keep m c main_v5 (by decide)]
  rw [Wx_of_ne m c main_v0 (by decide), Wx_of_ne m c main_v1 (by decide), Wx_of_ne m c main_v2 (by decide), Wx_of_ne m c main_v3 (by decide),
    Wx_of_ne m c main_v4 (by decide), Wx_v5]
  iintro ⟨H0, H1, H2, H3, H4, H5⟩
  ihave H0 := (SharedArrays.pointsTo_halves _ _) $$ H0
  ihave H1 := (SharedArrays.pointsTo_halves _ _) $$ H1
  ihave H2 := (SharedArrays.pointsTo_halves _ _) $$ H2
  icases H0 with ⟨H0l, H0r⟩
  icases H1 with ⟨H1l, H1r⟩
  icases H2 with ⟨H2l, H2r⟩
  isplitl [H0l]; · iexact H0l
  isplitl [H0r]; · iexact H0r
  isplitl [H1l]; · iexact H1l
  isplitl [H1r]; · iexact H1r
  isplitl [H2l]; · iexact H2l
  isplitl [H2r]; · iexact H2r
  isplitl [H3]; · iexact H3
  isplitl [H4]; · iexact H4
  iexact H5

/-- The bypassing buffers hold at the exit what they held at the entry: none of them is the result's array. -/
theorem rest_exit (c : Dev nD) :
    (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (fun b => Wx m c (Proc.devRef .tc b)) := by
  rw [unscopedRest0_eq, unscopedRest0_eq]
  rw [Wx_of_ne m c main_arg0 (by decide), Wx_of_ne m c main_arg1 (by decide), Wx_of_ne m c main_arg2 (by decide), Wx_of_ne m c main_arg3 (by decide), Wx_of_ne m c main_v6 (by decide), Wx_of_ne m c main_v7 (by decide), Wx_of_ne m c main_v8 (by decide), Wx_of_ne m c main_v9 (by decide), Wx_of_ne m c main_v10 (by decide), Wx_of_ne m c main_cst (by decide), Wx_of_ne m c main_v11 (by decide)]

/-- At the exit the arrays and the bypassing buffers are all of the core's unscoped buffers, at the exit contents; -/
theorem exit_all (c : Dev nD) :
    iprop((dats m 0 c).arrays ((dats m 0 c).arrAt · cfg0.N) ∗ Pipeline.unscopedRest (Ix := Unit) (Name := ℕ) (U := UR sig nD τ) (Lvl := ℕ) spec0 c (V m c))
      ⊢ (unscopedBufs (Ix := Unit) (Name := ℕ) (U := UR sig nD τ) (Lvl := ℕ) c (fun b => Wx m c (Proc.devRef .tc b)) : sProp 𝕄) := by
  rw [Pipeline.unscopedBufs_split₀ (cfgs := cfgs) (p := (0 : Fin 1)) winFacts₀0.arr_unscoped c (fun b => Wx m c (Proc.devRef .tc b)), rest_exit]
  exact sep_mono (exit_join m c) .rfl

/-- after the closing operations they are the arrays and the bypassing buffers again, at the final contents. -/
theorem final_all (c : Dev nD) :
    (unscopedBufs (Ix := Unit) (Name := ℕ) (U := UR sig nD τ) (Lvl := ℕ) c (Vf m c) : sProp 𝕄)
      ⊢ iprop((dats m 0 c).arrays ((dats m 0 c).arrAt · cfg0.N) ∗ Pipeline.unscopedRest (Ix := Unit) (Name := ℕ) (U := UR sig nD τ) (Lvl := ℕ) spec0 c (Vf m c)) := by
  rw [Pipeline.unscopedBufs_split₀ (cfgs := cfgs) (p := (0 : Fin 1)) winFacts₀0.arr_unscoped c (Vf m c)]
  exact sep_mono (tail_split m c) .rfl

set_option backward.isDefEq.respectTransparency.types false in
/-- THE CLOSING OPERATIONS: from the region's exit they run to the arrays as the region left them and the bypassing buffers
    at the final contents. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (Vf m c)) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain ([hostOps1].map StableHlo.seq)) Q' := by
  rw [Pipeline.unscopedRestP_none, Pipeline.unscopedRestP_none]
  iintro ⟨Hk, Hb, Ha, Hr⟩
  iapply (SharedArrays.tail_over_unscoped (fun q => (cfgs q).toPCfg (Val := Elt F)) defs₀ Variants.none c (Wx m c) [hostOps1]
    (by intro ops hops op hop
        simp only [List.mem_cons, List.mem_nil_iff, _root_.or_false] at hops
        subst hops
        exact (List.forall_iff_forall_mem.mp hostOps1_sub) op hop)
    (by intro ops hops op hop
        simp only [List.mem_cons, List.mem_nil_iff, _root_.or_false] at hops
        subst hops
        exact (List.forall_iff_forall_mem.mp hostOps1_fresh) op hop) Q')
  isplitl [Hk]
  · iintro Hu
    iapply Hk
    iapply (final_all m c)
    iexact Hu
  isplitl [Hb]; · iexact Hb
  iapply (exit_all m c)
  isplitl [Ha]; · iexact Ha
  iexact Hr

/-! ## The run and the frame -/

set_option backward.isDefEq.respectTransparency.types false in
/-- At the compiled mesh, for any float values, from any memory with zero counters: every weakly fair execution of @main
    on the TensorCores terminates, nothing faulting, and every final state has every array of the pipeline at what the
    proof data computes and every other unscoped buffer at the final contents. -/
theorem run_main : θ_run defs (onTc (τ := τ) (main (F := F))) (s₀ m ρ) (Pipeline.FramePost cfgs (dats m) 0 (Vf m)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vf m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c : Thread nD τ).loc b) = Vf m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (Vf m c) s')
      isplitl [HU] <;> iassumption)
    (hQ := fun s h c => ⟨(h c).1, Pipeline.rest_of_restP Pipeline.Prefetch.none spec0 ((cfgs 0).toPCfg_adm (Val := Elt F)).1 c (Vf m c) s (fun k => k.elim0) (h c).2.1 (h c).2.2⟩)

/-- No operation of @main writes an argument: each ends as launched. -/
theorem Vf_arg (c : Dev nD) (b : Ref sig .tc) (hb : b = main_arg0 ∨ b = main_arg1 ∨ b = main_arg2 ∨ b = main_arg3) :
    Vf m c b = m ((c : Thread nD τ).loc b) := by
  have h5 : b ≠ main_v5 := by rcases hb with rfl | rfl | rfl | rfl <;> decide
  have h7 : b ≠ main_v6 ∧ b ≠ main_v7 ∧ b ≠ main_v8 ∧ b ≠ main_v9 ∧ b ≠ main_v10 ∧ b ≠ main_cst ∧ b ≠ main_v11 := by rcases hb with rfl | rfl | rfl | rfl <;> decide
  rw [Vf_of_keep m c b h7, Wx_of_ne m c b h5]
  refine StableHlo.after_of_forall_not_mem _ _ fun op hop => ?_
  rw [show List.flatten [hostOps0 (F := F)] = hostOps0 from by simp only [List.flatten_cons, List.flatten_nil, List.append_nil]] at hop
  simp only [List.mem_cons, List.mem_nil_iff, or_false] at hop
  rcases hb with rfl | rfl | rfl | rfl <;> rcases hop with rfl | rfl | rfl | rfl | rfl <;>
    simp only [StableHlo.reshape_writes, Finset.mem_singleton] <;>
    exact StableHlo.devRef_ne_of_ne (by decide)

/-- THE FRAME: every weakly fair execution of @main terminates, nothing faulting, and the four argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (by decide)).trans (Vf_arg m c main_arg0 (.inl rfl)),
     ((h c).2 main_arg1 (by decide)).trans (Vf_arg m c main_arg1 (.inr (.inl rfl))),
     ((h c).2 main_arg2 (by decide)).trans (Vf_arg m c main_arg2 (.inr (.inr (.inl rfl)))),
     ((h c).2 main_arg3 (by decide)).trans (Vf_arg m c main_arg3 (.inr (.inr (.inr rfl))))⟩) (run_main m ρ)

end Cert.Kernel.Body

end
-- ==== Proof.Ideal.Conditions.lean ====
import proofs.«162256_j40226663694515_2_alg».proof.Proof.Gen.KernelIdeal.Launch
import proofs.«162256_j40226663694515_2_alg».proof.Proof.Gen.KernelIdeal.Skeleton
import proofs.«162256_j40226663694515_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test: the grid's second coordinate is 0 (the accumulators are reset there). -/
abbrev cond0 (i : grid0.Coords) : Prop := (Scalar.cmpi .ne (Scalar.extui (Scalar.cmpi .eq (BitVec.ofNat 32 (i 1).val) 0#32)) 0#32) = 1#1
/-- The second conditional's test: the grid's second coordinate is 15 (the last feature block: the loss is formed there). -/
abbrev cond1 (i : grid0.Coords) : Prop := k0_cond2 i = 1#1

variable (m : (ℓ : Loc nD τ sig) → Buf (Elt F) ℓ) (ρ : Dev nD → PrngReg)

/-! ## @main around the region

The five reshapes before the call flatten each field to 512 rows of 16384 features and lay the labels out as a column and
as a row; the seven operations after it add the two cores' partial sums and divide by the number of pairs. -/

/-- Core `c`'s buffer contents when the region is entered: after the five reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshapes, the region, then the closing operations: it reduces to the region continued by the latter. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: a point that does
    not fetch it has the block index of the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: a point that does
    not fetch it has the block index of the point before. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: a point that does
    not fetch it has the block index of the point before. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: a point that does
    not fetch it has the block index of the point before. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: a point that does
    not fetch it has the block index of the point before. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: a point that does
    not fetch it has the block index of the point before. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: a point that does
    not fetch it has the block index of the point before. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: a point that does
    not fetch it has the block index of the point before. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The two conditionals, decided over the grid

The grid is 2 × 16, its points in row-major order: point `t` is row half `t / 16` at feature block `t % 16`. -/

/-- The accumulators are reset at the first feature block of each half. -/
theorem hcond0 : ∀ t : Fin cfg0.N, cond0 (grid0.coords t) ↔ t.val % 16 = 0 :=
  (by decide +kernel : ∀ t : Fin grid0.N, cond0 (grid0.coords t) ↔ t.val % 16 = 0)
/-- The loss is formed at the last feature block of each half. -/
theorem hcond1 : ∀ t : Fin cfg0.N, cond1 (grid0.coords t) ↔ t.val % 16 = 15 :=
  (by decide +kernel : ∀ t : Fin grid0.N, cond1 (grid0.coords t) ↔ t.val % 16 = 15)

/-! ## Where the output window is idle -/

/-- Where the loss is not formed nothing is stored into the output's buffer: the window is idle there, -/
theorem idle8 : ∀ t : Fin cfg0.N, ¬cond1 (grid0.coords t) → cfg0.idle 8 (grid0.coords t) = true := by decide +kernel
/-- and its block is not written back there; -/
theorem noFlush8 : ∀ t : Fin cfg0.N, ¬cond1 (grid0.coords t) → (cfg0.win 8).flush t = false := by decide +kernel
/-- where it is formed the window is live. -/
theorem live8 : ∀ t : Fin cfg0.N, cond1 (grid0.coords t) → cfg0.idle 8 (grid0.coords t) = false := by decide +kernel

/-! ## The memrefs the body is called with -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x128 .f32 := win0_8.stage (cfg0.slots t 8)
abbrev hs8 (t : Fin cfg0.N) : (ms8 t).IsWhole := hstage0_8 ((cfg0.slots t 8).cast nbuf0_8)
/-- One staging buffer of the output window, through which its contents are stated (the choice does not matter). -/
abbrev VO8 : View sig .tc .vmem S8x128 .f32 := (Memref.whole cc0_stg8_0 : Memref sig .tc .vmem S8x128 .f32).view
/-- The Gram accumulator (256 rows of this half against all 512 rows) and the sum-of-squares accumulator (512 rows): scratch
    buffers the kernel carries from one feature block to the next. -/
abbrev scM0 : Memref sig .tc .vmem S256x512 .f32 := Memref.whole cc0_scratch0
abbrev scM1 : Memref sig .tc .vmem S512x1 .f32 := Memref.whole cc0_scratch1
abbrev VS0 : View sig .tc .vmem S256x512 .f32 := scM0.view
abbrev VS1 : View sig .tc .vmem S512x1 .f32 := scM1.view

/-- What the launch hands the region beside the windows: the two accumulators at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Body

end
-- ==== Proof.Ideal.PointFirst.lean ====
/-
  The body at the FIRST feature block of a row half (the first conditional taken, the second not): whatever the two
  accumulators held, they are set to zero and then take this block's three Gram products and three sums of squares;
  nothing is stored into the output's buffer, which is handed back as it was found. The run is the symbolic
  executor's over the body's skeleton; what it leaves in each accumulator is the list of pieces it stores, found by
  the run itself.
-/
import proofs.«162256_j40226663694515_2_alg».proof.Proof.Ideal.Conditions

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output's buffer (none), the Gram accumulator and the sum-of-squares accumulator
    at a first feature block, with the run that leaves them there. -/
noncomputable def kernelRun_A (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) :
    Σ' (L8 : List (View.Piece (Elt F) S8x128 .f32)) (LS0 : List (View.Piece (Elt F) S256x512 .f32)), { LS1 : List (View.Piece (Elt F) S512x1 .f32) //
      ∀ (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    iexists _; iexact HS1

end Cert.KernelIdeal.Body

end
-- ==== Proof.Ideal.PointMiddle.lean ====
/-
  The body at a MIDDLE feature block of a row half (neither conditional taken): the two accumulators, at what the
  block before left, take this block's three Gram products and three sums of squares; nothing is stored into the
  output's buffer, which is handed back as it was found. The run is the symbolic executor's over the body's skeleton;
  what it leaves in each accumulator is the list of pieces it stores, found by the run itself.
-/
import proofs.«162256_j40226663694515_2_alg».proof.Proof.Ideal.Conditions

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output's buffer (none), the Gram accumulator and the sum-of-squares accumulator
    at a middle feature block, with the run that leaves them there. -/
noncomputable def kernelRun_B (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) :
    Σ' (L8 : List (View.Piece (Elt F) S8x128 .f32)) (LS0 : List (View.Piece (Elt F) S256x512 .f32)), { LS1 : List (View.Piece (Elt F) S512x1 .f32) //
      ∀ (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    iexists _; iexact HS1

end Cert.KernelIdeal.Body

end
-- ==== Proof.Ideal.PointLast.lean ====
/-
  The body at the LAST feature block of a row half (the first conditional not taken, the second taken): the two
  accumulators, at what the block before left, take this block's three Gram products and three sums of squares, and
  the half's loss — the masked sum over its 256 rows of the pair terms formed from the finished accumulators and the
  labels — is stored, repeated over the whole 8 × 128 block, into the output's buffer, whatever that held. The run is
  the symbolic executor's over the body's skeleton; the pieces it stores are found by the run itself.
-/
import proofs.«162256_j40226663694515_2_alg».proof.Proof.Ideal.Conditions

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output's buffer, the Gram accumulator and the sum-of-squares accumulator at a last
    feature block, with the run that leaves them there. -/
noncomputable def kernelRun_C (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) :
    Σ' (L8 : List (View.Piece (Elt F) S8x128 .f32)) (LS0 : List (View.Piece (Elt F) S256x512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; iexact HS0
    iexists _; iexact HS1

end Cert.KernelIdeal.Body

end
-- ==== Proof.Ideal.Accumulation.lean ====
/-
  What the kernel's region leaves, point by point, and the body obligation.

  The grid's 32 points are two row halves of 16 feature blocks. At each point the body adds, for each of the three
  fields, the product of this half's 256 rows with all 512 rows over the block's 1024 features to the Gram accumulator,
  and the 512 rows' sums of squares over those features to the sum-of-squares accumulator; at a half's first block it
  zeroes both first, and at its last block it forms the half's loss from them and stores it. Here: what each of the three
  kinds of point leaves in the two accumulators and in the output's buffer, as the pieces its run stores read back
  (`sout_…`, `out_…`); the accumulation over the points by recursion (`outsAt`); the region's invariant — the two
  accumulators at what the point before left (`PhiS`); the proof data, in which each field's array, read by two input
  windows, is held by the one at the left half share and by the other at the right half share; and the body
  obligation, by cases on the kind of point.
-/
import proofs.«162256_j40226663694515_2_alg».proof.Proof.Ideal.PointFirst
import proofs.«162256_j40226663694515_2_alg».proof.Proof.Ideal.PointMiddle
import proofs.«162256_j40226663694515_2_alg».proof.Proof.Ideal.PointLast
import Idealize.ShloMosaic.Lib.Ring

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The output's buffer after a point of kind A: the pieces stored there read back (none: a placeholder nothing consults, the window being idle and not written back there). -/
def out_A_8 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) : Vec F S8x128 .f32 :=
  VO8.read (Elt F) (VO8.writes (Elt F) VO8.junk (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)
/-- The pieces stored into the Gram accumulator at a point of kind A cover it. -/
theorem scover_A_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (y : S256x512.Idx) :
    ∃ pc ∈ (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1 S256x512.size (by sl_kernel_rfl) y
/-- The Gram accumulator after a point of kind A. -/
def sout_A_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) : Vec F S256x512 .f32 :=
  VS0.read (Elt F) (VS0.writes (Elt F) VS0.junk (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)
/-- The pieces stored into the sum-of-squares accumulator at a point of kind A cover it. -/
theorem scover_A_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (y : S512x1.Idx) :
    ∃ pc ∈ (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S512x1.size (by sl_kernel_rfl) y
/-- The sum-of-squares accumulator after a point of kind A. -/
def sout_A_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) : Vec F S512x1 .f32 :=
  VS1.read (Elt F) (VS1.writes (Elt F) VS1.junk (kernelRun_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

/-- The output's buffer after a point of kind B: the pieces stored there read back (none: a placeholder nothing consults, the window being idle and not written back there). -/
def out_B_8 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S8x128 .f32 :=
  VO8.read (Elt F) (VO8.writes (Elt F) VO8.junk (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1)
/-- The pieces stored into the Gram accumulator at a point of kind B cover it. -/
theorem scover_B_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) (y : S256x512.Idx) :
    ∃ pc ∈ (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 S256x512.size (by sl_kernel_rfl) y
/-- The Gram accumulator after a point of kind B. -/
def sout_B_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S256x512 .f32 :=
  VS0.read (Elt F) (VS0.writes (Elt F) VS0.junk (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
/-- The pieces stored into the sum-of-squares accumulator at a point of kind B cover it. -/
theorem scover_B_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) (y : S512x1.Idx) :
    ∃ pc ∈ (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 S512x1.size (by sl_kernel_rfl) y
/-- The sum-of-squares accumulator after a point of kind B. -/
def sout_B_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S512x1 .f32 :=
  VS1.read (Elt F) (VS1.writes (Elt F) VS1.junk (kernelRun_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1)

/-- The output's buffer after a point of kind C: the pieces stored there read back. -/
def out_C_8 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S8x128 .f32 :=
  VO8.read (Elt F) (VO8.writes (Elt F) VO8.junk (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1)
/-- The pieces stored into the Gram accumulator at a point of kind C cover it. -/
theorem scover_C_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) (y : S256x512.Idx) :
    ∃ pc ∈ (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 S256x512.size (by sl_kernel_rfl) y
/-- The Gram accumulator after a point of kind C. -/
def sout_C_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S256x512 .f32 :=
  VS0.read (Elt F) (VS0.writes (Elt F) VS0.junk (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
/-- The pieces stored into the sum-of-squares accumulator at a point of kind C cover it. -/
theorem scover_C_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) (y : S512x1.Idx) :
    ∃ pc ∈ (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 S512x1.size (by sl_kernel_rfl) y
/-- The sum-of-squares accumulator after a point of kind C. -/
def sout_C_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) : Vec F S512x1 .f32 :=
  VS1.read (Elt F) (VS1.writes (Elt F) VS1.junk (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1)
/-- The one store into the output's buffer at a last feature block covers it. -/
theorem cover_C_8 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) (y : S8x128.Idx) :
    ∃ pc ∈ (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1 S8x128.size (by sl_kernel_rfl) y

/-! ## The accumulation -/

/-- What the output's buffer, the Gram accumulator and the sum-of-squares accumulator hold after the body at position `n`:
    the kind of point the closed forms select there, run at the point's memrefs and input blocks, over what the point
    before left in the two accumulators. -/
def outsAt (c : Dev nD) : (n : ℕ) → n < cfg0.N → Vec F S8x128 .f32 × Vec F S256x512 .f32 × Vec F S512x1 .f32
  | 0, hn => (out_A_8 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout_A_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout_A_1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 16 = 0 then
      if h1 : (n + 1) % 16 = 15 then
        False.elim (by omega)
      else
        (out_A_8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout_A_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout_A_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 16 = 15 then
        (out_C_8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2, sout_C_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2, sout_C_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2)
      else
        (out_B_8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2, sout_B_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2, sout_B_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).2.1 (outsAt c n (Nat.lt_of_succ_lt hn)).2.2)

/-- At a first feature block: that kind's contents. -/
theorem outsAt_A (c : Dev nD) (t : Fin cfg0.N) (h0 : t.val % 16 = 0) (h1 : ¬t.val % 16 = 15) :
    outsAt m c t.val t.isLt = (out_A_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t), sout_A_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t), sout_A_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- At a middle feature block: that kind's contents, over what the point before left. -/
theorem outsAt_B (c : Dev nD) (t : Fin cfg0.N) (h0 : ¬t.val % 16 = 0) (h1 : ¬t.val % 16 = 15) :
    outsAt m c t.val t.isLt = (out_B_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2, sout_B_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2, sout_B_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last feature block: that kind's contents, over what the point before left. -/
theorem outsAt_C (c : Dev nD) (t : Fin cfg0.N) (h0 : ¬t.val % 16 = 0) (h1 : t.val % 16 = 15) :
    outsAt m c t.val t.isLt = (out_C_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2, sout_C_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2, sout_C_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the two accumulators hold anything; afterwards each holds what the point before left in it. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The proof data -/

/-- The arrays as the region finds them; after the body each input's buffer at its block and the output's at the
    accumulation's first component; the invariant above; nothing owed. Each field's flattened array is read by two input
    windows (this half's 256 rows, and all 512 rows): the first holds it at the left half share, the second at the right. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem live0 : ∀ t : Fin cfg0.N, cfg0.idle 0 (grid0.coords t) = false := by decide +kernel
theorem before1 (c : Dev nD) (t : Fin cfg0.N) (d) : (dats m 0 c).before 1 t d = iblk m c 1 t :=
  before1_of m (dats m 0 c) (A_eq m c 1) (after1 m c) t d
theorem live1 : ∀ t : Fin cfg0.N, cfg0.idle 1 (grid0.coords t) = false := by decide +kernel
theorem before2 (c : Dev nD) (t : Fin cfg0.N) (d) : (dats m 0 c).before 2 t d = iblk m c 2 t :=
  before2_of m (dats m 0 c) (A_eq m c 2) (after2 m c) t d
theorem live2 : ∀ t : Fin cfg0.N, cfg0.idle 2 (grid0.coords t) = false := by decide +kernel
theorem before3 (c : Dev nD) (t : Fin cfg0.N) (d) : (dats m 0 c).before 3 t d = iblk m c 3 t :=
  before3_of m (dats m 0 c) (A_eq m c 3) (after3 m c) t d
theorem live3 : ∀ t : Fin cfg0.N, cfg0.idle 3 (grid0.coords t) = false := by decide +kernel
theorem before4 (c : Dev nD) (t : Fin cfg0.N) (d) : (dats m 0 c).before 4 t d = iblk m c 4 t :=
  before4_of m (dats m 0 c) (A_eq m c 4) (after4 m c) t d
theorem live4 : ∀ t : Fin cfg0.N, cfg0.idle 4 (grid0.coords t) = false := by decide +kernel
theorem before5 (c : Dev nD) (t : Fin cfg0.N) (d) : (dats m 0 c).before 5 t d = iblk m c 5 t :=
  before5_of m (dats m 0 c) (A_eq m c 5) (after5 m c) t d
theorem live5 : ∀ t : Fin cfg0.N, cfg0.idle 5 (grid0.coords t) = false := by decide +kernel
theorem before6 (c : Dev nD) (t : Fin cfg0.N) (d) : (dats m 0 c).before 6 t d = iblk m c 6 t :=
  before6_of m (dats m 0 c) (A_eq m c 6) (after6 m c) t d
theorem live6 : ∀ t : Fin cfg0.N, cfg0.idle 6 (grid0.coords t) = false := by decide +kernel
theorem before7 (c : Dev nD) (t : Fin cfg0.N) (d) : (dats m 0 c).before 7 t d = iblk m c 7 t :=
  before7_of m (dats m 0 c) (A_eq m c 7) (after7 m c) t d
theorem live7 : ∀ t : Fin cfg0.N, cfg0.idle 7 (grid0.coords t) = false := by decide +kernel

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point: the inputs' buffers hold their blocks; the closed forms say which kind of point it is; that
    kind's run applies, the invariant handing it the two accumulators at what the point before left (at anything before
    the first point) and taking them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [Dat.leavesExact_idle (dats m 0 c) 8 t (idle8 t (fun h => h1 ((hcond1 t).mp h))) (noFlush8 t (fun h => h1 ((hcond1 t).mp h)))]
      rw [outsAt_A m c t h0 h1]
      unfold sout_A_0 sout_A_1; (try dsimp only)
      by_cases hz : t.val = 0
      · rw [PhiS_castSucc m c t, PhiS_zero m c _ _ hz, PhiA_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_A c (grid0.coords t) _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_A_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover_A_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_A c (grid0.coords t) _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_A_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover_A_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

  · by_cases h1 : t.val % 16 = 15
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t ((hcond1 t).mpr h1)], after8]
      rw [outsAt_C m c t h0 h1]
      unfold out_C_8 sout_C_0 sout_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_C c (grid0.coords t) _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        iintro ⟨H0, H1, H2, H3, H4, H5, H6, H7, ⟨%e8, H8⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_C_0 c _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover_C_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover_C_8 c _ _ _ _ _ _ _ _ _ _ _ _ _ _ _ _ _ _ _ _ _ _ _ _ _ _ _ _ _ _ _ _ _ _ _)

    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [Dat.leavesExact_idle (dats m 0 c) 8 t (idle8 t (fun h => h1 ((hcond1 t).mp h))) (noFlush8 t (fun h => h1 ((hcond1 t).mp h)))]
      rw [outsAt_B m c t h0 h1]
      unfold sout_B_0 sout_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_B c (grid0.coords t) _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_B_0 c _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover_B_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

end Cert.KernelIdeal.Body

end
-- ==== Proof.Ideal.Pieces.lean ====
/-
  What each kind of grid point leaves in the two accumulators and in the output's buffer, as the body's arithmetic.

  The body stores into the Gram accumulator three times at a point (after each field's product) and into the
  sum-of-squares accumulator three times, each store through the whole buffer and each reading back what the store
  before left; so what a point leaves is the last store's payload over the read-backs: for the Gram accumulator
  `g ↦ pay11 x4 x5 (pay9 (pay8 x2 x3) (pay6 x0 x1 g))` — the three fields' products added in turn —, for the sums of
  squares `s ↦ pay1 (pay12 x5) (pay10 x3 (pay7 x1 s))`, from the zero payloads at a first feature block, from what the
  block before left otherwise; and at a last feature block the output's buffer gets the loss payload of the finished
  accumulators, the rows of this half cut out of the sum-of-squares column.
-/
import proofs.«162256_j40226663694515_2_alg».proof.Proof.Ideal.Accumulation
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace View

variable {Val : EltTy → Type} {S : Shape} {e : EltTy}

/-- A load through the whole-shape rectangle at zero offsets of what several stores left, the LAST of them through that
    rectangle, reads that last store's payload. -/
theorem readCov_cons_unit_zero [∀ e, Nonempty (Val e)] {sig : RefSig} {κ : Kind} {sp : Space}
    (v : Idealize.ShloMosaic.View sig κ sp S e) {off : Fin S.rank → Nat} (h : off = fun _ => 0)
    (inb : ∀ a, off a + S.size a ≤ S.size a) (w : S.Idx → Val e) (L : List (Idealize.ShloMosaic.View.Piece Val S e)) :
    v.readCov ((⟨Rect.unit off S.size inb, w⟩ : Idealize.ShloMosaic.View.Piece Val S e) :: L) (Rect.unit off S.size inb).toLoadRect = w := by
  subst h
  rw [Idealize.ShloMosaic.View.readCov_eq_canon_ld _ _ _ (fun y => ⟨_, List.mem_cons_self, by
    show y ∈ (Rect.whole S).set; rw [Rect.set_whole]; exact Finset.mem_univ y⟩),
    Idealize.ShloMosaic.View.canon_cons_unit_zero rfl, Idealize.ShloMosaic.View.ld_unit_zero rfl]

end View

theorem hz2 : (![0, 0] : Fin 2 → Nat) = fun _ => 0 := funext fun a => by fin_cases a <;> rfl

/-- The Gram accumulator after a point of kind A: the three fields' products added in turn to zero. -/
theorem sout_A_0_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) :
    sout_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay11 x4 x5 (k0_pay9 (k0_pay8 x2 x3) (k0_pay6 x0 x1 (k0_pay4 (F := F)))) := by
  unfold sout_A_0
  rw [Idealize.ShloMosaic.View.read_writes_eq_canon _ _ _ (scover_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun_A
  dsimp only
  sl_unfold_words
  rw [Idealize.ShloMosaic.View.canon_cons_unit_zero (S := S256x512) hz2]
  simp only [View.readCov_cons_unit_zero (S := S256x512) _ hz2, View.readCov_unit_zero (S := S256x512) _ hz2, View.readCov_cons_unit_zero (S := S512x1) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S512x1024) hz2, View.ld_unit_zero (S := S256x512) hz2, View.ld_unit_zero (S := S512x1) hz2, View.ld_unit_zero (S := S256x1) hz2, View.ld_unit_zero (S := S1x512) hz2, View.ld_unit_zero (S := S8x128) hz2, shapeCast_self]

/-- The sum-of-squares accumulator after a point of kind A: the three fields' row sums of squares added in turn to zero. -/
theorem sout_A_1_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) :
    sout_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay1 (k0_pay12 x5) (k0_pay10 x3 (k0_pay7 x1 (k0_pay5 (F := F)))) := by
  unfold sout_A_1
  rw [Idealize.ShloMosaic.View.read_writes_eq_canon _ _ _ (scover_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun_A
  dsimp only
  sl_unfold_words
  rw [Idealize.ShloMosaic.View.canon_cons_unit_zero (S := S512x1) hz2]
  simp only [View.readCov_cons_unit_zero (S := S256x512) _ hz2, View.readCov_unit_zero (S := S256x512) _ hz2, View.readCov_cons_unit_zero (S := S512x1) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S512x1024) hz2, View.ld_unit_zero (S := S256x512) hz2, View.ld_unit_zero (S := S512x1) hz2, View.ld_unit_zero (S := S256x1) hz2, View.ld_unit_zero (S := S1x512) hz2, View.ld_unit_zero (S := S8x128) hz2, shapeCast_self]

/-- The Gram accumulator after a point of kind B: the three fields' products added in turn to what the block before left. -/
theorem sout_B_0_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) :
    sout_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay11 x4 x5 (k0_pay9 (k0_pay8 x2 x3) (k0_pay6 x0 x1 xs0)) := by
  unfold sout_B_0
  rw [Idealize.ShloMosaic.View.read_writes_eq_canon _ _ _ (scover_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun_B
  dsimp only
  sl_unfold_words
  rw [Idealize.ShloMosaic.View.canon_cons_unit_zero (S := S256x512) hz2]
  simp only [View.readCov_cons_unit_zero (S := S256x512) _ hz2, View.readCov_unit_zero (S := S256x512) _ hz2, View.readCov_cons_unit_zero (S := S512x1) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S512x1024) hz2, View.ld_unit_zero (S := S256x512) hz2, View.ld_unit_zero (S := S512x1) hz2, View.ld_unit_zero (S := S256x1) hz2, View.ld_unit_zero (S := S1x512) hz2, View.ld_unit_zero (S := S8x128) hz2, shapeCast_self]

/-- The sum-of-squares accumulator after a point of kind B: the three fields' row sums of squares added in turn to what the block before left. -/
theorem sout_B_1_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : ¬cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) :
    sout_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay1 (k0_pay12 x5) (k0_pay10 x3 (k0_pay7 x1 xs1)) := by
  unfold sout_B_1
  rw [Idealize.ShloMosaic.View.read_writes_eq_canon _ _ _ (scover_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun_B
  dsimp only
  sl_unfold_words
  rw [Idealize.ShloMosaic.View.canon_cons_unit_zero (S := S512x1) hz2]
  simp only [View.readCov_cons_unit_zero (S := S256x512) _ hz2, View.readCov_unit_zero (S := S256x512) _ hz2, View.readCov_cons_unit_zero (S := S512x1) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S512x1024) hz2, View.ld_unit_zero (S := S256x512) hz2, View.ld_unit_zero (S := S512x1) hz2, View.ld_unit_zero (S := S256x1) hz2, View.ld_unit_zero (S := S1x512) hz2, View.ld_unit_zero (S := S8x128) hz2, shapeCast_self]

/-- The Gram accumulator after a point of kind C: the three fields' products added in turn to what the block before left. -/
theorem sout_C_0_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) :
    sout_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay11 x4 x5 (k0_pay9 (k0_pay8 x2 x3) (k0_pay6 x0 x1 xs0)) := by
  unfold sout_C_0
  rw [Idealize.ShloMosaic.View.read_writes_eq_canon _ _ _ (scover_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun_C
  dsimp only
  sl_unfold_words
  rw [Idealize.ShloMosaic.View.canon_cons_unit_zero (S := S256x512) hz2]
  simp only [View.readCov_cons_unit_zero (S := S256x512) _ hz2, View.readCov_unit_zero (S := S256x512) _ hz2, View.readCov_cons_unit_zero (S := S512x1) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S512x1024) hz2, View.ld_unit_zero (S := S256x512) hz2, View.ld_unit_zero (S := S512x1) hz2, View.ld_unit_zero (S := S256x1) hz2, View.ld_unit_zero (S := S1x512) hz2, View.ld_unit_zero (S := S8x128) hz2, shapeCast_self]

/-- The sum-of-squares accumulator after a point of kind C: the three fields' row sums of squares added in turn to what the block before left. -/
theorem sout_C_1_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) :
    sout_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay1 (k0_pay12 x5) (k0_pay10 x3 (k0_pay7 x1 xs1)) := by
  unfold sout_C_1
  rw [Idealize.ShloMosaic.View.read_writes_eq_canon _ _ _ (scover_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun_C
  dsimp only
  sl_unfold_words
  rw [Idealize.ShloMosaic.View.canon_cons_unit_zero (S := S512x1) hz2]
  simp only [View.readCov_cons_unit_zero (S := S256x512) _ hz2, View.readCov_unit_zero (S := S256x512) _ hz2, View.readCov_cons_unit_zero (S := S512x1) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S512x1024) hz2, View.ld_unit_zero (S := S256x512) hz2, View.ld_unit_zero (S := S512x1) hz2, View.ld_unit_zero (S := S256x1) hz2, View.ld_unit_zero (S := S1x512) hz2, View.ld_unit_zero (S := S8x128) hz2, shapeCast_self]

/-- The output's buffer after a last feature block: the loss payload of the finished accumulators — its first operand the
    rows of this half, cut out of the sum-of-squares column at the half's row offset —, repeated over the 8 × 128 block. -/
theorem out_C_8_eq (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S256x1024 .f32) (harg6 : arg6.IsWhole) (arg7 : Memref sig .tc .vmem S512x1024 .f32) (harg7 : arg7.IsWhole) (arg8 : Memref sig .tc .vmem S256x1 .i32) (harg8 : arg8.IsWhole) (arg9 : Memref sig .tc .vmem S1x512 .i32) (harg9 : arg9.IsWhole) (arg10 : Memref sig .tc .vmem S8x128 .f32) (harg10 : arg10.IsWhole) (arg11 : Memref sig .tc .vmem S256x512 .f32) (harg11 : arg11.IsWhole) (arg12 : Memref sig .tc .vmem S512x1 .f32) (harg12 : arg12.IsWhole) (hc0 : ¬cond0 i) (hc1 : cond1 i)
    (x0 : Vec F S256x1024 .f32) (x1 : Vec F S512x1024 .f32) (x2 : Vec F S256x1024 .f32) (x3 : Vec F S512x1024 .f32) (x4 : Vec F S256x1024 .f32) (x5 : Vec F S512x1024 .f32) (x6 : Vec F S256x1 .i32) (x7 : Vec F S1x512 .i32) (xs0 : Vec F S256x512 .f32) (xs1 : Vec F S512x1 .f32) :
    out_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1
      = k0_pay2 (k0_pay3 (BitVec.ofNat 32 (i 0).val)
          (View.ld (k0_pay1 (k0_pay12 x5) (k0_pay10 x3 (k0_pay7 x1 xs1))) (Rect.unit (s := S512x1) (k0_off1 i) S256x1.size (k0_off1_inb i hc1)))
          (k0_pay1 (k0_pay12 x5) (k0_pay10 x3 (k0_pay7 x1 xs1))) (k0_pay11 x4 x5 (k0_pay9 (k0_pay8 x2 x3) (k0_pay6 x0 x1 xs0))) x6 x7) := by
  unfold out_C_8
  rw [Idealize.ShloMosaic.View.read_writes_eq_canon _ _ _ (cover_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun_C
  dsimp only
  sl_unfold_words
  rw [Idealize.ShloMosaic.View.canon_unit_zero (S := S8x128) hz2]
  simp only [View.readCov_cons_unit_zero (S := S256x512) _ hz2, View.readCov_unit_zero (S := S256x512) _ hz2, View.readCov_cons_unit_zero (S := S512x1) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S512x1024) hz2, View.ld_unit_zero (S := S256x512) hz2, View.ld_unit_zero (S := S512x1) hz2, View.ld_unit_zero (S := S256x1) hz2, View.ld_unit_zero (S := S1x512) hz2, View.ld_unit_zero (S := S8x128) hz2, shapeCast_self]
  rw [Idealize.ShloMosaic.View.read_writes_eq_canon _ _ _ (fun y => ⟨_, List.mem_cons_self, Idealize.ShloMosaic.View.mem_set_unit_zero hz2 inb_S512x1_S512x1_0_0 y⟩),
    Idealize.ShloMosaic.View.canon_cons_unit_zero (S := S512x1) hz2]

end Cert.KernelIdeal.Body

end
-- ==== Proof.LossSpec.lean ====
/-
  The loss both programs compute, as functions of the argument arrays, in each program's own arrangement.

  The inputs are three fields of 512 samples, each a 128 × 128 array, and 512 integer labels. Flattened, field `f` of
  sample `r` has 16384 features; feature `d` is the entry at row `d / 128`, column `d % 128`. For a pair of samples
  `(r, c)` the distance is the mean over the features of the squared difference, summed over the three fields, computed
  as (|x_r|² + |x_c|² − 2 ⟨x_r, x_c⟩) / 16384; a pair with equal labels contributes its distance, a pair with different
  labels the hinge max (1 − distance) 0; only pairs with r < c count; the loss is their sum divided by the number of
  pairs, 512 · 511 / 2 = 130816.

  THE REFERENCE forms each field's distance matrix separately and adds the three (`lossRef`). THE KERNEL adds the three
  fields' squared norms and inner products first — accumulating them over 16 blocks of 1024 features, field after field
  within a block — forms one distance from the totals, and sums the pair terms over two halves of 256 rows, which the
  host adds (`lossKer`). Over the reals the two agree by distributing the division by 16384 (and the factor 2) over the
  sum of the three fields; on the extended reals that step needs the inputs finite.

  The float literals are kept as their words (`Ideal.ofBits`): 2, 16384, 1 and 130816 are exact in f32.
-/
import Idealize.ShloMosaic.PureOps.Ideal
import Idealize.ShloMosaic.PureOps.Ideal.Laws

noncomputable section

namespace Cert.Loss

open Idealize.ShloMosaic

/-- The literals, as the programs print them. -/
def two : EReal := Ideal.ofBits .f32 0x40000000#32
def dflat : EReal := Ideal.ofBits .f32 0x46800000#32
def one : EReal := Ideal.ofBits .f32 0x3F800000#32
def npairs : EReal := Ideal.ofBits .f32 0x47FF8000#32

variable (A : Fin 3 → Fin 512 → Fin 128 → Fin 128 → EReal) (tg : Fin 512 → BitVec 32)

/-- Feature `d` of sample `r` of field `f`: the flattened array. -/
def X (f : Fin 3) (r : Fin 512) (d : Fin 16384) : EReal :=
  A f r ⟨d.val / 128, by have := d.isLt; omega⟩ ⟨d.val % 128, Nat.mod_lt _ (by decide)⟩

/-- What the pair `(r, c)` contributes, given its distance: nothing unless `r < c`; the distance if the labels agree, else
    the hinge. -/
def pairTerm (r c : Fin 512) (dist : EReal) : EReal :=
  if r.val < c.val then (if tg r = tg c then dist else max (one - dist) 0) else 0

/-! ## The reference's arrangement -/

/-- A sample's squared norm in one field, -/
def sqOf (f : Fin 3) (r : Fin 512) : EReal := ∑ d : Fin 16384, X A f r d * X A f r d
/-- two samples' inner product in one field, -/
def gramOf (f : Fin 3) (r c : Fin 512) : EReal := ∑ d : Fin 16384, X A f r d * X A f c d
/-- that field's distance, -/
def distOf (f : Fin 3) (r c : Fin 512) : EReal := Ideal.div (sqOf A f r + sqOf A f c - two * gramOf A f r c) dflat
/-- the three fields' distances added, in the reference's order, -/
def distRef (r c : Fin 512) : EReal := distOf A 0 r c + distOf A 1 r c + distOf A 2 r c
/-- and the loss. -/
def lossRef : EReal := Ideal.div (∑ r : Fin 512, ∑ c : Fin 512, pairTerm tg r c (distRef A r c)) npairs

/-! ## The kernel's arrangement -/

/-- Feature `d` of block `k`. -/
def feat (k : Fin 16) (d : Fin 1024) : Fin 16384 := ⟨1024 * k.val + d.val, by have := k.isLt; have := d.isLt; omega⟩

/-- One block's part of a squared norm and of an inner product. -/
def sqBlk (f : Fin 3) (k : Fin 16) (c : Fin 512) : EReal := ∑ d : Fin 1024, X A f c (feat k d) * X A f c (feat k d)
def gramBlk (f : Fin 3) (k : Fin 16) (r c : Fin 512) : EReal := ∑ d : Fin 1024, X A f r (feat k d) * X A f c (feat k d)

/-- The sum-of-squares accumulator after `n` blocks: from zero, each block adding the three fields' parts in turn. -/
def sqAcc : ℕ → Fin 512 → EReal
  | 0, _ => 0
  | n + 1, c => if h : n < 16 then sqAcc n c + sqBlk A 0 ⟨n, h⟩ c + sqBlk A 1 ⟨n, h⟩ c + sqBlk A 2 ⟨n, h⟩ c else sqAcc n c

/-- The Gram accumulator after `n` blocks, likewise. -/
def gramAcc : ℕ → Fin 512 → Fin 512 → EReal
  | 0, _, _ => 0
  | n + 1, r, c => if h : n < 16 then gramAcc n r c + gramBlk A 0 ⟨n, h⟩ r c + gramBlk A 1 ⟨n, h⟩ r c + gramBlk A 2 ⟨n, h⟩ r c else gramAcc n r c

/-- The distance the kernel forms from the finished accumulators. -/
def distKer (r c : Fin 512) : EReal := Ideal.div (sqAcc A 16 r + sqAcc A 16 c - two * gramAcc A 16 r c) dflat

/-- Row `r` of half `i`. -/
def row (i : Fin 2) (r : Fin 256) : Fin 512 := ⟨256 * i.val + r.val, by have := i.isLt; have := r.isLt; omega⟩

/-- One half's sum of pair terms, -/
def halfKer (i : Fin 2) : EReal := ∑ r : Fin 256, ∑ c : Fin 512, pairTerm tg (row i r) c (distKer A (row i r) c)
/-- and the loss: the two halves added, divided by the number of pairs. -/
def lossKer : EReal := Ideal.div (halfKer A tg 0 + halfKer A tg 1) npairs

end Cert.Loss

end
-- ==== Proof.Ideal.Blocks.lean ====
/-
  The arrays the region finds, and the windows' blocks, read at an index.

  Each field reaches the kernel flattened: entry (r, d) of the flattened array is the argument's entry at sample r, row
  d / 128, column d % 128; the labels reach it as a column and as a row. At grid point t — row half t / 16, feature block
  t % 16 — the window over a half's rows holds rows 256 · (t / 16) + r and features 1024 · (t % 16) + d of a field, the
  window over all rows the same features of every row, the label column window the half's labels, the label row window
  all labels.
-/
import proofs.«162256_j40226663694515_2_alg».proof.Proof.Ideal.Accumulation
import proofs.«162256_j40226663694515_2_alg».proof.Proof.LossSpec
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The three fields by coordinates, and the labels: what the loss is a function of. -/
def fieldsA (c : Dev nD) : Fin 3 → Fin 512 → Fin 128 → Fin 128 → EReal := fun f r p q =>
  match f with
  | 0 => m ((c : Thread nD τ).loc main_arg0) (ix3 r p q)
  | 1 => m ((c : Thread nD τ).loc main_arg1) (ix3 r p q)
  | 2 => m ((c : Thread nD τ).loc main_arg2) (ix3 r p q)
def labels (c : Dev nD) : Fin 512 → BitVec 32 := fun r => m ((c : Thread nD τ).loc main_arg3) (ix1 r)

/-! ## The arrays the region finds -/

/-- Field 0, flattened by the reshape before the call: entry (r, d) is the argument's entry (r, d / 128, d % 128). -/
theorem V_v0 (c : Dev nD) :
    (V m c main_v0 : S512x16384.Idx → EReal) = shapeCast S512x16384 (m ((c : Thread nD τ).loc main_arg0)) shapeCasts_S512x128x128_S512x16384 := by
  show StableHlo.after (List.flatten [hostOps0]) (fun b => m (c, b)) (Proc.devRef .tc main_v0) = _
  simp only [List.flatten_cons, List.flatten_nil, List.append_nil]
  after_results
  rfl

theorem V_v0_apply (c : Dev nD) (r : Fin 512) (d : Fin 16384) :
    (V m c main_v0 : S512x16384.Idx → EReal) (ix2 r d) = Cert.Loss.X (fieldsA m c) 0 r d := by
  rw [V_v0]
  unfold Cert.Loss.X fieldsA
  refine shapeCast_apply _ _ _ (ix3 r ⟨d.val / 128, by have := d.isLt; omega⟩ ⟨d.val % 128, Nat.mod_lt _ (by decide)⟩) ?_
  rw [Shape.rowMajor_val_three, Shape.rowMajor_val_two]
  show (r.val * 128 + d.val / 128) * 128 + d.val % 128 = r.val * 16384 + d.val
  omega

/-- Field 1, flattened by the reshape before the call: entry (r, d) is the argument's entry (r, d / 128, d % 128). -/
theorem V_v1 (c : Dev nD) :
    (V m c main_v1 : S512x16384.Idx → EReal) = shapeCast S512x16384 (m ((c : Thread nD τ).loc main_arg1)) shapeCasts_S512x128x128_S512x16384 := by
  show StableHlo.after (List.flatten [hostOps0]) (fun b => m (c, b)) (Proc.devRef .tc main_v1) = _
  simp only [List.flatten_cons, List.flatten_nil, List.append_nil]
  after_results
  rfl

theorem V_v1_apply (c : Dev nD) (r : Fin 512) (d : Fin 16384) :
    (V m c main_v1 : S512x16384.Idx → EReal) (ix2 r d) = Cert.Loss.X (fieldsA m c) 1 r d := by
  rw [V_v1]
  unfold Cert.Loss.X fieldsA
  refine shapeCast_apply _ _ _ (ix3 r ⟨d.val / 128, by have := d.isLt; omega⟩ ⟨d.val % 128, Nat.mod_lt _ (by decide)⟩) ?_
  rw [Shape.rowMajor_val_three, Shape.rowMajor_val_two]
  show (r.val * 128 + d.val / 128) * 128 + d.val % 128 = r.val * 16384 + d.val
  omega

/-- Field 2, flattened by the reshape before the call: entry (r, d) is the argument's entry (r, d / 128, d % 128). -/
theorem V_v2 (c : Dev nD) :
    (V m c main_v2 : S512x16384.Idx → EReal) = shapeCast S512x16384 (m ((c : Thread nD τ).loc main_arg2)) shapeCasts_S512x128x128_S512x16384 := by
  show StableHlo.after (List.flatten [hostOps0]) (fun b => m (c, b)) (Proc.devRef .tc main_v2) = _
  simp only [List.flatten_cons, List.flatten_nil, List.append_nil]
  after_results
  rfl

theorem V_v2_apply (c : Dev nD) (r : Fin 512) (d : Fin 16384) :
    (V m c main_v2 : S512x16384.Idx → EReal) (ix2 r d) = Cert.Loss.X (fieldsA m c) 2 r d := by
  rw [V_v2]
  unfold Cert.Loss.X fieldsA
  refine shapeCast_apply _ _ _ (ix3 r ⟨d.val / 128, by have := d.isLt; omega⟩ ⟨d.val % 128, Nat.mod_lt _ (by decide)⟩) ?_
  rw [Shape.rowMajor_val_three, Shape.rowMajor_val_two]
  show (r.val * 128 + d.val / 128) * 128 + d.val % 128 = r.val * 16384 + d.val
  omega

/-- The labels as a column, -/
theorem V_v3 (c : Dev nD) :
    (V m c main_v3 : S512x1.Idx → BitVec 32) = shapeCast S512x1 (m ((c : Thread nD τ).loc main_arg3)) shapeCasts_S512_S512x1 := by
  show StableHlo.after (List.flatten [hostOps0]) (fun b => m (c, b)) (Proc.devRef .tc main_v3) = _
  simp only [List.flatten_cons, List.flatten_nil, List.append_nil]
  after_results
  rfl

theorem V_v3_apply (c : Dev nD) (r : Fin 512) : (V m c main_v3 : S512x1.Idx → BitVec 32) (ix2 r 0) = labels m c r := by
  rw [V_v3]
  unfold labels
  refine shapeCast_apply _ _ _ (ix1 r) ?_
  rw [Shape.rowMajor_val_one, Shape.rowMajor_val_two]
  show r.val = r.val * 1 + 0
  omega

/-- and as a row. -/
theorem V_v4 (c : Dev nD) :
    (V m c main_v4 : S1x512.Idx → BitVec 32) = shapeCast S1x512 (m ((c : Thread nD τ).loc main_arg3)) shapeCasts_S512_S1x512 := by
  show StableHlo.after (List.flatten [hostOps0]) (fun b => m (c, b)) (Proc.devRef .tc main_v4) = _
  simp only [List.flatten_cons, List.flatten_nil, List.append_nil]
  after_results
  rfl

theorem V_v4_apply (c : Dev nD) (cc : Fin 512) : (V m c main_v4 : S1x512.Idx → BitVec 32) (ix2 0 cc) = labels m c cc := by
  rw [V_v4]
  unfold labels
  refine shapeCast_apply _ _ _ (ix1 cc) ?_
  rw [Shape.rowMajor_val_one, Shape.rowMajor_val_two]
  show cc.val = 0 * 512 + cc.val
  omega

/-! ## Where each window stands at a point -/
theorem idx0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)
theorem idx1 : ∀ t : Fin cfg0.N, win0_1.index t 0 = 0 ∧ win0_1.index t 1 = t.val % 16 :=
  (by decide +kernel : ∀ t : Fin grid0.N, win0_1.index t 0 = 0 ∧ win0_1.index t 1 = t.val % 16)
theorem idx2 : ∀ t : Fin cfg0.N, win0_2.index t 0 = t.val / 16 ∧ win0_2.index t 1 = t.val % 16 :=
  (by decide +kernel : ∀ t : Fin grid0.N, win0_2.index t 0 = t.val / 16 ∧ win0_2.index t 1 = t.val % 16)
theorem idx3 : ∀ t : Fin cfg0.N, win0_3.index t 0 = 0 ∧ win0_3.index t 1 = t.val % 16 :=
  (by decide +kernel : ∀ t : Fin grid0.N, win0_3.index t 0 = 0 ∧ win0_3.index t 1 = t.val % 16)
theorem idx4 : ∀ t : Fin cfg0.N, win0_4.index t 0 = t.val / 16 ∧ win0_4.index t 1 = t.val % 16 :=
  (by decide +kernel : ∀ t : Fin grid0.N, win0_4.index t 0 = t.val / 16 ∧ win0_4.index t 1 = t.val % 16)
theorem idx5 : ∀ t : Fin cfg0.N, win0_5.index t 0 = 0 ∧ win0_5.index t 1 = t.val % 16 :=
  (by decide +kernel : ∀ t : Fin grid0.N, win0_5.index t 0 = 0 ∧ win0_5.index t 1 = t.val % 16)
theorem idx6 : ∀ t : Fin cfg0.N, win0_6.index t 0 = t.val / 16 ∧ win0_6.index t 1 = 0 :=
  (by decide +kernel : ∀ t : Fin grid0.N, win0_6.index t 0 = t.val / 16 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val / 16 ∧ win0_8.index t 1 = 0 :=
  (by decide +kernel : ∀ t : Fin grid0.N, win0_8.index t 0 = t.val / 16 ∧ win0_8.index t 1 = 0)

/-! ## The blocks -/

/-- Window 0 (this half's rows of field 0) at point `t`. -/
theorem iblk0_apply (c : Dev nD) (t : Fin cfg0.N) (r : Fin 256) (d : Fin 1024) (R : Fin 512) (D : Fin 16384)
    (hR : R.val = 256 * (t.val / 16) + r.val) (hD : D.val = 1024 * (t.val % 16) + d.val) :
    (iblk m c 0 t : S256x1024.Idx → EReal) (ix2 r d) = Cert.Loss.X (fieldsA m c) 0 R D := by
  rw [← V_v0_apply]
  show (V m c main_v0 : S512x16384.Idx → EReal) (((cfg0.win 0).blk t).view.emb (ix2 r d)) = _
  refine congrArg _ (funext fun a => Fin.ext ?_)
  match a with
  | ⟨0, _⟩ =>
    show win0_0.index t 0 * 256 + 1 * r.val = R.val
    rw [(idx0 t).1, hR]; omega
  | ⟨1, _⟩ =>
    show win0_0.index t 1 * 1024 + 1 * d.val = D.val
    rw [(idx0 t).2, hD]; omega

/-- Window 1 (all rows of field 0) at point `t`. -/
theorem iblk1_apply (c : Dev nD) (t : Fin cfg0.N) (r : Fin 512) (d : Fin 1024) (R : Fin 512) (D : Fin 16384)
    (hR : R.val = r.val) (hD : D.val = 1024 * (t.val % 16) + d.val) :
    (iblk m c 1 t : S512x1024.Idx → EReal) (ix2 r d) = Cert.Loss.X (fieldsA m c) 0 R D := by
  rw [← V_v0_apply]
  show (V m c main_v0 : S512x16384.Idx → EReal) (((cfg0.win 1).blk t).view.emb (ix2 r d)) = _
  refine congrArg _ (funext fun a => Fin.ext ?_)
  match a with
  | ⟨0, _⟩ =>
    show win0_1.index t 0 * 512 + 1 * r.val = R.val
    rw [(idx1 t).1, hR]; omega
  | ⟨1, _⟩ =>
    show win0_1.index t 1 * 1024 + 1 * d.val = D.val
    rw [(idx1 t).2, hD]; omega

/-- Window 2 (this half's rows of field 1) at point `t`. -/
theorem iblk2_apply (c : Dev nD) (t : Fin cfg0.N) (r : Fin 256) (d : Fin 1024) (R : Fin 512) (D : Fin 16384)
    (hR : R.val = 256 * (t.val / 16) + r.val) (hD : D.val = 1024 * (t.val % 16) + d.val) :
    (iblk m c 2 t : S256x1024.Idx → EReal) (ix2 r d) = Cert.Loss.X (fieldsA m c) 1 R D := by
  rw [← V_v1_apply]
  show (V m c main_v1 : S512x16384.Idx → EReal) (((cfg0.win 2).blk t).view.emb (ix2 r d)) = _
  refine congrArg _ (funext fun a => Fin.ext ?_)
  match a with
  | ⟨0, _⟩ =>
    show win0_2.index t 0 * 256 + 1 * r.val = R.val
    rw [(idx2 t).1, hR]; omega
  | ⟨1, _⟩ =>
    show win0_2.index t 1 * 1024 + 1 * d.val = D.val
    rw [(idx2 t).2, hD]; omega

/-- Window 3 (all rows of field 1) at point `t`. -/
theorem iblk3_apply (c : Dev nD) (t : Fin cfg0.N) (r : Fin 512) (d : Fin 1024) (R : Fin 512) (D : Fin 16384)
    (hR : R.val = r.val) (hD : D.val = 1024 * (t.val % 16) + d.val) :
    (iblk m c 3 t : S512x1024.Idx → EReal) (ix2 r d) = Cert.Loss.X (fieldsA m c) 1 R D := by
  rw [← V_v1_apply]
  show (V m c main_v1 : S512x16384.Idx → EReal) (((cfg0.win 3).blk t).view.emb (ix2 r d)) = _
  refine congrArg _ (funext fun a => Fin.ext ?_)
  match a with
  | ⟨0, _⟩ =>
    show win0_3.index t 0 * 512 + 1 * r.val = R.val
    rw [(idx3 t).1, hR]; omega
  | ⟨1, _⟩ =>
    show win0_3.index t 1 * 1024 + 1 * d.val = D.val
    rw [(idx3 t).2, hD]; omega

/-- Window 4 (this half's rows of field 2) at point `t`. -/
theorem iblk4_apply (c : Dev nD) (t : Fin cfg0.N) (r : Fin 256) (d : Fin 1024) (R : Fin 512) (D : Fin 16384)
    (hR : R.val = 256 * (t.val / 16) + r.val) (hD : D.val = 1024 * (t.val % 16) + d.val) :
    (iblk m c 4 t : S256x1024.Idx → EReal) (ix2 r d) = Cert.Loss.X (fieldsA m c) 2 R D := by
  rw [← V_v2_apply]
  show (V m c main_v2 : S512x16384.Idx → EReal) (((cfg0.win 4).blk t).view.emb (ix2 r d)) = _
  refine congrArg _ (funext fun a => Fin.ext ?_)
  match a with
  | ⟨0, _⟩ =>
    show win0_4.index t 0 * 256 + 1 * r.val = R.val
    rw [(idx4 t).1, hR]; omega
  | ⟨1, _⟩ =>
    show win0_4.index t 1 * 1024 + 1 * d.val = D.val
    rw [(idx4 t).2, hD]; omega

/-- Window 5 (all rows of field 2) at point `t`. -/
theorem iblk5_apply (c : Dev nD) (t : Fin cfg0.N) (r : Fin 512) (d : Fin 1024) (R : Fin 512) (D : Fin 16384)
    (hR : R.val = r.val) (hD : D.val = 1024 * (t.val % 16) + d.val) :
    (iblk m c 5 t : S512x1024.Idx → EReal) (ix2 r d) = Cert.Loss.X (fieldsA m c) 2 R D := by
  rw [← V_v2_apply]
  show (V m c main_v2 : S512x16384.Idx → EReal) (((cfg0.win 5).blk t).view.emb (ix2 r d)) = _
  refine congrArg _ (funext fun a => Fin.ext ?_)
  match a with
  | ⟨0, _⟩ =>
    show win0_5.index t 0 * 512 + 1 * r.val = R.val
    rw [(idx5 t).1, hR]; omega
  | ⟨1, _⟩ =>
    show win0_5.index t 1 * 1024 + 1 * d.val = D.val
    rw [(idx5 t).2, hD]; omega

/-- The label column window: this half's labels. -/
theorem iblk6_apply (c : Dev nD) (t : Fin cfg0.N) (r : Fin 256) (R : Fin 512) (hR : R.val = 256 * (t.val / 16) + r.val) :
    (iblk m c 6 t : S256x1.Idx → BitVec 32) (ix2 r 0) = labels m c R := by
  rw [← V_v3_apply]
  show (V m c main_v3 : S512x1.Idx → BitVec 32) (((cfg0.win 6).blk t).view.emb (ix2 r 0)) = _
  refine congrArg _ (funext fun a => Fin.ext ?_)
  match a with
  | ⟨0, _⟩ =>
    show win0_6.index t 0 * 256 + 1 * r.val = R.val
    rw [(idx6 t).1, hR]; omega
  | ⟨1, _⟩ =>
    show win0_6.index t 1 * 1 + 1 * 0 = 0
    rw [(idx6 t).2]

/-- The label row window: all labels. -/
theorem iblk7_apply (c : Dev nD) (t : Fin cfg0.N) (cc : Fin 512) :
    (iblk m c 7 t : S1x512.Idx → BitVec 32) (ix2 0 cc) = labels m c cc := by
  rw [← V_v4_apply]
  show (V m c main_v4 : S1x512.Idx → BitVec 32) (((cfg0.win 7).blk t).view.emb (ix2 0 cc)) = _
  refine congrArg _ (funext fun a => Fin.ext ?_)
  match a with
  | ⟨0, _⟩ =>
    show win0_7.index t 0 * 1 + 1 * 0 = 0
    rw [(idx7 t).1]
  | ⟨1, _⟩ =>
    show win0_7.index t 1 * 512 + 1 * cc.val = cc.val
    rw [(idx7 t).2]; omega

end Cert.KernelIdeal.Body

end
-- ==== Proof.Ideal.Payloads.lean ====
/-
  The kernel body's arithmetic, read at an index, on the extended reals.

  Each value the body stores is a short chain of vector operations on the values it loaded. Read at one entry, the
  chains say: the two accumulators start at zero; a block's step adds to the Gram accumulator at (r, c) the inner product
  of row r of the left block with row c of the right block over the block's 1024 features, and to the squared-norm
  accumulator at c the sum of the squares of row c; at the last block the pair terms are formed from the accumulators
  and summed over the half's 256 rows and the 512 columns, and that one number fills the output tile.
-/
import proofs.«162256_j40226663694515_2_alg».proof.Proof.Gen.KernelIdeal.Skeleton
import proofs.«162256_j40226663694515_2_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The matrix product that contracts the feature axis of both operands -/

/-- The left operand's index at output (r, c) and contraction position q: row r … -/
theorem lhs_row (i : S256x512.Idx) (q : dot_S256x1024_S512x1024_S256x512_1_1_0_0_n_n.contr.Idx) :
    (dot_S256x1024_S512x1024_S256x512_1_1_0_0_n_n.lhsIdx i q 0).val = (i 0).val := by
  unfold DotDims.lhsIdx
  rw [dif_neg (show ¬(0 : Fin S256x1024.rank) ∈ dot_S256x1024_S512x1024_S256x512_1_1_0_0_n_n.lhsBatch by decide),
    dif_pos (show (0 : Fin S256x1024.rank) ∈ dot_S256x1024_S512x1024_S256x512_1_1_0_0_n_n.lhsNonContracting by decide)]
  rfl
/-- … feature q; -/
theorem lhs_feat (i : S256x512.Idx) (q : dot_S256x1024_S512x1024_S256x512_1_1_0_0_n_n.contr.Idx) :
    (dot_S256x1024_S512x1024_S256x512_1_1_0_0_n_n.lhsIdx i q 1).val = (q ⟨0, by decide⟩).val :=
  dot_S256x1024_S512x1024_S256x512_1_1_0_0_n_n.lhsIdx_val_of_single rfl i q
/-- the right operand's: row c … -/
theorem rhs_row (i : S256x512.Idx) (q : dot_S256x1024_S512x1024_S256x512_1_1_0_0_n_n.contr.Idx) :
    (dot_S256x1024_S512x1024_S256x512_1_1_0_0_n_n.rhsIdx i q 0).val = (i 1).val := by
  unfold DotDims.rhsIdx
  rw [dif_neg (show ¬(0 : Fin S512x1024.rank) ∈ dot_S256x1024_S512x1024_S256x512_1_1_0_0_n_n.rhsBatch by decide),
    dif_pos (show (0 : Fin S512x1024.rank) ∈ dot_S256x1024_S512x1024_S256x512_1_1_0_0_n_n.rhsNonContracting by decide)]
  rfl
/-- … feature q. -/
theorem rhs_feat (i : S256x512.Idx) (q : dot_S256x1024_S512x1024_S256x512_1_1_0_0_n_n.contr.Idx) :
    (dot_S256x1024_S512x1024_S256x512_1_1_0_0_n_n.rhsIdx i q 1).val = (q ⟨0, by decide⟩).val :=
  dot_S256x1024_S512x1024_S256x512_1_1_0_0_n_n.rhsIdx_val_of_single rfl i q

/-- Into the zero accumulator, the product at (r, c) is the inner product of row r of the left operand with row c of the
    right one. -/
theorem matmul_zero_apply (a : FVec Ideal S256x1024 .bf16) (b : FVec Ideal S512x1024 .bf16) (r : Fin 256) (c : Fin 512) :
    matmul dot_S256x1024_S512x1024_S256x512_1_1_0_0_n_n none a b (constant (F := Ideal) S256x512 .f32 0x00000000#32) (ix2 r c)
      = ∑ d : Fin 1024, a (ix2 r d) * b (ix2 c d) := by
  refine (Ideal.matmul_constant_zero_apply dot_S256x1024_S512x1024_S256x512_1_1_0_0_n_n none a b (ix2 r c)).trans ?_
  rw [← Equiv.sum_comp (contrEquiv1 dot_S256x1024_S512x1024_S256x512_1_1_0_0_n_n 1024 rfl rfl).symm]
  refine Finset.sum_congr rfl fun k _ => ?_
  have hk := contrEquiv1_symm_val dot_S256x1024_S512x1024_S256x512_1_1_0_0_n_n 1024 rfl rfl k
  have el : dot_S256x1024_S512x1024_S256x512_1_1_0_0_n_n.lhsIdx (ix2 r c)
      ((contrEquiv1 dot_S256x1024_S512x1024_S256x512_1_1_0_0_n_n 1024 rfl rfl).symm k) = ix2 r k :=
    funext fun x => Fin.ext (by
      match x with
      | ⟨0, _⟩ => exact lhs_row _ _
      | ⟨1, _⟩ => exact (lhs_feat _ _).trans hk)
  have er : dot_S256x1024_S512x1024_S256x512_1_1_0_0_n_n.rhsIdx (ix2 r c)
      ((contrEquiv1 dot_S256x1024_S512x1024_S256x512_1_1_0_0_n_n 1024 rfl rfl).symm k) = ix2 c k :=
    funext fun x => Fin.ext (by
      match x with
      | ⟨0, _⟩ => exact rhs_row _ _
      | ⟨1, _⟩ => exact (rhs_feat _ _).trans hk)
  rw [el, er]

/-! ## A sum along the rows, kept as a column -/

/-- The sum over the feature axis of a 512 × 1024 array, at row c. -/
theorem rowsum_apply (src : FVec Ideal S512x1024 .f32) (h : S512x1024.Reduces [1] S512) (hφ : FKind.Formats .f32)
    (hacc : (0x00000000#32 : BitVec (FTy.bits .f32)) = FKind.add.neutral .f32 hφ) (c : Fin 512) :
    multiReduction .add [1] S512 src 0x00000000#32 h hφ hacc (ix1 c) = ∑ d : Fin 1024, src (ix2 c d) := by
  refine (Ideal.multiReduction_add_single src _ h hφ hacc (ix1 c)).trans ?_
  refine Finset.sum_congr rfl fun d _ => congrArg src (funext fun x => Fin.ext ?_)
  match x with
  | ⟨0, _⟩ => rfl
  | ⟨1, _⟩ => rfl

/-- A length-512 vector viewed as a 512 × 1 column reads, at (c, 0), the vector at c. -/
theorem column_apply {α : Type} (v : S512.Idx → α) (h : S512.ShapeCasts S512x1) (c : Fin 512) (z : Fin 1) :
    shapeCast S512x1 v h (ix2 c z) = v (ix1 c) :=
  shapeCast_apply v h _ _ (by
    have hz : z.val = 0 := by omega
    rw [Shape.rowMajor_val_two, Shape.rowMajor_val_one]
    show c.val = c.val * 1 + z.val
    rw [hz, Nat.mul_one, Nat.add_zero])

/-! ## The accumulators' steps -/

/-- The Gram accumulator starts at zero, -/
theorem pay4_apply (j : S256x512.Idx) : k0_pay4 (F := Ideal) j = 0 := by
  unfold k0_pay4
  rw [shapeCast_self]
  exact Ideal.ofBits_zero_f32

/-- and so does the squared-norm accumulator. -/
theorem pay5_apply (j : S512x1.Idx) : k0_pay5 (F := Ideal) j = 0 := by
  unfold k0_pay5
  rw [shapeCast_self]
  exact Ideal.ofBits_zero_f32

/-- A block's product alone, -/
theorem pay8_apply (x2 : Vec Ideal S256x1024 .f32) (x3 : Vec Ideal S512x1024 .f32) (r : Fin 256) (c : Fin 512) :
    k0_pay8 x2 x3 (ix2 r c) = ∑ d : Fin 1024, x2 (ix2 r d) * x3 (ix2 c d) := by
  unfold k0_pay8
  rw [shapeCast_self, shapeCast_self]
  exact matmul_zero_apply _ _ r c

/-- added to the Gram accumulator: the first field's step, -/
theorem pay6_apply (x0 : Vec Ideal S256x1024 .f32) (x1 : Vec Ideal S512x1024 .f32) (g : Vec Ideal S256x512 .f32)
    (r : Fin 256) (c : Fin 512) :
    k0_pay6 x0 x1 g (ix2 r c) = g (ix2 r c) + ∑ d : Fin 1024, x0 (ix2 r d) * x1 (ix2 c d) := by
  unfold k0_pay6
  rw [shapeCast_self, shapeCast_self, shapeCast_self]
  exact congrArg (g (ix2 r c) + ·) (matmul_zero_apply _ _ r c)

/-- the second field's, whose product was formed before, -/
theorem pay9_apply (v31 : FVec Ideal S256x512 .f32) (g : Vec Ideal S256x512 .f32) (r : Fin 256) (c : Fin 512) :
    k0_pay9 v31 g (ix2 r c) = g (ix2 r c) + v31 (ix2 r c) := by
  unfold k0_pay9
  rw [shapeCast_self]
  rfl

/-- and the third field's. -/
theorem pay11_apply (x4 : Vec Ideal S256x1024 .f32) (x5 : Vec Ideal S512x1024 .f32) (g : Vec Ideal S256x512 .f32)
    (r : Fin 256) (c : Fin 512) :
    k0_pay11 x4 x5 g (ix2 r c) = g (ix2 r c) + ∑ d : Fin 1024, x4 (ix2 r d) * x5 (ix2 c d) := by
  unfold k0_pay11
  rw [shapeCast_self, shapeCast_self, shapeCast_self]
  exact congrArg (g (ix2 r c) + ·) (matmul_zero_apply _ _ r c)

/-- A block's squared norms alone, -/
theorem pay12_apply (x5 : Vec Ideal S512x1024 .f32) (c : Fin 512) :
    k0_pay12 x5 (ix2 c 0) = ∑ d : Fin 1024, x5 (ix2 c d) * x5 (ix2 c d) := by
  unfold k0_pay12
  dsimp only
  rw [shapeCast_self]
  refine (column_apply _ _ c 0).trans ?_
  exact rowsum_apply _ _ _ _ c

/-- added to the squared-norm accumulator: the first field's step, -/
theorem pay7_apply (x1 : Vec Ideal S512x1024 .f32) (s : Vec Ideal S512x1 .f32) (c : Fin 512) :
    k0_pay7 x1 s (ix2 c 0) = s (ix2 c 0) + ∑ d : Fin 1024, x1 (ix2 c d) * x1 (ix2 c d) := by
  unfold k0_pay7
  dsimp only
  rw [shapeCast_self, shapeCast_self]
  refine congrArg (s (ix2 c 0) + ·) ?_
  refine (column_apply _ _ c 0).trans ?_
  exact rowsum_apply _ _ _ _ c

/-- the second field's, -/
theorem pay10_apply (x3 : Vec Ideal S512x1024 .f32) (s : Vec Ideal S512x1 .f32) (c : Fin 512) :
    k0_pay10 x3 s (ix2 c 0) = s (ix2 c 0) + ∑ d : Fin 1024, x3 (ix2 c d) * x3 (ix2 c d) := by
  unfold k0_pay10
  dsimp only
  rw [shapeCast_self, shapeCast_self]
  refine congrArg (s (ix2 c 0) + ·) ?_
  refine (column_apply _ _ c 0).trans ?_
  exact rowsum_apply _ _ _ _ c

/-- and the third field's, whose squared norms were formed before. -/
theorem pay1_apply (v63 : FVec Ideal S512x1 .f32) (s : Vec Ideal S512x1 .f32) (c : Fin 512) :
    k0_pay1 v63 s (ix2 c 0) = s (ix2 c 0) + v63 (ix2 c 0) := by
  unfold k0_pay1
  rw [shapeCast_self]
  rfl

/-- The output tile is filled with the one number. -/
theorem pay2_apply (v114 : FVec Ideal S1x1 .f32) (j : S8x128.Idx) : k0_pay2 v114 j = v114 (ix2 0 0) := by
  unfold k0_pay2
  refine broadcastTo_apply v114 _ j (ix2 0 0) fun a => ?_
  match a with
  | ⟨0, _⟩ => rfl
  | ⟨1, _⟩ => rfl

end Cert.KernelIdeal.Payload

end
-- ==== Proof.Ideal.Steps.lean ====
/-
  One grid point's work on the two accumulators, read at an index.

  At grid point t — row half t / 16, feature block k = t % 16 — the body adds to the Gram accumulator at (r, c), field after
  field, the inner product over the block's 1024 features of row 256 · (t / 16) + r with row c, and to the squared-norm
  accumulator at c, field after field, the sum of the squares of row c over the same features: the three fields' block
  parts of the specification, added in the specification's order.
-/
import proofs.«162256_j40226663694515_2_alg».proof.Proof.Ideal.Blocks
import proofs.«162256_j40226663694515_2_alg».proof.Proof.Ideal.Payloads

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Loss Cert.KernelIdeal.Payload

variable (m : (ℓ : Loc nD τ sig) → Buf (Elt Ideal) ℓ)

/-- Feature `d` of block `k = t % 16` is feature `1024 · (t % 16) + d` of the flattened array. -/
theorem feat_val (t : Fin cfg0.N) (k : Fin 16) (hk : k.val = t.val % 16) (d : Fin 1024) :
    (feat k d).val = 1024 * (t.val % 16) + d.val := by
  show 1024 * k.val + d.val = _
  rw [hk]

/-- THE GRAM ACCUMULATOR'S STEP at point `t`: the three fields' block inner products of rows `R` and `cc`, added in turn. -/
theorem gram_step (c : Dev nD) (t : Fin cfg0.N) (g : Vec Ideal S256x512 .f32) (r : Fin 256) (cc : Fin 512) (R : Fin 512) (k : Fin 16)
    (hR : R.val = 256 * (t.val / 16) + r.val) (hk : k.val = t.val % 16) :
    k0_pay11 (iblk m c 4 t) (iblk m c 5 t) (k0_pay9 (k0_pay8 (iblk m c 2 t) (iblk m c 3 t)) (k0_pay6 (iblk m c 0 t) (iblk m c 1 t) g)) (ix2 r cc)
      = g (ix2 r cc) + gramBlk (fieldsA m c) 0 k R cc + gramBlk (fieldsA m c) 1 k R cc + gramBlk (fieldsA m c) 2 k R cc := by
  have e1 := pay11_apply (iblk m c 4 t) (iblk m c 5 t)
    (k0_pay9 (k0_pay8 (iblk m c 2 t) (iblk m c 3 t)) (k0_pay6 (iblk m c 0 t) (iblk m c 1 t) g)) r cc
  have e2 := pay9_apply (k0_pay8 (iblk m c 2 t) (iblk m c 3 t)) (k0_pay6 (iblk m c 0 t) (iblk m c 1 t) g) r cc
  have e3 := pay6_apply (iblk m c 0 t) (iblk m c 1 t) g r cc
  have e4 := pay8_apply (iblk m c 2 t) (iblk m c 3 t) r cc
  rw [e1, e2, e3, e4]
  unfold gramBlk
  refine congrArg₂ (· + ·) (congrArg₂ (· + ·) (congrArg₂ (· + ·) rfl ?_) ?_) ?_
  · exact Finset.sum_congr rfl fun d _ => congrArg₂ (· * ·)
      (iblk0_apply m c t r d R (feat k d) hR (feat_val t k hk d)) (iblk1_apply m c t cc d cc (feat k d) rfl (feat_val t k hk d))
  · exact Finset.sum_congr rfl fun d _ => congrArg₂ (· * ·)
      (iblk2_apply m c t r d R (feat k d) hR (feat_val t k hk d)) (iblk3_apply m c t cc d cc (feat k d) rfl (feat_val t k hk d))
  · exact Finset.sum_congr rfl fun d _ => congrArg₂ (· * ·)
      (iblk4_apply m c t r d R (feat k d) hR (feat_val t k hk d)) (iblk5_apply m c t cc d cc (feat k d) rfl (feat_val t k hk d))

/-- THE SQUARED-NORM ACCUMULATOR'S STEP at point `t`: the three fields' block sums of squares of row `cc`, added in turn. -/
theorem sq_step (c : Dev nD) (t : Fin cfg0.N) (s : Vec Ideal S512x1 .f32) (cc : Fin 512) (k : Fin 16) (hk : k.val = t.val % 16) :
    k0_pay1 (k0_pay12 (iblk m c 5 t)) (k0_pay10 (iblk m c 3 t) (k0_pay7 (iblk m c 1 t) s)) (ix2 cc 0)
      = s (ix2 cc 0) + sqBlk (fieldsA m c) 0 k cc + sqBlk (fieldsA m c) 1 k cc + sqBlk (fieldsA m c) 2 k cc := by
  have e1 := pay1_apply (k0_pay12 (iblk m c 5 t)) (k0_pay10 (iblk m c 3 t) (k0_pay7 (iblk m c 1 t) s)) cc
  have e2 := pay10_apply (iblk m c 3 t) (k0_pay7 (iblk m c 1 t) s) cc
  have e3 := pay7_apply (iblk m c 1 t) s cc
  have e4 := pay12_apply (iblk m c 5 t) cc
  rw [e1, e2, e3, e4]
  unfold sqBlk
  refine congrArg₂ (· + ·) (congrArg₂ (· + ·) (congrArg₂ (· + ·) rfl ?_) ?_) ?_
  · exact Finset.sum_congr rfl fun d _ => congrArg₂ (· * ·)
      (iblk1_apply m c t cc d cc (feat k d) rfl (feat_val t k hk d)) (iblk1_apply m c t cc d cc (feat k d) rfl (feat_val t k hk d))
  · exact Finset.sum_congr rfl fun d _ => congrArg₂ (· * ·)
      (iblk3_apply m c t cc d cc (feat k d) rfl (feat_val t k hk d)) (iblk3_apply m c t cc d cc (feat k d) rfl (feat_val t k hk d))
  · exact Finset.sum_congr rfl fun d _ => congrArg₂ (· * ·)
      (iblk5_apply m c t cc d cc (feat k d) rfl (feat_val t k hk d)) (iblk5_apply m c t cc d cc (feat k d) rfl (feat_val t k hk d))

end Cert.KernelIdeal.Body

end
-- ==== Proof.Ideal.Accumulated.lean ====
/-
  The two accumulators after each grid point.

  By induction on the point: after feature block j of row half i the Gram accumulator holds, at (r, c), the spec's
  accumulation of the first j + 1 blocks at rows 256·i + r and c, and the sum-of-squares accumulator the spec's
  accumulation at row c — a first block starts from the zero payloads, every other block from what the block before left.
-/
import proofs.«162256_j40226663694515_2_alg».proof.Proof.Ideal.Pieces
import proofs.«162256_j40226663694515_2_alg».proof.Proof.Ideal.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Loss Cert.KernelIdeal.Payload

variable (m : (ℓ : Loc nD τ sig) → Buf (Elt Ideal) ℓ)

/-! ## The spec's accumulators, one block at a time -/

theorem gramAcc_succ (A : Fin 3 → Fin 512 → Fin 128 → Fin 128 → EReal) (n : ℕ) (h : n < 16) (r c : Fin 512) :
    gramAcc A (n + 1) r c = gramAcc A n r c + gramBlk A 0 ⟨n, h⟩ r c + gramBlk A 1 ⟨n, h⟩ r c + gramBlk A 2 ⟨n, h⟩ r c := by
  rw [gramAcc]; exact dif_pos h
theorem sqAcc_succ (A : Fin 3 → Fin 512 → Fin 128 → Fin 128 → EReal) (n : ℕ) (h : n < 16) (c : Fin 512) :
    sqAcc A (n + 1) c = sqAcc A n c + sqBlk A 0 ⟨n, h⟩ c + sqBlk A 1 ⟨n, h⟩ c + sqBlk A 2 ⟨n, h⟩ c := by
  rw [sqAcc]; exact dif_pos h

/-! ## The accumulators after each point -/

/-- After feature block `n % 16` of row half `n / 16` the two accumulators hold the spec's accumulations of the first
    `n % 16 + 1` blocks. -/
theorem acc_eq (c : Dev nD) : ∀ (n : ℕ) (h : n < cfg0.N),
    (∀ (r : Fin 256) (cc R : Fin 512), R.val = 256 * (n / 16) + r.val →
      ((outsAt m c n h).2.1 : S256x512.Idx → EReal) (ix2 r cc) = gramAcc (fieldsA m c) (n % 16 + 1) R cc)
    ∧ (∀ cc : Fin 512, ((outsAt m c n h).2.2 : S512x1.Idx → EReal) (ix2 cc 0) = sqAcc (fieldsA m c) (n % 16 + 1) cc)
  | 0, h => by
    have hA := outsAt_A m c ⟨0, h⟩ rfl (by show ¬(0 : ℕ) % 16 = 15; decide)
    refine ⟨fun r cc R hR => ?_, fun cc => ?_⟩
    · rw [hA]; dsimp only
      rw [sout_A_0_eq]
      refine (gram_step m c ⟨0, h⟩ (k0_pay4 (F := Ideal)) r cc R ⟨0, by decide⟩ hR rfl).trans ?_
      rw [pay4_apply, gramAcc_succ _ 0 (by decide)]
      rfl
    · rw [hA]; dsimp only
      rw [sout_A_1_eq]
      refine (sq_step m c ⟨0, h⟩ (k0_pay5 (F := Ideal)) cc ⟨0, by decide⟩ rfl).trans ?_
      rw [pay5_apply, sqAcc_succ _ 0 (by decide)]
      rfl
  | n + 1, h => by
    have hN : n + 1 < 32 := lt_of_lt_of_eq h N_0
    have ih := acc_eq c n (Nat.lt_of_succ_lt h)
    by_cases h0 : (n + 1) % 16 = 0
    · have h1 : ¬(n + 1) % 16 = 15 := by omega
      have hA := outsAt_A m c ⟨n + 1, h⟩ h0 h1
      have hk : (⟨(n + 1) % 16, Nat.mod_lt _ (by decide)⟩ : Fin 16) = ⟨0, by decide⟩ := Fin.ext h0
      refine ⟨fun r cc R hR => ?_, fun cc => ?_⟩
      · rw [hA]; dsimp only
        rw [sout_A_0_eq]
        refine (gram_step m c ⟨n + 1, h⟩ (k0_pay4 (F := Ideal)) r cc R ⟨(n + 1) % 16, Nat.mod_lt _ (by decide)⟩ hR rfl).trans ?_
        rw [pay4_apply, hk, show (n + 1) % 16 + 1 = 0 + 1 from by omega, gramAcc_succ _ 0 (by decide)]
        rfl
      · rw [hA]; dsimp only
        rw [sout_A_1_eq]
        refine (sq_step m c ⟨n + 1, h⟩ (k0_pay5 (F := Ideal)) cc ⟨(n + 1) % 16, Nat.mod_lt _ (by decide)⟩ rfl).trans ?_
        rw [pay5_apply, hk, show (n + 1) % 16 + 1 = 0 + 1 from by omega, sqAcc_succ _ 0 (by decide)]
        rfl
    · have hlt : n % 16 + 1 < 16 := by omega
      have hk : (⟨(n + 1) % 16, Nat.mod_lt _ (by decide)⟩ : Fin 16) = ⟨n % 16 + 1, hlt⟩ := Fin.ext (by show (n + 1) % 16 = n % 16 + 1; omega)
      have hdiv : (n + 1) / 16 = n / 16 := by omega
      by_cases h1 : (n + 1) % 16 = 15
      · have hC := outsAt_C m c ⟨n + 1, h⟩ h0 h1
        refine ⟨fun r cc R hR => ?_, fun cc => ?_⟩
        · rw [hC]; dsimp only
          rw [sout_C_0_eq]
          refine (gram_step m c ⟨n + 1, h⟩ _ r cc R ⟨(n + 1) % 16, Nat.mod_lt _ (by decide)⟩ hR rfl).trans ?_
          rw [hk, show (n + 1) % 16 + 1 = (n % 16 + 1) + 1 from by omega, gramAcc_succ _ (n % 16 + 1) hlt]
          congr 3
          exact ih.1 r cc R (by rw [hR]; show 256 * ((n + 1) / 16) + r.val = _; rw [hdiv])
        · rw [hC]; dsimp only
          rw [sout_C_1_eq]
          refine (sq_step m c ⟨n + 1, h⟩ _ cc ⟨(n + 1) % 16, Nat.mod_lt _ (by decide)⟩ rfl).trans ?_
          rw [hk, show (n + 1) % 16 + 1 = (n % 16 + 1) + 1 from by omega, sqAcc_succ _ (n % 16 + 1) hlt]
          congr 3
          exact ih.2 cc
      · have hB := outsAt_B m c ⟨n + 1, h⟩ h0 h1
        refine ⟨fun r cc R hR => ?_, fun cc => ?_⟩
        · rw [hB]; dsimp only
          rw [sout_B_0_eq]
          refine (gram_step m c ⟨n + 1, h⟩ _ r cc R ⟨(n + 1) % 16, Nat.mod_lt _ (by decide)⟩ hR rfl).trans ?_
          rw [hk, show (n + 1) % 16 + 1 = (n % 16 + 1) + 1 from by omega, gramAcc_succ _ (n % 16 + 1) hlt]
          congr 3
          exact ih.1 r cc R (by rw [hR]; show 256 * ((n + 1) / 16) + r.val = _; rw [hdiv])
        · rw [hB]; dsimp only
          rw [sout_B_1_eq]
          refine (sq_step m c ⟨n + 1, h⟩ _ cc ⟨(n + 1) % 16, Nat.mod_lt _ (by decide)⟩ rfl).trans ?_
          rw [hk, show (n + 1) % 16 + 1 = (n % 16 + 1) + 1 from by omega, sqAcc_succ _ (n % 16 + 1) hlt]
          congr 3
          exact ih.2 cc

end Cert.KernelIdeal.Body

end
-- ==== Proof.Ideal.Payload3.lean ====
/-
  The kernel body's last step, read at its one entry, on the extended reals.

  When the last block has been accumulated, the body forms for each row r of its half (sample 256 i + r) and each column c
  the distance (|x_r|² + |x_c|² − 2 ⟨x_r, x_c⟩) / 16384 from the two accumulators, takes the distance where the labels agree
  and the hinge max (1 − distance) 0 where they differ, keeps the term only where the row's sample comes before the
  column's, and sums the terms over the columns and then over the rows. The row test compares 32-bit words; the words are
  the numbers 256 i + r and c, both far below 2 ^ 31, so it is the order of the numbers.
-/
import proofs.«162256_j40226663694515_2_alg».proof.Proof.Ideal.Payloads

noncomputable section

namespace Cert.KernelIdeal.Payload

open Cert.KernelIdeal Cert.KernelIdeal.Gen Idealize.ShloMosaic Idealize.ShloMosaic.ValueIdx

/-! ## Words: the row test and the label test -/

/-- A select on a Boolean's bit is the `if` on the Boolean. -/
theorem select_ofBool {α : Type} (p : Bool) (a b : α) : Scalar.select (BitVec.ofBool p) a b = if p then a else b := by
  cases p <;> rfl

/-- The word of row r of half i is the number 256 i + r: nothing wraps. -/
theorem rowWord_toNat (i : Fin 2) (r : Fin 256) :
    (IntOp.addi (BitVec.ofNat 32 r.val) (Scalar.muli (BitVec.ofNat 32 i.val) 256#32)).toNat = 256 * i.val + r.val := by
  have hi := i.isLt
  have hr := r.isLt
  show (BitVec.ofNat 32 r.val + BitVec.ofNat 32 i.val * 256#32).toNat = _
  rw [BitVec.toNat_add, BitVec.toNat_mul, BitVec.toNat_ofNat, BitVec.toNat_ofNat, BitVec.toNat_ofNat]
  omega

/-- Both words are below 2 ^ 31, so the signed comparison of the words is the order of the numbers. -/
theorem slt_rows (i : Fin 2) (r : Fin 256) (c : Fin 512) :
    (IntOp.addi (BitVec.ofNat 32 r.val) (Scalar.muli (BitVec.ofNat 32 i.val) 256#32)).slt (BitVec.ofNat 32 c.val)
      = decide (256 * i.val + r.val < c.val) := by
  have hi := i.isLt
  have hr := r.isLt
  have hc := c.isLt
  have hx := rowWord_toNat i r
  have hy : (BitVec.ofNat 32 c.val).toNat = c.val := by rw [BitVec.toNat_ofNat]; omega
  unfold BitVec.slt
  rw [BitVec.toInt_eq_toNat_of_lt (by rw [hx]; omega), BitVec.toInt_eq_toNat_of_lt (by rw [hy]; omega), hx, hy]
  exact decide_eq_decide.mpr (by omega)

/-- One pair's term as the two selects leave it: nothing unless the row is before the column; the distance if the labels
    agree, else the hinge. -/
theorem pairWord (i : Fin 2) (r : Fin 256) (c : Fin 512) (lr lc : BitVec 32) (D : EReal) :
    Scalar.select (IntOp.cmpi .slt (IntOp.addi (BitVec.ofNat 32 r.val) (Scalar.muli (BitVec.ofNat 32 i.val) 256#32)) (BitVec.ofNat 32 c.val))
        (Scalar.select (IntOp.cmpi .eq lr lc) D (max (Cert.Loss.one - D) (Ideal.ofBits .f32 0x00000000#32)))
        (Ideal.ofBits .f32 0x00000000#32)
      = if 256 * i.val + r.val < c.val then (if lr = lc then D else max (Cert.Loss.one - D) 0) else 0 := by
  show Scalar.select (BitVec.ofBool _) (Scalar.select (BitVec.ofBool (lr == lc)) _ _) _ = _
  rw [select_ofBool, select_ofBool, Ideal.ofBits_zero_f32, slt_rows]
  simp

/-- An integer comparison at an index compares the elements, -/
theorem cmpi_apply {s : Shape} {w : Nat} (p : CmpIPredicate) (x y : IVec s w) (j : s.Idx) :
    cmpi p x y j = IntOp.cmpi p (x j) (y j) := rfl
/-- and an integer sum at an index adds them. -/
theorem addi_apply {s : Shape} {w : Nat} (x y : IVec s w) (j : s.Idx) : addi x y j = IntOp.addi (x j) (y j) := rfl

/-! ## The layout operations of the last step, at (r, c) -/

/-- A 256 × 1 column spread over 512 columns reads, at (r, c), the column at r. -/
theorem bcastCol_apply {α : Type} (v : S256x1.Idx → α) (h : S256x1.Broadcasts S256x512) (r : Fin 256) (c : Fin 512) :
    broadcastTo S256x512 v h (ix2 r c) = v (ix2 r 0) := by
  refine broadcastTo_apply v h (ix2 r c) (ix2 r 0) fun a => ?_
  match a with
  | ⟨0, _⟩ => rfl
  | ⟨1, _⟩ => rfl

/-- A 1 × 512 row spread over 256 rows reads, at (r, c), the row at c. -/
theorem bcastRow_apply {α : Type} (v : S1x512.Idx → α) (h : S1x512.Broadcasts S256x512) (r : Fin 256) (c : Fin 512) :
    broadcastTo S256x512 v h (ix2 r c) = v (ix2 0 c) := broadcastTo_1b_ab_apply v h r c

/-- The 512 × 1 column laid as a row reads, at (0, c), the column at (c, 0). -/
theorem transposeCol_apply {α : Type} (v : S512x1.Idx → α) (h : S512x1.Transposes [1, 0] S1x512) (z : Fin 1) (c : Fin 512) :
    transpose S1x512 [1, 0] v h (ix2 z c) = v (ix2 c z) := transpose_ix2_apply v h z c

/-- The row counter at (r, c) is r as a word, -/
theorem iotaRow_apply (h : S256x512.Iotas .tc 32 [0]) (r : Fin 256) (c : Fin 512) :
    iota .tc S256x512 32 [0] h (ix2 r c) = BitVec.ofNat 32 r.val := iota_single_apply .tc S256x512 32 0 h (ix2 r c)
/-- and the column counter is c. -/
theorem iotaCol_apply (h : S256x512.Iotas .tc 32 [1]) (r : Fin 256) (c : Fin 512) :
    iota .tc S256x512 32 [1] h (ix2 r c) = BitVec.ofNat 32 c.val := iota_single_apply .tc S256x512 32 1 h (ix2 r c)

/-- The sum over the columns of a 256 × 512 array, at row r. -/
theorem rowsum512_apply (src : FVec Ideal S256x512 .f32) (h : S256x512.Reduces [1] S256) (hφ : FKind.Formats .f32)
    (hacc : (0x00000000#32 : BitVec (FTy.bits .f32)) = FKind.add.neutral .f32 hφ) (r : Fin 256) :
    multiReduction .add [1] S256 src 0x00000000#32 h hφ hacc (ix1 r) = ∑ c : Fin 512, src (ix2 r c) := by
  refine (Ideal.multiReduction_add_single src _ h hφ hacc (ix1 r)).trans ?_
  refine Finset.sum_congr rfl fun c _ => congrArg src (funext fun x => Fin.ext ?_)
  match x with
  | ⟨0, _⟩ => rfl
  | ⟨1, _⟩ => rfl

/-- The sum over the rows of a 256 × 1 column. -/
theorem colsum_apply (src : FVec Ideal S256x1 .f32) (h : S256x1.Reduces [0] S1) (hφ : FKind.Formats .f32)
    (hacc : (0x00000000#32 : BitVec (FTy.bits .f32)) = FKind.add.neutral .f32 hφ) (z : Fin 1) :
    multiReduction .add [0] S1 src 0x00000000#32 h hφ hacc (ix1 z) = ∑ r : Fin 256, src (ix2 r z) := by
  refine (Ideal.multiReduction_add_single src _ h hφ hacc (ix1 z)).trans ?_
  refine Finset.sum_congr rfl fun r _ => congrArg src (funext fun x => Fin.ext ?_)
  match x with
  | ⟨0, _⟩ => rfl
  | ⟨1, _⟩ => rfl

/-- A length-256 vector viewed as a 256 × 1 column reads, at (r, 0), the vector at r. -/
theorem column256_apply {α : Type} (v : S256.Idx → α) (h : S256.ShapeCasts S256x1) (r : Fin 256) (z : Fin 1) :
    shapeCast S256x1 v h (ix2 r z) = v (ix1 r) :=
  shapeCast_apply v h _ _ (by
    have hz : z.val = 0 := by omega
    rw [Shape.rowMajor_val_two, Shape.rowMajor_val_one]
    show r.val = r.val * 1 + z.val
    rw [hz, Nat.mul_one, Nat.add_zero])

/-! ## The last step: the half's sum of pair terms -/

/-- At the last block the body forms, for each row r of its half and each column c, the distance from the two
    accumulators, the pair's term from the labels and the row test, and sums the terms over the columns and then the rows. -/
theorem pay3_apply (i : Fin 2) (v75 : Vec Ideal S256x1 .f32) (v76 : Vec Ideal S512x1 .f32) (v78 : Vec Ideal S256x512 .f32)
    (v89 : Vec Ideal S256x1 .i32) (v93 : Vec Ideal S1x512 .i32) :
    k0_pay3 (BitVec.ofNat 32 i.val) v75 v76 v78 v89 v93 (ix2 0 0)
      = ∑ r : Fin 256, ∑ c : Fin 512,
          (if 256 * i.val + r.val < c.val then
            (if v89 (ix2 r 0) = v93 (ix2 0 c) then
              Ideal.div (v75 (ix2 r 0) + v76 (ix2 c 0) - Cert.Loss.two * v78 (ix2 r c)) Cert.Loss.dflat
            else max (Cert.Loss.one
              - Ideal.div (v75 (ix2 r 0) + v76 (ix2 c 0) - Cert.Loss.two * v78 (ix2 r c)) Cert.Loss.dflat) 0)
          else 0) := by
  unfold k0_pay3
  simp only [shapeCast_self]
  refine (shapeCast_a_1a_apply _ _ 0 0).trans ?_
  refine (colsum_apply _ _ _ _ 0).trans ?_
  refine Finset.sum_congr rfl fun r _ => ?_
  refine (column256_apply _ _ r 0).trans ?_
  refine (rowsum512_apply _ _ _ _ r).trans ?_
  refine Finset.sum_congr rfl fun c _ => ?_
  simp only [select_apply, cmpi_apply, addi_apply, maximumf_apply, subf_apply, divf_apply, addf_apply, mulf_apply,
    broadcast_apply, bcastCol_apply, bcastRow_apply]
  rw [iotaRow_apply, iotaCol_apply, transposeCol_apply]
  exact pairWord i r c _ _ _

end Cert.KernelIdeal.Payload

end
-- ==== Proof.Ideal.LastBlock.lean ====
/-
  What a row half's last feature block stores: the half's sum of pair terms.

  At grid point t — row half t / 16, feature block t % 16 — with t % 16 = 15, the body reads the half's 256 rows of the
  finished squared-norm column (rows 256 · (t / 16) + r), the whole column, the finished Gram accumulator and the two label
  windows, forms the pair terms and sums them. With the accumulators at their finished values, that sum is the half's
  sum of pair terms, and it fills the output tile.
-/
import proofs.«162256_j40226663694515_2_alg».proof.Proof.Ideal.Blocks
import proofs.«162256_j40226663694515_2_alg».proof.Proof.Ideal.Payload3

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.Loss Cert.KernelIdeal.Payload

variable (m : (ℓ : Loc nD τ sig) → Buf (Elt Ideal) ℓ)

/-! ## Where the point stands -/

/-- The first grid coordinate of point t is its row half, t / 16, -/
theorem coord_half : ∀ t : Fin cfg0.N, ((grid0.coords t) 0).val = t.val / 16 :=
  (by decide +kernel : ∀ t : Fin grid0.N, ((grid0.coords t) 0).val = t.val / 16)
/-- and the half's rows of the squared-norm column start at row 256 · (t / 16), -/
theorem off_half_row : ∀ t : Fin cfg0.N, k0_off1 (grid0.coords t) 0 = 256 * (t.val / 16) :=
  (by decide +kernel : ∀ t : Fin grid0.N, k0_off1 (grid0.coords t) 0 = 256 * (t.val / 16))
/-- column 0. -/
theorem off_half_col : ∀ t : Fin cfg0.N, k0_off1 (grid0.coords t) 1 = 0 :=
  (by decide +kernel : ∀ t : Fin grid0.N, k0_off1 (grid0.coords t) 1 = 0)

/-- The half's rows of a 512 × 1 column: row r of the part is row 256 i + r of the column. -/
theorem ld_half (t : Fin cfg0.N) (h : cond1 (grid0.coords t)) (i : Fin 2) (hi : i.val = t.val / 16)
    (s3 : Vec Ideal S512x1 .f32) (r : Fin 256) :
    (View.ld s3 (Rect.unit (s := S512x1) (k0_off1 (grid0.coords t)) S256x1.size (k0_off1_inb (grid0.coords t) h))
      : S256x1.Idx → EReal) (ix2 r 0) = s3 (ix2 (row i r) 0) := by
  show s3 ((Rect.unit (s := S512x1) (k0_off1 (grid0.coords t)) S256x1.size (k0_off1_inb (grid0.coords t) h)).emb (ix2 r 0)) = _
  refine congrArg s3 (funext fun a => Fin.ext ?_)
  match a with
  | ⟨0, _⟩ =>
    show k0_off1 (grid0.coords t) 0 + 1 * r.val = 256 * i.val + r.val
    rw [off_half_row t, hi]; omega
  | ⟨1, _⟩ =>
    show k0_off1 (grid0.coords t) 1 + 1 * 0 = 0
    rw [off_half_col t]

/-! ## The last step on finished accumulators -/

/-- With the accumulators finished and the labels in place, the last step's number is the half's sum of pair terms. -/
theorem pay3_eq_halfKer (A : Fin 3 → Fin 512 → Fin 128 → Fin 128 → EReal) (tg : Fin 512 → BitVec 32) (i : Fin 2)
    (v75 : Vec Ideal S256x1 .f32) (v76 : Vec Ideal S512x1 .f32) (v78 : Vec Ideal S256x512 .f32)
    (v89 : Vec Ideal S256x1 .i32) (v93 : Vec Ideal S1x512 .i32)
    (h75 : ∀ r : Fin 256, v75 (ix2 r 0) = sqAcc A 16 (row i r))
    (h76 : ∀ cc : Fin 512, v76 (ix2 cc 0) = sqAcc A 16 cc)
    (h78 : ∀ (r : Fin 256) (cc : Fin 512), v78 (ix2 r cc) = gramAcc A 16 (row i r) cc)
    (h89 : ∀ r : Fin 256, v89 (ix2 r 0) = tg (row i r))
    (h93 : ∀ cc : Fin 512, v93 (ix2 0 cc) = tg cc) :
    k0_pay3 (BitVec.ofNat 32 i.val) v75 v76 v78 v89 v93 (ix2 0 0) = halfKer A tg i := by
  rw [pay3_apply]
  unfold halfKer
  refine Finset.sum_congr rfl fun r _ => Finset.sum_congr rfl fun cc _ => ?_
  rw [h75, h76, h78, h89, h93]
  rfl

/-- At a row half's last feature block, over the finished accumulators, every entry of the stored tile — the entry (0, 0)
    here — is the half's sum of pair terms. -/
theorem half_of_acc (c : Dev nD) (t : Fin cfg0.N) (h1 : t.val % 16 = 15) (i : Fin 2) (hi : i.val = t.val / 16)
    (s3 : Vec Ideal S512x1 .f32) (g3 : Vec Ideal S256x512 .f32)
    (hs : ∀ cc : Fin 512, s3 (ix2 cc 0) = sqAcc (fieldsA m c) 16 cc)
    (hg : ∀ (r : Fin 256) (cc : Fin 512), g3 (ix2 r cc) = gramAcc (fieldsA m c) 16 (row i r) cc) :
    k0_pay2 (k0_pay3 (BitVec.ofNat 32 ((grid0.coords t) 0).val)
        (View.ld s3 (Rect.unit (s := S512x1) (k0_off1 (grid0.coords t)) S256x1.size (k0_off1_inb (grid0.coords t) ((hcond1 t).mpr h1))))
        s3 g3 (iblk m c 6 t) (iblk m c 7 t)) (ix2 (0 : Fin 8) (0 : Fin 128))
      = halfKer (fieldsA m c) (labels m c) i := by
  have hc : BitVec.ofNat 32 ((grid0.coords t) 0).val = BitVec.ofNat 32 i.val := by rw [coord_half t, hi]
  refine (pay2_apply _ _).trans ?_
  rw [hc]
  refine pay3_eq_halfKer (fieldsA m c) (labels m c) i _ s3 g3 (iblk m c 6 t) (iblk m c 7 t)
    (fun r => ?_) hs hg (fun r => ?_) (fun cc => ?_)
  · exact (ld_half t ((hcond1 t).mpr h1) i hi s3 r).trans (hs (row i r))
  · exact iblk6_apply m c t r (row i r) (by show 256 * i.val + r.val = _; rw [hi])
  · exact iblk7_apply m c t cc

end Cert.KernelIdeal.Body

end
-- ==== Proof.Ideal.WriteBacks.lean ====
/-
  The result array after the region's two write-backs.

  The output window's block is 8 rows by 128 columns of a 16 × 128 array; its block index at grid point t is (t / 16, 0),
  and the block is written back exactly at the points 15 and 31: at 15 to rows 0–7, at 31 to rows 8–15. What a write-back
  writes is what the point leaves in the staging buffer. The two blocks cover the array, so it ends holding, in rows 0–7,
  what the point 15 leaves and, in rows 8–15, what the point 31 leaves: a block's coordinate is the block index times the
  block's size plus the coordinate inside the block.
-/
import proofs.«162256_j40226663694515_2_alg».proof.Proof.Ideal.Blocks
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

theorem h15 : 15 < cfg0.N := by rw [show cfg0.N = 32 from N_0]; decide
theorem h31 : 31 < cfg0.N := by rw [show cfg0.N = 32 from N_0]; decide

/-- The result array: rows 0–7 are what the point 15 leaves in the output block, rows 8–15 what the point 31 leaves. -/
def result (c : Dev nD) : S16x128.Idx → EReal := fun j =>
  if h : (j 0).val < 8 then ((outsAt m c 15 h15).1 : S8x128.Idx → EReal) (ix2 ⟨(j 0).val, h⟩ (j 1))
  else ((outsAt m c 31 h31).1 : S8x128.Idx → EReal) (ix2 ⟨(j 0).val - 8, by have : (j 0).val < 16 := (j 0).isLt; omega⟩ (j 1))

/-- What a point leaves depends on the point's number only. -/
theorem outsAt_congr (c : Dev nD) (n k : ℕ) (hn : n < cfg0.N) (hk : k < cfg0.N) (e : n = k) :
    outsAt m c n hn = outsAt m c k hk := by subst e; rfl

/-- Each write-back writes its block of the result: the block at point t starts at row 8 · (t / 16), column 0. -/
theorem flushed_eq (c : Dev nD) (t : Fin cfg0.N) (hf : (cfg0.win 8).flush t = true) :
    (dats m 0 c).flushed 8 t = ((cfg0.win 8).blk t).view.read (Elt Ideal) (result m c) := by
  have hN : cfg0.N = 32 := N_0
  have ht : t.val % 16 = 15 := (flush0_8 t).mp hf
  have hlt := t.isLt
  show (cfg0.win 8).cut (grid0.coords t) ((dats m 0 c).after 8 t) = _
  rw [after8]
  funext j
  have h0 : (j 0).val < 8 := (j 0).isLt
  have h1 : (j 1).val < 128 := (j 1).isLt
  show ((outsAt m c t.val t.isLt).1 : S8x128.Idx → EReal) ((cfg0.win 8).xinj (grid0.coords t) j)
    = result m c (((cfg0.win 8).blk t).view.emb j)
  have e0 : ((((cfg0.win 8).blk t).view.emb j) 0).val = win0_8.index t 0 * 8 + 1 * (j 0).val := rfl
  have e1 : ((((cfg0.win 8).blk t).view.emb j) 1).val = win0_8.index t 1 * 128 + 1 * (j 1).val := rfl
  rw [(idx8 t).1] at e0
  rw [(idx8 t).2] at e1
  unfold result
  rcases (by omega : t.val = 15 ∨ t.val = 31) with h | h
  · have hlt8 : ((((cfg0.win 8).blk t).view.emb j) 0).val < 8 := by rw [e0, h]; omega
    rw [dif_pos hlt8, outsAt_congr m c t.val 15 t.isLt h15 h]
    refine congrArg _ (funext fun a => Fin.ext ?_)
    match a with
    | ⟨0, _⟩ =>
      show (j 0).val = ((((cfg0.win 8).blk t).view.emb j) 0).val
      rw [e0, h]; omega
    | ⟨1, _⟩ =>
      show (j 1).val = ((((cfg0.win 8).blk t).view.emb j) 1).val
      rw [e1]; omega
  · have hge8 : ¬ ((((cfg0.win 8).blk t).view.emb j) 0).val < 8 := by rw [e0, h]; omega
    rw [dif_neg hge8, outsAt_congr m c t.val 31 t.isLt h31 h]
    refine congrArg _ (funext fun a => Fin.ext ?_)
    match a with
    | ⟨0, _⟩ =>
      show (j 0).val = ((((cfg0.win 8).blk t).view.emb j) 0).val - 8
      rw [e0, h]; omega
    | ⟨1, _⟩ =>
      show (j 1).val = ((((cfg0.win 8).blk t).view.emb j) 1).val
      rw [e1]; omega

/-- The two write-backs cover the array, so it ends holding the result. -/
theorem final8 (c : Dev nD) : (dats m 0 c).arrAt 8 cfg0.N = result m c :=
  (dats m 0 c).arrAt_eq_of_cover 8 (result m c) (flushed_eq m c) fun i => by
    have hi0 : (i 0 : Nat) < 16 := (i 0).isLt
    have hi1 : (i 1 : Nat) < 128 := (i 1).isLt
    by_cases h : (i 0 : Nat) < 8
    · refine ⟨⟨15, h15⟩, (flush0_8 _).mpr rfl, ?_⟩
      show i ∈ ((View.whole main_v5).slice (win0_8.rect ⟨15, h15⟩)).set
      rw [View.set_slice_whole, Rect.mem_set_unit]
      intro a
      match a with
      | ⟨0, _⟩ =>
        show win0_8.index ⟨15, h15⟩ 0 * 8 ≤ (i 0 : Nat) ∧ (i 0 : Nat) < win0_8.index ⟨15, h15⟩ 0 * 8 + 8
        rw [(idx8 ⟨15, h15⟩).1]
        show 15 / 16 * 8 ≤ (i 0 : Nat) ∧ (i 0 : Nat) < 15 / 16 * 8 + 8
        omega
      | ⟨1, _⟩ =>
        show win0_8.index ⟨15, h15⟩ 1 * 128 ≤ (i 1 : Nat) ∧ (i 1 : Nat) < win0_8.index ⟨15, h15⟩ 1 * 128 + 128
        rw [(idx8 ⟨15, h15⟩).2]
        omega
    · refine ⟨⟨31, h31⟩, (flush0_8 _).mpr rfl, ?_⟩
      show i ∈ ((View.whole main_v5).slice (win0_8.rect ⟨31, h31⟩)).set
      rw [View.set_slice_whole, Rect.mem_set_unit]
      intro a
      match a with
      | ⟨0, _⟩ =>
        show win0_8.index ⟨31, h31⟩ 0 * 8 ≤ (i 0 : Nat) ∧ (i 0 : Nat) < win0_8.index ⟨31, h31⟩ 0 * 8 + 8
        rw [(idx8 ⟨31, h31⟩).1]
        show 31 / 16 * 8 ≤ (i 0 : Nat) ∧ (i 0 : Nat) < 31 / 16 * 8 + 8
        omega
      | ⟨1, _⟩ =>
        show win0_8.index ⟨31, h31⟩ 1 * 128 ≤ (i 1 : Nat) ∧ (i 1 : Nat) < win0_8.index ⟨31, h31⟩ 1 * 128 + 128
        rw [(idx8 ⟨31, h31⟩).2]
        omega

/-- Entry (0, 0) of the result array is entry (0, 0) of what the point 15 leaves in the output block. -/
theorem arrAt8_row0 (c : Dev nD) :
    ((dats m 0 c).arrAt 8 cfg0.N : S16x128.Idx → EReal) (ix2 (0 : Fin 16) (0 : Fin 128))
      = ((outsAt m c 15 (by rw [show cfg0.N = 32 from N_0]; decide)).1 : S8x128.Idx → EReal) (ix2 (0 : Fin 8) (0 : Fin 128)) := by
  refine (congrFun (final8 m c) (ix2 (0 : Fin 16) (0 : Fin 128))).trans ?_
  unfold result
  rw [dif_pos (show ((ix2 (0 : Fin 16) (0 : Fin 128) : S16x128.Idx) 0).val < 8 from by decide)]
  rfl

/-- Entry (8, 0) of the result array is entry (0, 0) of what the point 31 leaves in the output block. -/
theorem arrAt8_row8 (c : Dev nD) :
    ((dats m 0 c).arrAt 8 cfg0.N : S16x128.Idx → EReal) (ix2 (8 : Fin 16) (0 : Fin 128))
      = ((outsAt m c 31 (by rw [show cfg0.N = 32 from N_0]; decide)).1 : S8x128.Idx → EReal) (ix2 (0 : Fin 8) (0 : Fin 128)) := by
  refine (congrFun (final8 m c) (ix2 (8 : Fin 16) (0 : Fin 128))).trans ?_
  unfold result
  rw [dif_neg (show ¬ ((ix2 (8 : Fin 16) (0 : Fin 128) : S16x128.Idx) 0).val < 8 from by decide)]
  rfl

end Cert.KernelIdeal.Body

end
-- ==== Proof.Ideal.Launch.lean ====
/-
  The launch of the kernel's region when input windows SHARE arrays, and the frame.

  Each field's flattened array is handed to the kernel twice — once by blocks of this half's 256 rows, once by blocks
  of all 512 rows — so the nine windows stand on six distinct buffers. At the region's entry each of the three shared
  buffers, held whole, is dealt to its two windows as the left and the right half share at the same contents; an input
  array is never written, so at the exit both halves still hold the entry contents and make the whole again, and the
  closing host operations run over all unscoped buffers.
-/
import proofs.«162256_j40226663694515_2_alg».proof.Proof.Ideal.Accumulation
import proofs.«162256_j40226663694515_2_alg».proof.Proof.LibArrBufs
import proofs.«162256_j40226663694515_2_alg».proof.Proof.LibTailUnscoped

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, listed -/

/-- The six distinct buffers behind the nine windows' arrays: the three flattened fields, the labels as a column and as a
    row, and the result. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v0) ↦{fullShare} Vv main_v0) ∗ (((c : Thread nD τ).loc main_v1) ↦{fullShare} Vv main_v1) ∗ (((c : Thread nD τ).loc main_v2) ↦{fullShare} Vv main_v2)
          ∗ (((c : Thread nD τ).loc main_v3) ↦{fullShare} Vv main_v3) ∗ (((c : Thread nD τ).loc main_v4) ↦{fullShare} Vv main_v4) ∗ (((c : Thread nD τ).loc main_v5) ↦{fullShare} Vv main_v5)) :=
  SharedArrays.arrBufs_eq_of_list spec0 c Vv [main_v0, main_v1, main_v2, main_v3, main_v4, main_v5] (by decide) (by decide)

/-- The proof data's arrays, window by window: each field's buffer twice, at the left and at the right half share. -/
theorem arrays_listed (c : Dev nD) (Fw : (w : Fin cfg0.W) → Buf (Elt F) ((cfg0.win w).arr.view.loc (c : Thread nD τ))) :
    (dats m 0 c).arrays Fw
      = iprop((((c : Thread nD τ).loc main_v0) ↦{fullShare.left} Fw 0) ∗ (((c : Thread nD τ).loc main_v0) ↦{fullShare.right} Fw 1)
          ∗ (((c : Thread nD τ).loc main_v1) ↦{fullShare.left} Fw 2) ∗ (((c : Thread nD τ).loc main_v1) ↦{fullShare.right} Fw 3)
          ∗ (((c : Thread nD τ).loc main_v2) ↦{fullShare.left} Fw 4) ∗ (((c : Thread nD τ).loc main_v2) ↦{fullShare.right} Fw 5)
          ∗ (((c : Thread nD τ).loc main_v3) ↦{fullShare} Fw 6) ∗ (((c : Thread nD τ).loc main_v4) ↦{fullShare} Fw 7) ∗ (((c : Thread nD τ).loc main_v5) ↦{fullShare} Fw 8)) := by
  unfold Dat.arrays
  rw [show (bigSep Finset.univ fun w : Fin cfg0.W => ((cfg0.win w).arr.view.loc (c : Thread nD τ) ↦[(cfg0.win w).arr.view.set]{(dats m 0 c).share w} Fw w : sProp 𝕄))
        = bigSep Finset.univ fun w : Fin cfg0.W => (((c : Thread nD τ).loc (Pipeline.arrRef spec0 w)) ↦{(dats m 0 c).share w} Fw w : sProp 𝕄) from
      bigSep_congr fun w _ => by rw [(arr_whole0 w).set_eq_univ]]
  rw [bigSep_W0]
  rfl

/-- THE ENTRY: the six buffers whole at the region-entry contents make the proof data's arrays there — each field's buffer
    dealt to its two windows by halves. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays_listed]
  iintro ⟨H0, H1, H2, H3, H4, H5⟩
  ihave H0 := (SharedArrays.pointsTo_halves _ _) $$ H0
  ihave H1 := (SharedArrays.pointsTo_halves _ _) $$ H1
  ihave H2 := (SharedArrays.pointsTo_halves _ _) $$ H2
  icases H0 with ⟨H0l, H0r⟩
  icases H1 with ⟨H1l, H1r⟩
  icases H2 with ⟨H2l, H2r⟩
  isplitl [H0l]; · iexact H0l
  isplitl [H0r]; · iexact H0r
  isplitl [H1l]; · iexact H1l
  isplitl [H1r]; · iexact H1r
  isplitl [H2l]; · iexact H2l
  isplitl [H2r]; · iexact H2r
  isplitl [H3]; · iexact H3
  isplitl [H4]; · iexact H4
  iexact H5

/-! ## The exit and the closing operations -/

/-- The core's buffer contents when the region is left: the entry contents, with the result's array at what the two
    write-backs left in it. -/
abbrev Wx (c : Dev nD) : Valuation τ sig (Elt F) :=
  StableHlo.after [StableHlo.nullary main_v5 ((dats m 0 c).arrAt 8 cfg0.N)] (V0 m c)
/-- The contents after the seven closing operations. -/
abbrev Wf (c : Dev nD) : Valuation τ sig (Elt F) := StableHlo.after (List.flatten [hostOps1]) (Wx m c)
/-- The same read at a TensorCore reference. -/
abbrev Vf (c : Dev nD) (b : Ref sig .tc) : Buf (Elt F) ((c : Thread nD τ).loc b) := Wf m c (Proc.devRef .tc b)

/-- At the exit the result's array holds what the write-backs left, -/
theorem Wx_v5 (c : Dev nD) : Wx m c (Proc.devRef .tc main_v5) = (dats m 0 c).arrAt 8 cfg0.N := by
  show StableHlo.after [StableHlo.nullary main_v5 ((dats m 0 c).arrAt 8 cfg0.N)] (V0 m c) (Proc.devRef .tc main_v5) = _
  after_results

/-- and every other buffer what it held at the entry. -/
theorem Wx_of_ne (c : Dev nD) (b : Ref sig .tc) (hb : b ≠ main_v5) : Wx m c (Proc.devRef .tc b) = V m c b :=
  StableHlo.after_of_forall_not_mem _ _ fun op hop => by
    simp only [List.mem_cons, List.mem_nil_iff, or_false] at hop
    subst hop
    rw [StableHlo.nullary_writes, Finset.mem_singleton]
    exact StableHlo.devRef_ne_of_ne hb

/-- The closing operations write only their own results. -/
theorem tail_keeps (b : Ref sig .tc) (hb : b ≠ main_v6 ∧ b ≠ main_v7 ∧ b ≠ main_v8 ∧ b ≠ main_v9 ∧ b ≠ main_v10 ∧ b ≠ main_cst ∧ b ≠ main_v11) :
    ∀ op ∈ (hostOps1 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer they do not write ends at its exit contents. -/
theorem Vf_of_keep (c : Dev nD) (b : Ref sig .tc) (hb : b ≠ main_v6 ∧ b ≠ main_v7 ∧ b ≠ main_v8 ∧ b ≠ main_v9 ∧ b ≠ main_v10 ∧ b ≠ main_cst ∧ b ≠ main_v11) : Vf m c b = Wx m c (Proc.devRef .tc b) :=
  StableHlo.after_of_forall_not_mem _ _ fun op hop => by
    rw [show List.flatten [hostOps1 (F := F)] = hostOps1 from by simp only [List.flatten_cons, List.flatten_nil, List.append_nil]] at hop
    exact tail_keeps b hb op hop

/-- THE EXIT: the proof data's arrays after the last point are the six buffers whole at the exit contents — an input array
    is never written, so a field's two half shares hold the same entry contents and make the whole again. -/
theorem exit_join (c : Dev nD) :
    (dats m 0 c).arrays ((dats m 0 c).arrAt · cfg0.N)
      ⊢ (Pipeline.arrBufs (Ix := Unit) (Name := ℕ) (U := UR sig nD τ) (Lvl := ℕ) spec0 c (fun b => Wx m c (Proc.devRef .tc b)) : sProp 𝕄) := by
  rw [arrays_listed, arrBufs0_eq]
  rw [(dats m 0 c).arrAt_in 0 rfl _, (dats m 0 c).arrAt_in 1 rfl _, (dats m 0 c).arrAt_in 2 rfl _, (dats m 0 c).arrAt_in 3 rfl _,
    (dats m 0 c).arrAt_in 4 rfl _, (dats m 0 c).arrAt_in 5 rfl _, (dats m 0 c).arrAt_in 6 rfl _, (dats m 0 c).arrAt_in 7 rfl _]
  rw [Wx_of_ne m c main_v0 (by decide), Wx_of_ne m c main_v1 (by decide), Wx_of_ne m c main_v2 (by decide), Wx_of_ne m c main_v3 (by decide),
    Wx_of_ne m c main_v4 (by decide), Wx_v5]
  iintro ⟨H0l, H0r, H1l, H1r, H2l, H2r, H3, H4, H5⟩
  isplitl [H0l H0r]
  · iapply (SharedArrays.pointsTo_halves_join _ _); isplitl [H0l]; · iexact H0l
    iexact H0r
  isplitl [H1l H1r]
  · iapply (SharedArrays.pointsTo_halves_join _ _); isplitl [H1l]; · iexact H1l
    iexact H1r
  isplitl [H2l H2r]
  · iapply (SharedArrays.pointsTo_halves_join _ _); isplitl [H2l]; · iexact H2l
    iexact H2r
  isplitl [H3]; · iexact H3
  isplitl [H4]; · iexact H4
  iexact H5

/-- AFTER THE CLOSING OPERATIONS, which write none of the six buffers, they are dealt to the windows again. -/
theorem tail_split (c : Dev nD) :
    (Pipeline.arrBufs (Ix := Unit) (Name := ℕ) (U := UR sig nD τ) (Lvl := ℕ) spec0 c (Vf m c) : sProp 𝕄)
      ⊢ (dats m 0 c).arrays ((dats m 0 c).arrAt · cfg0.N) := by
  rw [arrays_listed, arrBufs0_eq]
  rw [(dats m 0 c).arrAt_in 0 rfl _, (dats m 0 c).arrAt_in 1 rfl _, (dats m 0 c).arrAt_in 2 rfl _, (dats m 0 c).arrAt_in 3 rfl _,
    (dats m 0 c).arrAt_in 4 rfl _, (dats m 0 c).arrAt_in 5 rfl _, (dats m 0 c).arrAt_in 6 rfl _, (dats m 0 c).arrAt_in 7 rfl _]
  rw [Vf_of_keep m c main_v0 (by decide), Vf_of_keep m c main_v1 (by decide), Vf_of_keep m c main_v2 (by decide), Vf_of_keep m c main_v3 (by decide),
    Vf_of_keep m c main_v4 (by decide), Vf_of_keep m c main_v5 (by decide)]
  rw [Wx_of_ne m c main_v0 (by decide), Wx_of_ne m c main_v1 (by decide), Wx_of_ne m c main_v2 (by decide), Wx_of_ne m c main_v3 (by decide),
    Wx_of_ne m c main_v4 (by decide), Wx_v5]
  iintro ⟨H0, H1, H2, H3, H4, H5⟩
  ihave H0 := (SharedArrays.pointsTo_halves _ _) $$ H0
  ihave H1 := (SharedArrays.pointsTo_halves _ _) $$ H1
  ihave H2 := (SharedArrays.pointsTo_halves _ _) $$ H2
  icases H0 with ⟨H0l, H0r⟩
  icases H1 with ⟨H1l, H1r⟩
  icases H2 with ⟨H2l, H2r⟩
  isplitl [H0l]; · iexact H0l
  isplitl [H0r]; · iexact H0r
  isplitl [H1l]; · iexact H1l
  isplitl [H1r]; · iexact H1r
  isplitl [H2l]; · iexact H2l
  isplitl [H2r]; · iexact H2r
  isplitl [H3]; · iexact H3
  isplitl [H4]; · iexact H4
  iexact H5

/-- The bypassing buffers hold at the exit what they held at the entry: none of them is the result's array. -/
theorem rest_exit (c : Dev nD) :
    (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (fun b => Wx m c (Proc.devRef .tc b)) := by
  rw [unscopedRest0_eq, unscopedRest0_eq]
  rw [Wx_of_ne m c main_arg0 (by decide), Wx_of_ne m c main_arg1 (by decide), Wx_of_ne m c main_arg2 (by decide), Wx_of_ne m c main_arg3 (by decide), Wx_of_ne m c main_v6 (by decide), Wx_of_ne m c main_v7 (by decide), Wx_of_ne m c main_v8 (by decide), Wx_of_ne m c main_v9 (by decide), Wx_of_ne m c main_v10 (by decide), Wx_of_ne m c main_cst (by decide), Wx_of_ne m c main_v11 (by decide)]

/-- At the exit the arrays and the bypassing buffers are all of the core's unscoped buffers, at the exit contents; -/
theorem exit_all (c : Dev nD) :
    iprop((dats m 0 c).arrays ((dats m 0 c).arrAt · cfg0.N) ∗ Pipeline.unscopedRest (Ix := Unit) (Name := ℕ) (U := UR sig nD τ) (Lvl := ℕ) spec0 c (V m c))
      ⊢ (unscopedBufs (Ix := Unit) (Name := ℕ) (U := UR sig nD τ) (Lvl := ℕ) c (fun b => Wx m c (Proc.devRef .tc b)) : sProp 𝕄) := by
  rw [Pipeline.unscopedBufs_split₀ (cfgs := cfgs) (p := (0 : Fin 1)) winFacts₀0.arr_unscoped c (fun b => Wx m c (Proc.devRef .tc b)), rest_exit]
  exact sep_mono (exit_join m c) .rfl

/-- after the closing operations they are the arrays and the bypassing buffers again, at the final contents. -/
theorem final_all (c : Dev nD) :
    (unscopedBufs (Ix := Unit) (Name := ℕ) (U := UR sig nD τ) (Lvl := ℕ) c (Vf m c) : sProp 𝕄)
      ⊢ iprop((dats m 0 c).arrays ((dats m 0 c).arrAt · cfg0.N) ∗ Pipeline.unscopedRest (Ix := Unit) (Name := ℕ) (U := UR sig nD τ) (Lvl := ℕ) spec0 c (Vf m c)) := by
  rw [Pipeline.unscopedBufs_split₀ (cfgs := cfgs) (p := (0 : Fin 1)) winFacts₀0.arr_unscoped c (Vf m c)]
  exact sep_mono (tail_split m c) .rfl

set_option backward.isDefEq.respectTransparency.types false in
/-- THE CLOSING OPERATIONS: from the region's exit they run to the arrays as the region left them and the bypassing buffers
    at the final contents. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (Vf m c)) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain ([hostOps1].map StableHlo.seq)) Q' := by
  rw [Pipeline.unscopedRestP_none, Pipeline.unscopedRestP_none]
  iintro ⟨Hk, Hb, Ha, Hr⟩
  iapply (SharedArrays.tail_over_unscoped (fun q => (cfgs q).toPCfg (Val := Elt F)) defs₀ Variants.none c (Wx m c) [hostOps1]
    (by intro ops hops op hop
        simp only [List.mem_cons, List.mem_nil_iff, _root_.or_false] at hops
        subst hops
        exact (List.forall_iff_forall_mem.mp hostOps1_sub) op hop)
    (by intro ops hops op hop
        simp only [List.mem_cons, List.mem_nil_iff, _root_.or_false] at hops
        subst hops
        exact (List.forall_iff_forall_mem.mp hostOps1_fresh) op hop) Q')
  isplitl [Hk]
  · iintro Hu
    iapply Hk
    iapply (final_all m c)
    iexact Hu
  isplitl [Hb]; · iexact Hb
  iapply (exit_all m c)
  isplitl [Ha]; · iexact Ha
  iexact Hr

/-! ## The run and the frame -/

set_option backward.isDefEq.respectTransparency.types false in
/-- At the compiled mesh, for any float values, from any memory with zero counters: every weakly fair execution of @main
    on the TensorCores terminates, nothing faulting, and every final state has every array of the pipeline at what the
    proof data computes and every other unscoped buffer at the final contents. -/
theorem run_main : θ_run defs (onTc (τ := τ) (main (F := F))) (s₀ m ρ) (Pipeline.FramePost cfgs (dats m) 0 (Vf m)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vf m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c : Thread nD τ).loc b) = Vf m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (Vf m c) s')
      isplitl [HU] <;> iassumption)
    (hQ := fun s h c => ⟨(h c).1, Pipeline.rest_of_restP Pipeline.Prefetch.none spec0 ((cfgs 0).toPCfg_adm (Val := Elt F)).1 c (Vf m c) s (fun k => k.elim0) (h c).2.1 (h c).2.2⟩)

/-- No operation of @main writes an argument: each ends as launched. -/
theorem Vf_arg (c : Dev nD) (b : Ref sig .tc) (hb : b = main_arg0 ∨ b = main_arg1 ∨ b = main_arg2 ∨ b = main_arg3) :
    Vf m c b = m ((c : Thread nD τ).loc b) := by
  have h5 : b ≠ main_v5 := by rcases hb with rfl | rfl | rfl | rfl <;> decide
  have h7 : b ≠ main_v6 ∧ b ≠ main_v7 ∧ b ≠ main_v8 ∧ b ≠ main_v9 ∧ b ≠ main_v10 ∧ b ≠ main_cst ∧ b ≠ main_v11 := by rcases hb with rfl | rfl | rfl | rfl <;> decide
  rw [Vf_of_keep m c b h7, Wx_of_ne m c b h5]
  refine StableHlo.after_of_forall_not_mem _ _ fun op hop => ?_
  rw [show List.flatten [hostOps0 (F := F)] = hostOps0 from by simp only [List.flatten_cons, List.flatten_nil, List.append_nil]] at hop
  simp only [List.mem_cons, List.mem_nil_iff, or_false] at hop
  rcases hb with rfl | rfl | rfl | rfl <;> rcases hop with rfl | rfl | rfl | rfl | rfl <;>
    simp only [StableHlo.reshape_writes, Finset.mem_singleton] <;>
    exact StableHlo.devRef_ne_of_ne (by decide)

/-- THE FRAME: every weakly fair execution of @main terminates, nothing faulting, and the four argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (by decide)).trans (Vf_arg m c main_arg0 (.inl rfl)),
     ((h c).2 main_arg1 (by decide)).trans (Vf_arg m c main_arg1 (.inr (.inl rfl))),
     ((h c).2 main_arg2 (by decide)).trans (Vf_arg m c main_arg2 (.inr (.inr (.inl rfl)))),
     ((h c).2 main_arg3 (by decide)).trans (Vf_arg m c main_arg3 (.inr (.inr (.inr rfl))))⟩) (run_main m ρ)

end Cert.KernelIdeal.Body

end
-- ==== Proof.Ideal.KernelValue.lean ====
/-
  The kernel's result as a function of its argument arrays: the loss in the kernel's arrangement.

  By induction on the grid point, the Gram accumulator after feature block j of row half i holds, at (r, c), the spec's
  accumulation of the first j + 1 blocks at rows 256·i + r and c, and the sum-of-squares accumulator likewise; so at a
  half's last block the loss payload of the finished accumulators is that half's sum of pair terms; the two write-backs
  put the halves' sums at rows 0 and 8 of the result array, and the closing host operations add them and divide by the
  number of pairs.
-/
import proofs.«162256_j40226663694515_2_alg».proof.Proof.Ideal.Accumulated
import proofs.«162256_j40226663694515_2_alg».proof.Proof.Ideal.LastBlock
import proofs.«162256_j40226663694515_2_alg».proof.Proof.Ideal.WriteBacks
import proofs.«162256_j40226663694515_2_alg».proof.Proof.Ideal.Launch

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Loss Cert.KernelIdeal.Payload

variable (m : (ℓ : Loc nD τ sig) → Buf (Elt Ideal) ℓ)

/-! ## A half's sum, at its last feature block -/

/-- At the last feature block of row half `i` the output's buffer holds that half's sum of pair terms: the accumulators
    are finished there (16 blocks), and the loss payload of finished accumulators is the half's sum. -/
theorem half_at (c : Dev nD) (n : ℕ) (h : n < cfg0.N) (h1 : n % 16 = 15) (i : Fin 2) (hi : i.val = n / 16) :
    ((outsAt m c n h).1 : S8x128.Idx → EReal) (ix2 (0 : Fin 8) (0 : Fin 128)) = halfKer (fieldsA m c) (labels m c) i := by
  have h0 : ¬n % 16 = 0 := by omega
  have hC := outsAt_C m c ⟨n, h⟩ h0 h1
  have hacc := acc_eq m c n h
  rw [hC] at hacc ⊢
  dsimp only at hacc ⊢
  rw [sout_C_0_eq, sout_C_1_eq] at hacc
  rw [out_C_8_eq]
  refine half_of_acc m c ⟨n, h⟩ h1 i hi _ _ (fun cc => ?_) (fun r cc => ?_)
  · have e := hacc.2 cc
    rw [show n % 16 + 1 = 16 from by omega] at e
    exact e
  · have e := hacc.1 r cc (row i r) (by show 256 * i.val + r.val = 256 * (n / 16) + r.val; rw [hi])
    rw [show n % 16 + 1 = 16 from by omega] at e
    exact e

/-! ## The closing host operations -/

/-- The result array after the region: the two halves' sums, each repeated over its 8 × 128 block. -/
def resultArr (c : Dev nD) : S16x128.Idx → EReal := (dats m 0 c).arrAt 8 cfg0.N

/-- The result after the seven closing operations: the result array's entries at (0, 0) and (8, 0) added and divided by
    the number of pairs. -/
theorem Vf_v11 (c : Dev nD) :
    (Vf m c main_v11 : S_.Idx → EReal)
      = fun _ => Ideal.div (resultArr m c (ix2 (0 : Fin 16) (0 : Fin 128)) + resultArr m c (ix2 (8 : Fin 16) (0 : Fin 128))) npairs := by
  show StableHlo.after (List.flatten [hostOps1]) (Wx m c) (Proc.devRef .tc main_v11) = _
  simp only [List.flatten_cons, List.flatten_nil, List.append_nil]
  after_results
  funext j
  show Ideal.div ((shapeCast S_ (extractStridedSlice S1x1 ![0, 0] (resultArr m c) slices_S16x128_S1x1_0_0) shapeCasts_S1x1_S_ j)
      + (shapeCast S_ (extractStridedSlice S1x1 ![8, 0] (resultArr m c) slices_S16x128_S1x1_8_0) shapeCasts_S1x1_S_ j)) (Ideal.ofBits .f32 0x47FF8000#32) = _
  have hk : ((S1x1 : Shape).rowMajor (ix2 (0 : Fin 1) (0 : Fin 1))).val = ((S_ : Shape).rowMajor j).val := by
    have h1 := ((S1x1 : Shape).rowMajor (ix2 (0 : Fin 1) (0 : Fin 1))).isLt
    have h2 := ((S_ : Shape).rowMajor j).isLt
    have e1 : (S1x1 : Shape).numel = 1 := by decide
    have e2 : (S_ : Shape).numel = 1 := by decide
    omega
  rw [shapeCast_apply _ _ j (ix2 (0 : Fin 1) (0 : Fin 1)) hk, shapeCast_apply _ _ j (ix2 (0 : Fin 1) (0 : Fin 1)) hk,
    extractStridedSlice_apply ![0, 0] _ slices_S16x128_S1x1_0_0 (ix2 (0 : Fin 1) (0 : Fin 1)) (ix2 (0 : Fin 16) (0 : Fin 128)) (fun a => by fin_cases a <;> rfl),
    extractStridedSlice_apply ![8, 0] _ slices_S16x128_S1x1_8_0 (ix2 (0 : Fin 1) (0 : Fin 1)) (ix2 (8 : Fin 16) (0 : Fin 128)) (fun a => by fin_cases a <;> rfl)]
  rfl

/-! ## The kernel's result -/

/-- THE KERNEL'S VALUE: the result buffer ends holding the loss in the kernel's arrangement, of the argument arrays. -/
theorem kernel_value (c : Dev nD) :
    (Vf m c main_v11 : S_.Idx → EReal) = fun _ => lossKer (fieldsA m c) (labels m c) := by
  rw [Vf_v11]
  funext _
  unfold resultArr lossKer
  rw [arrAt8_row0 m c, arrAt8_row8 m c,
    half_at m c 15 _ (by decide) 0 (by decide), half_at m c 31 _ (by decide) 1 (by decide)]

end Cert.KernelIdeal.Body

end
-- ==== Proof.ReferenceFrame.lean ====
/-
  The reference's frame. The reference is a straight line of host operations — per field the flattened array's row sums
  of squares and its Gram product with itself, the pairwise mean squared distances from them, the three fields' distances
  added, the label-equality mask, the margin hinge, the strict upper triangle, the sum and its division by the number of
  pairs — and launches no kernel: its run reads every result off the operations' composed term and leaves the argument
  arrays as they were, which is its frame.
-/
import proofs.«162256_j40226663694515_2_alg».proof.Defs
import proofs.«162256_j40226663694515_2_alg».proof.Proof.Gen.ReferenceIdeal
import proofs.«162256_j40226663694515_2_alg».proof.Proof.Gen.Pre_finite_inputs
import proofs.«162256_j40226663694515_2_alg».proof.Proof.Gen.ReferenceIdeal.Run

noncomputable section

namespace Cert.Proof.Frames

open Idealize.ShloMosaic Idealize.SL.Sem

/-- Every weakly fair execution of the reference terminates, nothing faulting, and its four argument arrays end unchanged. -/
theorem frame_reference : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.ReferenceValue.lean ====
/-
  The reference's result as a function of its argument arrays: the loss in the reference's arrangement.
-/
import proofs.«162256_j40226663694515_2_alg».proof.Proof.Gen.ReferenceIdeal.Read
import proofs.«162256_j40226663694515_2_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Value Idealize.ShloMosaic
open Cert.ReferenceIdeal.Read Idealize.ShloMosaic.ValueIdx Idealize.ShloMosaic.TcCoe Idealize.SL.Sem
open Cert.Loss

/-! ## The argument arrays -/

/-- The three fields, by coordinates. -/
def A (m : (ℓ : Loc nD τ sig) → Buf (Elt Ideal) ℓ) (c : Dev nD) : Fin 3 → Fin 512 → Fin 128 → Fin 128 → EReal := fun f r p q =>
  match f with
  | 0 => m ((c.tc : Thread nD τ).loc main_arg0) (ix3 r p q)
  | 1 => m ((c.tc : Thread nD τ).loc main_arg1) (ix3 r p q)
  | 2 => m ((c.tc : Thread nD τ).loc main_arg2) (ix3 r p q)

/-- The labels, by coordinate. -/
def tg (m : (ℓ : Loc nD τ sig) → Buf (Elt Ideal) ℓ) (c : Dev nD) : Fin 512 → BitVec 32 := fun r =>
  m ((c.tc : Thread nD τ).loc main_arg3) (ix1 r)

/-! ## One field: the flattened array, the squared norms, the inner products, the distance

Stated for an array `x` that is field `f` of `A`; the three fields' stages are the same functions of their arrays. -/

section Field
variable (A : Fin 3 → Fin 512 → Fin 128 → Fin 128 → EReal) (f : Fin 3)
  (x : (⟨S512x128x128, .f32⟩ : BufTy).Contents (Elt Ideal)) (hx : ∀ r p q, x (ix3 r p q) = A f r p q)
include hx

/-- The reshape at `(r, d)` is the array at `(r, d / 128, d % 128)`. -/
theorem flat_at (r : Fin 512) (d : Fin 16384) : val_main_v0 (F := Ideal) x (ix2 r d) = X A f r d := by
  rw [val_main_v0_apply]
  have e : idx_main_v0 (ix2 r d) = ix3 r ⟨d.val / 128, by have := d.isLt; omega⟩ ⟨d.val % 128, Nat.mod_lt _ (by decide)⟩ := by
    have hr := r.isLt
    have hd := d.isLt
    funext a
    match a with
    | ⟨0, _⟩ => exact Fin.ext (show (r.val * 16384 + d.val) / 16384 = r.val by omega)
    | ⟨1, _⟩ => exact Fin.ext (show (r.val * 16384 + d.val) / 128 % 128 = d.val / 128 by omega)
    | ⟨2, _⟩ => exact Fin.ext (show (r.val * 16384 + d.val) % 128 = d.val % 128 by omega)
  rw [e, hx]
  rfl

/-- A row's sum of squares is the sample's squared norm. -/
theorem sq_at (r : Fin 512) : val_main_v2 (F := Ideal) x (ix1 r) = sqOf A f r := by
  rw [val_main_v2_apply, val_main_cst_apply]
  show Ideal.ofBits .f32 0x00000000#32 + _ = _
  rw [Ideal.ofBits_zero_f32, zero_add]
  refine Finset.sum_congr rfl fun d _ => ?_
  have e : idx_main_v2 (ix1 r) d = ix2 r d := by
    funext a
    match a with
    | ⟨0, _⟩ => rfl
    | ⟨1, _⟩ => rfl
  rw [e, val_main_v1_apply, flat_at A f x hx]
  rfl

/-- The contraction over the features is the two samples' inner product. -/
theorem gram_at (r c : Fin 512) : val_main_v3 (F := Ideal) x (ix2 r c) = gramOf A f r c := by
  rw [val_main_v3_apply]
  refine Finset.sum_congr rfl fun d _ => ?_
  have el : lidx_main_v3 (ix2 r c) d = ix2 r d := by
    funext a
    match a with
    | ⟨0, _⟩ => rfl
    | ⟨1, _⟩ => rfl
  have er : ridx_main_v3 (ix2 r c) d = ix2 c d := by
    funext a
    match a with
    | ⟨0, _⟩ => rfl
    | ⟨1, _⟩ => rfl
  rw [el, er, flat_at A f x hx, flat_at A f x hx]

/-- The field's distance matrix at `(r, c)`. -/
theorem dist_at (r c : Fin 512) : val_main_v13 (F := Ideal) x (ix2 r c) = distOf A f r c := by
  rw [val_main_v13_apply, val_main_v11_apply, val_main_v8_apply, val_main_v10_apply, val_main_v6_apply, val_main_v4_apply,
    val_main_v7_apply, val_main_v5_apply, val_main_v9_apply, val_main_cst_0_apply, val_main_v12_apply, val_main_cst_1_apply]
  have e0 : idx_main_v4 (idx_main_v6 (ix2 r c)) = ix1 r := by
    funext a
    match a with
    | ⟨0, _⟩ => rfl
  have e1 : idx_main_v5 (idx_main_v7 (ix2 r c)) = ix1 c := by
    funext a
    match a with
    | ⟨0, _⟩ => rfl
  rw [e0, e1, sq_at A f x hx, sq_at A f x hx, gram_at A f x hx]
  rfl

end Field

/-! ## The three fields' distances added -/

section Three
variable (A : Fin 3 → Fin 512 → Fin 128 → Fin 128 → EReal)
  (x0 x1 x2 : (⟨S512x128x128, .f32⟩ : BufTy).Contents (Elt Ideal)) (x3 : (⟨S512, .i32⟩ : BufTy).Contents (Elt Ideal))
  (h0 : ∀ r p q, x0 (ix3 r p q) = A 0 r p q) (h1 : ∀ r p q, x1 (ix3 r p q) = A 1 r p q)
  (h2 : ∀ r p q, x2 (ix3 r p q) = A 2 r p q)

include h0 h1 h2 in
/-- The second and third fields' distance stages are the first's, of their own arrays; the three are added in order. -/
theorem distRef_at (r c : Fin 512) : val_main_v43 (F := Ideal) x0 x1 x2 (ix2 r c) = distRef A r c := by
  rw [val_main_v43_apply, val_main_v28_apply,
    show val_main_v27 (F := Ideal) x1 = val_main_v13 (F := Ideal) x1 from rfl,
    show val_main_v42 (F := Ideal) x2 = val_main_v13 (F := Ideal) x2 from rfl,
    dist_at A 0 x0 h0, dist_at A 1 x1 h1, dist_at A 2 x2 h2]
  rfl

/-! ## The two masks -/

/-- A coordinate below 512, as a 32-bit word read signed, is itself. -/
theorem toInt_coord (a : Nat) (ha : a < 512) : (BitVec.ofNat 32 a).toInt = (a : Int) := by
  have e : (BitVec.ofNat 32 a).toNat = a := by
    rw [BitVec.toNat_ofNat]
    exact Nat.mod_eq_of_lt (by omega)
  rw [BitVec.toInt_eq_toNat_of_lt (by rw [e]; omega), e]

/-- So the signed comparison `a + 0 ≥ b` of two coordinates' words is the naturals' order. -/
theorem sge_coord (a b : Nat) (ha : a < 512) (hb : b < 512) :
    IntOp.cmpi .sge (IntOp.addi (BitVec.ofNat 32 a) 0#32) (BitVec.ofNat 32 b) = if a < b then 0#1 else 1#1 := by
  show BitVec.ofBool ((BitVec.ofNat 32 b).sle (BitVec.ofNat 32 a + 0#32)) = _
  rw [BitVec.add_zero, BitVec.sle_eq_decide, toInt_coord a ha, toInt_coord b hb]
  by_cases h : a < b
  · rw [if_pos h, decide_eq_false (by omega)]; rfl
  · rw [if_neg h, decide_eq_true (by omega)]; rfl

/-- The comparison of two words for equality, as a bit. -/
theorem eq_bit (u v : BitVec 32) : IntOp.cmpi .eq u v = if u = v then 1#1 else 0#1 := by
  show BitVec.ofBool (u == v) = _
  by_cases h : u = v
  · rw [if_pos h, beq_iff_eq.mpr h]; rfl
  · rw [if_neg h, beq_eq_false_iff_ne.mpr h]; rfl

/-- The strict upper triangle: the mask's bit at `(r, c)` is 1 exactly when `r < c`. -/
theorem upper_at (r c : Fin 512) : val_main_v55 (F := Ideal) (ix2 r c) = if r.val < c.val then 1#1 else 0#1 := by
  rw [val_main_v55_apply, val_main_call1_v4_apply, val_main_call1_v2_apply, val_main_call1_v0_apply, val_main_call1_v1_apply,
    val_main_call1_c_apply, val_main_call1_v3_apply, val_main_call1_v5_apply, val_main_call1_c_0_apply, val_main_v54_apply,
    val_main_c_apply]
  show Scalar.select (IntOp.cmpi .sge (IntOp.addi (BitVec.ofNat 32 r.val) 0#32) (BitVec.ofNat 32 c.val)) 0#1 1#1 = _
  rw [sge_coord r.val c.val r.isLt c.isLt]
  by_cases h : r.val < c.val
  · rw [if_pos h, if_pos h, select_zero]
  · rw [if_neg h, if_neg h, select_one]

/-- The label mask: the bit at `(r, c)` is 1 exactly when the two samples' labels are the same word. -/
theorem same_at (r c : Fin 512) :
    val_main_v48 (F := Ideal) x3 (ix2 r c) = if x3 (ix1 r) = x3 (ix1 c) then 1#1 else 0#1 := by
  rw [val_main_v48_apply, val_main_v46_apply, val_main_v44_apply, val_main_v47_apply, val_main_v45_apply]
  have e0 : idx_main_v44 (idx_main_v46 (ix2 r c)) = ix1 r := by
    funext a
    match a with
    | ⟨0, _⟩ => rfl
  have e1 : idx_main_v45 (idx_main_v47 (ix2 r c)) = ix1 c := by
    funext a
    match a with
    | ⟨0, _⟩ => rfl
  rw [e0, e1]
  exact eq_bit _ _

/-! ## The pair term and the loss -/

include h0 h1 h2 in
/-- The masked matrix at `(r, c)` is the pair's term. -/
theorem pair_at (r c : Fin 512) :
    val_main_v56 (F := Ideal) x0 x1 x2 x3 (ix2 r c) = pairTerm (fun s => x3 (ix1 s)) r c (distRef A r c) := by
  rw [val_main_v56_apply, val_main_v53_apply, val_main_v52_apply, val_main_v50_apply, val_main_v49_apply, val_main_cst_8_apply,
    val_main_v51_apply, val_main_cst_9_apply, val_main_call2_v1_apply, val_main_call2_v0_apply, val_main_cst_10_apply,
    upper_at, same_at, distRef_at A x0 x1 x2 h0 h1 h2]
  simp only [Ideal.ofBits_def, Ideal.subf_def, Ideal.maximumf_def, Ideal.ofBits_zero_f32]
  unfold pairTerm
  by_cases h : r.val < c.val
  · rw [if_pos h, if_pos h, select_one]
    by_cases e : x3 (ix1 r) = x3 (ix1 c)
    · rw [if_pos e, if_pos e, select_one]
    · rw [if_neg e, if_neg e, select_zero]
      rfl
  · rw [if_neg h, if_neg h, select_zero]

end Three

/-- THE REFERENCE'S RESULT is the loss in the reference's arrangement, of the argument arrays. -/
theorem value_eq (m : (ℓ : Loc nD τ sig) → Buf (Elt Ideal) ℓ) (c : Dev nD) :
    Cert.ReferenceIdeal.Value.res_out0 (F := Ideal) m c = fun _ => Cert.Loss.lossRef (A m c) (tg m c) := by
  funext i
  show res_main_v58 (F := Ideal) m c i = _
  rw [val_main_v58_eq, val_main_v58_apply, val_main_v57_apply, val_main_cst_11_apply, val_main_cst_12_apply, sum_idx2]
  simp only [Ideal.ofBits_def, Ideal.hostDivf_def, Ideal.ofBits_zero_f32, zero_add]
  unfold lossRef
  refine congrArg (Ideal.div · npairs) ?_
  refine Finset.sum_congr rfl fun r _ => Finset.sum_congr rfl fun s _ => ?_
  exact pair_at (A m c) _ _ _ _ (fun _ _ _ => rfl) (fun _ _ _ => rfl) (fun _ _ _ => rfl) r s

end Cert.ReferenceIdeal.RefValue

end
-- ==== Proof.LossAlgebra.lean ====
/-
  The kernel's loss equals the reference's when every input entry is a real number.

  Three steps. (1) With no finiteness at all, in the commutative monoid of the extended reals under addition: the
  accumulators after 16 blocks are the three fields' full sums added, because a sum over the 16384 features is the sum
  over 16 blocks of the sums over the 1024 features of a block. (2) With finite inputs every squared norm and inner
  product is a real, the literals 2 and 16384 are reals, the division by 16384 is the product with 1/16384, and the two
  distances agree as reals by distributing that product over the three fields. (3) The pair terms then agree pointwise,
  and the sum over the 512 rows is the sum over the two halves of 256.
-/
import proofs.«162256_j40226663694515_2_alg».proof.Proof.LossSpec

noncomputable section

namespace Cert.Loss

open Idealize.ShloMosaic

/-! ## The literals the distance uses -/

/-- The word of `2.0` denotes the real 2. -/
theorem two_eq : two = ((2 : ℝ) : EReal) := by
  unfold two
  simp [Ideal.ofBits, Ideal.ieee, -EReal.coe_mul]; norm_num

/-- The word of `16384.0` denotes the real 16384. -/
theorem dflat_eq : dflat = ((16384 : ℝ) : EReal) := by
  unfold dflat
  simp [Ideal.ofBits, Ideal.ieee, -EReal.coe_mul]; norm_num

/-! ## Sums over blocks -/

/-- A sum over `N = m · n` indices is the sum over `m` blocks of the sums over the `n` indices of a block, when the
    `j`-th index of block `i` is `n · i + j`. -/
theorem sum_split {m n N : ℕ} (hN : m * n = N) (F : Fin N → EReal) (φ : Fin m → Fin n → Fin N)
    (hφ : ∀ i j, (φ i j).val = n * i.val + j.val) :
    ∑ i : Fin m, ∑ j : Fin n, F (φ i j) = ∑ D : Fin N, F D := by
  subst hN
  rw [← Fintype.sum_prod_type' (f := fun i j => F (φ i j))]
  refine Fintype.sum_equiv finProdFinEquiv _ _ (fun x => ?_)
  congr 1
  apply Fin.ext
  rw [hφ]
  simp [finProdFinEquiv, Nat.add_comm]

/-- The coercion of a finite sum of reals is the sum of the coercions. -/
theorem coe_sum {ι : Type} (s : Finset ι) (g : ι → ℝ) :
    ((∑ i ∈ s, g i : ℝ) : EReal) = ∑ i ∈ s, (g i : EReal) := by
  classical
  refine Finset.induction_on s (by simp) (fun a s ha ih => ?_)
  rw [Finset.sum_insert ha, Finset.sum_insert ha, EReal.coe_add, ih]

variable (A : Fin 3 → Fin 512 → Fin 128 → Fin 128 → EReal) (tg : Fin 512 → BitVec 32)

/-! ## The accumulators, with no finiteness -/

/-- The blocks of a squared norm add up to it. -/
theorem sum_sqBlk (f : Fin 3) (c : Fin 512) : ∑ k : Fin 16, sqBlk A f k c = sqOf A f c :=
  sum_split (by norm_num) (fun D => X A f c D * X A f c D) feat (fun _ _ => rfl)

/-- The blocks of an inner product add up to it. -/
theorem sum_gramBlk (f : Fin 3) (r c : Fin 512) : ∑ k : Fin 16, gramBlk A f k r c = gramOf A f r c :=
  sum_split (by norm_num) (fun D => X A f r D * X A f c D) feat (fun _ _ => rfl)

/-- The sum-of-squares accumulator after `n` blocks is the sum of the first `n` blocks' three parts. -/
theorem sqAcc_eq_range (n : ℕ) (c : Fin 512) :
    sqAcc A n c = ∑ k ∈ Finset.range n,
      (if h : k < 16 then sqBlk A 0 ⟨k, h⟩ c + sqBlk A 1 ⟨k, h⟩ c + sqBlk A 2 ⟨k, h⟩ c else 0) := by
  induction n with
  | zero => simp [sqAcc]
  | succ n ih =>
    rw [Finset.sum_range_succ, ← ih]
    show (if h : n < 16 then sqAcc A n c + sqBlk A 0 ⟨n, h⟩ c + sqBlk A 1 ⟨n, h⟩ c + sqBlk A 2 ⟨n, h⟩ c
      else sqAcc A n c) = _
    by_cases h : n < 16
    · rw [dif_pos h, dif_pos h, add_assoc, add_assoc, ← add_assoc (sqBlk A 0 ⟨n, h⟩ c)]
    · rw [dif_neg h, dif_neg h, add_zero]

/-- The Gram accumulator after `n` blocks, likewise. -/
theorem gramAcc_eq_range (n : ℕ) (r c : Fin 512) :
    gramAcc A n r c = ∑ k ∈ Finset.range n,
      (if h : k < 16 then gramBlk A 0 ⟨k, h⟩ r c + gramBlk A 1 ⟨k, h⟩ r c + gramBlk A 2 ⟨k, h⟩ r c else 0) := by
  induction n with
  | zero => simp [gramAcc]
  | succ n ih =>
    rw [Finset.sum_range_succ, ← ih]
    show (if h : n < 16 then gramAcc A n r c + gramBlk A 0 ⟨n, h⟩ r c + gramBlk A 1 ⟨n, h⟩ r c
      + gramBlk A 2 ⟨n, h⟩ r c else gramAcc A n r c) = _
    by_cases h : n < 16
    · rw [dif_pos h, dif_pos h, add_assoc, add_assoc, ← add_assoc (gramBlk A 0 ⟨n, h⟩ r c)]
    · rw [dif_neg h, dif_neg h, add_zero]

/-- The finished sum-of-squares accumulator is the three fields' squared norms added. -/
theorem sqAcc_16 (c : Fin 512) : sqAcc A 16 c = sqOf A 0 c + sqOf A 1 c + sqOf A 2 c := by
  rw [sqAcc_eq_range, Finset.sum_range]
  have : ∀ i : Fin 16, (if h : i.val < 16 then sqBlk A 0 ⟨i.val, h⟩ c + sqBlk A 1 ⟨i.val, h⟩ c
      + sqBlk A 2 ⟨i.val, h⟩ c else 0) = sqBlk A 0 i c + sqBlk A 1 i c + sqBlk A 2 i c :=
    fun i => dif_pos i.isLt
  simp only [this]
  rw [Finset.sum_add_distrib, Finset.sum_add_distrib, sum_sqBlk, sum_sqBlk, sum_sqBlk]

/-- The finished Gram accumulator is the three fields' inner products added. -/
theorem gramAcc_16 (r c : Fin 512) : gramAcc A 16 r c = gramOf A 0 r c + gramOf A 1 r c + gramOf A 2 r c := by
  rw [gramAcc_eq_range, Finset.sum_range]
  have : ∀ i : Fin 16, (if h : i.val < 16 then gramBlk A 0 ⟨i.val, h⟩ r c + gramBlk A 1 ⟨i.val, h⟩ r c
      + gramBlk A 2 ⟨i.val, h⟩ r c else 0) = gramBlk A 0 i r c + gramBlk A 1 i r c + gramBlk A 2 i r c :=
    fun i => dif_pos i.isLt
  simp only [this]
  rw [Finset.sum_add_distrib, Finset.sum_add_distrib, sum_gramBlk, sum_gramBlk, sum_gramBlk]

/-! ## The distances, with finite inputs -/

/-- Dividing the three fields' totals by 16384 is adding the three fields' quotients, on reals. -/
theorem dist_alg (s0 s1 s2 t0 t1 t2 g0 g1 g2 : ℝ) :
    Ideal.div (((s0 : EReal) + s1 + s2) + ((t0 : EReal) + t1 + t2) - two * ((g0 : EReal) + g1 + g2)) dflat
      = Ideal.div ((s0 : EReal) + t0 - two * g0) dflat + Ideal.div ((s1 : EReal) + t1 - two * g1) dflat
        + Ideal.div ((s2 : EReal) + t2 - two * g2) dflat := by
  rw [two_eq, dflat_eq]
  simp only [Ideal.div_coe (by norm_num : (16384 : ℝ) ≠ 0)]
  norm_cast
  ring

/-- With finite inputs, the kernel's distance is the reference's. -/
theorem distKer_eq_distRef (hfin : ∀ f r p q, ∃ x : ℝ, A f r p q = (x : EReal)) (r c : Fin 512) :
    distKer A r c = distRef A r c := by
  have hX : ∀ f r d, ∃ x : ℝ, X A f r d = (x : EReal) := fun f r d => hfin f r _ _
  choose x hx using hX
  have hsq : ∀ f r, ∃ s : ℝ, sqOf A f r = (s : EReal) := fun f r =>
    ⟨∑ d, x f r d * x f r d, by
      unfold sqOf; rw [coe_sum]
      exact Finset.sum_congr rfl (fun d _ => by rw [hx, EReal.coe_mul])⟩
  have hgr : ∀ f r c, ∃ g : ℝ, gramOf A f r c = (g : EReal) := fun f r c =>
    ⟨∑ d, x f r d * x f c d, by
      unfold gramOf; rw [coe_sum]
      exact Finset.sum_congr rfl (fun d _ => by rw [hx, hx, EReal.coe_mul])⟩
  obtain ⟨s0, hs0⟩ := hsq 0 r
  obtain ⟨s1, hs1⟩ := hsq 1 r
  obtain ⟨s2, hs2⟩ := hsq 2 r
  obtain ⟨t0, ht0⟩ := hsq 0 c
  obtain ⟨t1, ht1⟩ := hsq 1 c
  obtain ⟨t2, ht2⟩ := hsq 2 c
  obtain ⟨g0, hg0⟩ := hgr 0 r c
  obtain ⟨g1, hg1⟩ := hgr 1 r c
  obtain ⟨g2, hg2⟩ := hgr 2 r c
  unfold distKer distRef distOf
  rw [sqAcc_16, sqAcc_16, gramAcc_16, hs0, hs1, hs2, ht0, ht1, ht2, hg0, hg1, hg2]
  exact dist_alg s0 s1 s2 t0 t1 t2 g0 g1 g2

/-! ## The loss -/

/-- With finite inputs, the kernel's loss is the reference's. -/
theorem lossKer_eq_lossRef (A : Fin 3 → Fin 512 → Fin 128 → Fin 128 → EReal) (tg : Fin 512 → BitVec 32)
    (hfin : ∀ f r p q, ∃ x : ℝ, A f r p q = (x : EReal)) : lossKer A tg = lossRef A tg := by
  have hd := distKer_eq_distRef A hfin
  have hsplit := sum_split (by norm_num : 2 * 256 = 512)
    (fun R => ∑ c : Fin 512, pairTerm tg R c (distRef A R c)) row (fun _ _ => rfl)
  rw [Fin.sum_univ_two] at hsplit
  unfold lossKer lossRef
  rw [← hsplit]
  unfold halfKer
  simp only [hd]

end Cert.Loss

end
-- ==== Proof.FiniteInputs.lean ====
/-
  From the precondition to the finiteness of the inputs.

  The precondition says, on every device, that the conjunction over the three float arrays of "every entry has absolute
  value below +∞" is true. A conjunction of bits that is 1 has both bits 1; a reduction by "and" over all axes that is 1
  met a 1 at every index; and an extended real whose absolute value max x (−x) is strictly below ⊤ is neither ⊤ nor ⊥, so it
  is a real.
-/
import proofs.«162256_j40226663694515_2_alg».proof.Defs
import proofs.«162256_j40226663694515_2_alg».proof.Proof.Gen.Pre_finite_inputs
import Idealize.ShloMosaic.Lib.ReduceAll
import Idealize.ShloMosaic.Lib.ValueIdx

noncomputable section

namespace Cert.Proof.Finite

open Idealize.ShloMosaic Idealize.SL.Sem

/-- The scalar shape has one index. -/
instance : Subsingleton Cert.Pre_finite_inputs.S_.Idx := ⟨fun _ _ => funext fun d => d.elim0⟩

/-- The word `0x7F800000` denotes +∞. -/
theorem ofBits_inf : Ideal.ofBits .f32 0x7F800000#32 = ⊤ := by
  simp [Ideal.ofBits, Ideal.ieee]

/-- An extended real whose absolute value compares strictly below +∞ is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

open Cert.Pre_finite_inputs in
/-- One array: if "all entries have absolute value below +∞" is true, every entry is a real. -/
theorem all_real (x : FVec Ideal S512x128x128 .f32)
    (h : Host.reduce IntOp.andi
          (cmpf .olt (Host.absf x)
            (broadcastInDim S512x128x128 ![] Facts.bcast_S_S512x128x128 (constant (F := Ideal) S_ .f32 0x7F800000#32)))
          (constantI S_ 1 1#1) Facts.reducesTo_S512x128x128_S_d0_1_2 Facts.h_S_ ValueIdx.ix0 = 1#1) :
    ∀ i, ∃ r : ℝ, x i = (r : EReal) := by
  intro i
  have hi := Host.reduce_andi_all _ _ _ _ _ h i
  exact real_of_abs_lt (x i) hi

/-- With the precondition, every entry of the three float arguments is a real, on every device. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨all_real _ h0', all_real _ h1, all_real _ h2⟩

end Cert.Proof.Finite

end
-- ==== Proof.lean ====
/- The claims of this certificate, assembled.

   The kernel computes a contrastive loss over 512 samples of three fields: per field the Gram matrix of the flattened
   rows (accumulated over 16 blocks of 1024 features, the rows split in two halves of 256 over the grid's first axis)
   and the rows' sums of squares, the pairwise mean squared distances from them, the label-equality mask, the margin
   hinge and the strict upper triangle, summed per half; the host adds the two halves and divides by the number of
   pairs. The kernel adds the three fields' squared norms and inner products BEFORE forming the distance; the reference
   forms each field's distance and adds the three. On the extended reals the two agree for finite inputs, by
   distributing the division by 16384 and the factor 2 over the sum of the three fields (Proof/LossAlgebra.lean, over
   the real numbers the inputs are); both programs' results are read as the two arrangements of Proof/LossSpec.lean
   (the kernel's in Proof/Ideal/KernelValue.lean, the reference's in Proof/ReferenceValue.lean), and the finiteness
   is the certificate's precondition (Proof/FiniteInputs.lean). The kernel's frames, at both instances, are by the
   launch of a region whose input windows share arrays (Proof/Bits/Launch.lean, Proof/Ideal/Launch.lean); the
   reference's frame is its run. The ideal pass rewrote nothing, so `preserves` is `True`. -/
import proofs.«162256_j40226663694515_2_alg».proof.Defs
import proofs.«162256_j40226663694515_2_alg».proof.Proof.Gen.Kernel
import proofs.«162256_j40226663694515_2_alg».proof.Proof.Gen.KernelIdeal
import proofs.«162256_j40226663694515_2_alg».proof.Proof.Gen.ReferenceIdeal
import proofs.«162256_j40226663694515_2_alg».proof.Proof.Gen.Pre_finite_inputs
import proofs.«162256_j40226663694515_2_alg».proof.Proof.Bits.Launch
import proofs.«162256_j40226663694515_2_alg».proof.Proof.Ideal.KernelValue
import proofs.«162256_j40226663694515_2_alg».proof.Proof.ReferenceFrame
import proofs.«162256_j40226663694515_2_alg».proof.Proof.ReferenceValue
import proofs.«162256_j40226663694515_2_alg».proof.Proof.LossAlgebra
import proofs.«162256_j40226663694515_2_alg».proof.Proof.FiniteInputs
import Idealize.ShloMosaic.Adequacy
import Idealize.ShloMosaic.Init

noncomputable section

namespace Cert.Proof

open Idealize.ShloMosaic Idealize.SL.Sem

/-- The kernel as printed runs to the end, faults nowhere, and leaves its four argument arrays unchanged. -/
theorem frame_kernel : Cert.frame_Kernel := fun m ρ _ => Cert.Kernel.Body.frame (F := Bits) m ρ

/-- So does its idealization, read at the extended reals. -/
theorem frame_kernelIdeal : Cert.frame_KernelIdeal := fun m ρ _ => Cert.KernelIdeal.Body.frame (F := Ideal) m ρ

/-- The ideal pass rewrote no operation: nothing to preserve. -/
theorem preserves : Cert.preserves_Kernel_KernelIdeal := trivial

/-- Every entry of the three fields is a real number, by the precondition. -/
theorem fields_finite (m : (ℓ : Loc Cert.KernelIdeal.nD Cert.KernelIdeal.τ Cert.KernelIdeal.sig) → Buf (Elt Ideal) ℓ)
    (h : Cert.Pre_KernelIdeal m) (c : Dev Cert.KernelIdeal.nD) :
    ∀ f r p q, ∃ x : ℝ, Cert.KernelIdeal.Body.fieldsA m c f r p q = (x : EReal) := fun f r p q =>
  match f with
  | 0 => (Finite.finite_of_pre m h c).1 (ValueIdx.ix3 r p q)
  | 1 => (Finite.finite_of_pre m h c).2.1 (ValueIdx.ix3 r p q)
  | 2 => (Finite.finite_of_pre m h c).2.2 (ValueIdx.ix3 r p q)

/-- From memories agreeing on the arguments, at the extended reals and for finite inputs, the idealized kernel and the
    idealized reference both run and end with the same loss: the kernel's arrangement of it (`Cert.Loss.lossKer`), which
    is the reference's (`Cert.Loss.lossRef`). -/
theorem algebraic : Cert.algebraic_KernelIdeal_ReferenceIdeal := by
  intro m ρ m' ρ' hpre hagree
  refine ⟨fun c => fun _ => Cert.Loss.lossKer (Cert.KernelIdeal.Body.fieldsA m c) (Cert.KernelIdeal.Body.labels m c), ?_, ?_⟩
  · refine (θ_run Cert.KernelIdeal.defs _ _).mono (fun r h c => ⟨?_, ?_, ?_, ?_, ?_⟩) (Cert.KernelIdeal.Body.run_main (F := Ideal) m ρ)
    · exact ((h c).2 Cert.KernelIdeal.main_v11 (by decide)).trans (Cert.KernelIdeal.Body.kernel_value m c)
    · exact ((h c).2 Cert.KernelIdeal.main_arg0 (by decide)).trans (Cert.KernelIdeal.Body.Vf_arg m c Cert.KernelIdeal.main_arg0 (.inl rfl))
    · exact ((h c).2 Cert.KernelIdeal.main_arg1 (by decide)).trans (Cert.KernelIdeal.Body.Vf_arg m c Cert.KernelIdeal.main_arg1 (.inr (.inl rfl)))
    · exact ((h c).2 Cert.KernelIdeal.main_arg2 (by decide)).trans (Cert.KernelIdeal.Body.Vf_arg m c Cert.KernelIdeal.main_arg2 (.inr (.inr (.inl rfl))))
    · exact ((h c).2 Cert.KernelIdeal.main_arg3 (by decide)).trans (Cert.KernelIdeal.Body.Vf_arg m c Cert.KernelIdeal.main_arg3 (.inr (.inr (.inr rfl))))
  · refine (θ_run Cert.ReferenceIdeal.defs _ _).mono (fun r h c => ⟨?_, (h c).2⟩) (Cert.ReferenceIdeal.Value.run (F := Ideal) m' ρ')
    refine (h c).1.trans ?_
    refine (Cert.ReferenceIdeal.RefValue.value_eq m' c).trans ?_
    have hA : Cert.ReferenceIdeal.RefValue.A m' c = Cert.KernelIdeal.Body.fieldsA m c := by
      funext f r p q
      match f with
      | 0 => exact congrFun (hagree c).1 _
      | 1 => exact congrFun (hagree c).2.1 _
      | 2 => exact congrFun (hagree c).2.2.1 _
    have ht : Cert.ReferenceIdeal.RefValue.tg m' c = Cert.KernelIdeal.Body.labels m c := by
      funext r
      exact congrFun (hagree c).2.2.2 _
    rw [hA, ht]
    funext _
    exact (Cert.Loss.lossKer_eq_lossRef _ _ (fields_finite m hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, Frames.frame_reference, preserves, algebraic⟩

end Cert.Proof

end
